-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 4] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 1024]⟩ (Layout.meshBlock [2, 2, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x2048x1024 : Shape := ⟨3, ![1, 2048, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel

variable [Facts]

def fn {F : FTy → Type} [FloatOps F] (main_arg0 : FVec F S1x2048x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  main_v3
-- ==== Pre_finite_inputs_ReferenceIdeal.lean ====
abbrev S2x2048x1024 : Shape := ⟨3, ![2, 2048, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel

variable [Facts]

def fn {F : FTy → Type} [FloatOps F] (main_arg0 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  main_v3
-- ==== Kernel.lean ====
abbrev S1x2048x1024 : Shape := ⟨3, ![1, 2048, 1024]⟩
abbrev S2048x512 : Shape := ⟨2, ![2048, 512]⟩
abbrev S4x512x512 : Shape := ⟨3, ![4, 512, 512]⟩
abbrev S4 : Shape := ⟨1, ![4]⟩
abbrev S_ : Shape := ⟨0, ![]⟩
abbrev S1x512x512 : Shape := ⟨3, ![1, 512, 512]⟩
abbrev S512x512 : Shape := ⟨2, ![512, 512]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S1x2048x1024, .f32⟩
  | .hbm, ⟨1, _⟩ => ⟨S2048x512, .f32⟩
  | .local _ .vmem, ⟨0, _⟩ => ⟨S1x2048x1024, .f32⟩
  | .local _ .vmem, ⟨1, _⟩ => ⟨S2048x512, .f32⟩
  | .local _ .vmem, ⟨2, _⟩ => ⟨S4x512x512, .bf16⟩
  | .local _ .vmem, ⟨3, _⟩ => ⟨S4x512x512, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  { ofTc nBuf bufTy 1 10 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 3 → Nat :=
  let c0 : Index := 0#32
  let c0_8 : Index := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c512_i32 : BitVec 32 := 512#32
  let v17 : BitVec 32 := Scalar.muli v9 c512_i32
  let v18 : Index := Scalar.indexCast v17
  ![0, 0, v18.toNat]
def k0_dev2 (d0 : Dev nD) : Nat :=
  let c0_i32_17 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_16 : BitVec 32 := 8#32
  let v25 : BitVec 32 := Scalar.muli v9 c8_i32_16
  let v26 : BitVec 32 := Scalar.addi c0_i32_17 v25
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_18 : BitVec 32 := 4#32
  let v27 : BitVec 32 := Scalar.muli v5 c4_i32_18
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v29 : BitVec 32 := Scalar.muli v8 c1_i32_19
  let v30 : BitVec 32 := Scalar.addi v28 v29
  v30.toNat
def k0_off2 (d0 : Dev nD) : Fin 3 → Nat :=
  let c0_25 : Index := 0#32
  let c512 : Index := 512#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c512_i32_24 : BitVec 32 := 512#32
  let v39 : BitVec 32 := Scalar.muli v9 c512_i32_24
  let v40 : Index := Scalar.indexCast v39
  ![0, 512, v40.toNat]
def k0_dev3 (d0 : Dev nD) : Nat :=
  let c0_i32_33 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_32 : BitVec 32 := 8#32
  let v47 : BitVec 32 := Scalar.muli v9 c8_i32_32
  let v48 : BitVec 32 := Scalar.addi c0_i32_33 v47
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_34 : BitVec 32 := 4#32
  let v49 : BitVec 32 := Scalar.muli v5 c4_i32_34
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v51 : BitVec 32 := Scalar.muli v8 c1_i32_35
  let v52 : BitVec 32 := Scalar.addi v50 v51
  v52.toNat
def k0_off3 (d0 : Dev nD) : Fin 3 → Nat :=
  let c0_41 : Index := 0#32
  let c1024 : Index := 1024#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c512_i32_40 : BitVec 32 := 512#32
  let v61 : BitVec 32 := Scalar.muli v9 c512_i32_40
  let v62 : Index := Scalar.indexCast v61
  ![0, 1024, v62.toNat]
def k0_dev4 (d0 : Dev nD) : Nat :=
  let c0_i32_49 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_48 : BitVec 32 := 8#32
  let v69 : BitVec 32 := Scalar.muli v9 c8_i32_48
  let v70 : BitVec 32 := Scalar.addi c0_i32_49 v69
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_50 : BitVec 32 := 4#32
  let v71 : BitVec 32 := Scalar.muli v5 c4_i32_50
  let v72 : BitVec 32 := Scalar.addi v70 v71
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v73 : BitVec 32 := Scalar.muli v8 c1_i32_51
  let v74 : BitVec 32 := Scalar.addi v72 v73
  v74.toNat
def k0_off4 (d0 : Dev nD) : Fin 3 → Nat :=
  let c0_57 : Index := 0#32
  let c1536 : Index := 1536#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c512_i32_56 : BitVec 32 := 512#32
  let v83 : BitVec 32 := Scalar.muli v9 c512_i32_56
  let v84 : Index := Scalar.indexCast v83
  ![0, 1536, v84.toNat]
def k0_dev5 (d0 : Dev nD) : Nat :=
  let c0_i32_64 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_63 : BitVec 32 := 8#32
  let v91 : BitVec 32 := Scalar.muli v9 c8_i32_63
  let v92 : BitVec 32 := Scalar.addi c0_i32_64 v91
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_65 : BitVec 32 := 4#32
  let v93 : BitVec 32 := Scalar.muli v5 c4_i32_65
  let v94 : BitVec 32 := Scalar.addi v92 v93
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_66 : BitVec 32 := 1#32
  let v95 : BitVec 32 := Scalar.muli v8 c1_i32_66
  let v96 : BitVec 32 := Scalar.addi v94 v95
  v96.toNat
def k0_off5 (d0 : Dev nD) : Fin 3 → Nat :=
  let c0_84 : Index := 0#32
  let c0_85 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_83 : BitVec 32 := 512#32
  let v117 : BitVec 32 := Scalar.muli v2 c512_i32_83
  let v118 : Index := Scalar.indexCast v117
  ![0, 0, v118.toNat]
def k0_off6 (d0 : Dev nD) : Fin 3 → Nat :=
  let c0_104 : Index := 0#32
  let c512_105 : Index := 512#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_103 : BitVec 32 := 512#32
  let v138 : BitVec 32 := Scalar.muli v2 c512_i32_103
  let v139 : Index := Scalar.indexCast v138
  ![0, 512, v139.toNat]
def k0_off7 (d0 : Dev nD) : Fin 3 → Nat :=
  let c0_124 : Index := 0#32
  let c1024_125 : Index := 1024#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_123 : BitVec 32 := 512#32
  let v159 : BitVec 32 := Scalar.muli v2 c512_i32_123
  let v160 : Index := Scalar.indexCast v159
  ![0, 1024, v160.toNat]
def k0_off8 (d0 : Dev nD) : Fin 3 → Nat :=
  let c0_144 : Index := 0#32
  let c1536_145 : Index := 1536#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_143 : BitVec 32 := 512#32
  let v180 : BitVec 32 := Scalar.muli v2 c512_i32_143
  let v181 : Index := Scalar.indexCast v180
  ![0, 1536, v181.toNat]
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  h_S1x512x512 : 0 < S1x512x512.numel
  shapeCasts_S1x512x512_S512x512 : S1x512x512.ShapeCasts S512x512
  bitsLt_bf16_f32 : FTy.bits .bf16 < FTy.bits .f32
  inb_S4x512x512_S1x512x512_0_0_0 : ∀ a, (![0, 0, 0] : Fin 3 → Nat) a + S1x512x512.size a ≤ S4x512x512.size a
  shapeCasts_S512x512_S1x512x512 : S512x512.ShapeCasts S1x512x512
  packedbf16_S4x512x512_S1x512x512_0_0_0 : (Rect.unit (s := S4x512x512) ![0, 0, 0] S1x512x512.size inb_S4x512x512_S1x512x512_0_0_0).PackedRows (EltTy.packing .bf16)
  inb_S4_S1_0 : ∀ a, (![0] : Fin 1 → Nat) a + S1.size a ≤ S4.size a
  squeezes_S1_S_ : S1.Squeezes S_
  squeezes_S1x512x512_S512x512 : S1x512x512.Squeezes S512x512
  wordsbf16_S4x512x512_S1x512x512_0_0_0 : (Rect.unit (s := S4x512x512) ![0, 0, 0] S1x512x512.size inb_S4x512x512_S1x512x512_0_0_0).WholeWords (EltTy.packing .bf16)
  inb_S4x512x512_S1x512x512_1_0_0 : ∀ a, (![1, 0, 0] : Fin 3 → Nat) a + S1x512x512.size a ≤ S4x512x512.size a
  packedbf16_S4x512x512_S1x512x512_1_0_0 : (Rect.unit (s := S4x512x512) ![1, 0, 0] S1x512x512.size inb_S4x512x512_S1x512x512_1_0_0).PackedRows (EltTy.packing .bf16)
  inb_S4_S1_1 : ∀ a, (![1] : Fin 1 → Nat) a + S1.size a ≤ S4.size a
  wordsbf16_S4x512x512_S1x512x512_1_0_0 : (Rect.unit (s := S4x512x512) ![1, 0, 0] S1x512x512.size inb_S4x512x512_S1x512x512_1_0_0).WholeWords (EltTy.packing .bf16)
  inb_S4x512x512_S1x512x512_2_0_0 : ∀ a, (![2, 0, 0] : Fin 3 → Nat) a + S1x512x512.size a ≤ S4x512x512.size a
  packedbf16_S4x512x512_S1x512x512_2_0_0 : (Rect.unit (s := S4x512x512) ![2, 0, 0] S1x512x512.size inb_S4x512x512_S1x512x512_2_0_0).PackedRows (EltTy.packing .bf16)
  inb_S4_S1_2 : ∀ a, (![2] : Fin 1 → Nat) a + S1.size a ≤ S4.size a
  wordsbf16_S4x512x512_S1x512x512_2_0_0 : (Rect.unit (s := S4x512x512) ![2, 0, 0] S1x512x512.size inb_S4x512x512_S1x512x512_2_0_0).WholeWords (EltTy.packing .bf16)
  inb_S4x512x512_S1x512x512_3_0_0 : ∀ a, (![3, 0, 0] : Fin 3 → Nat) a + S1x512x512.size a ≤ S4x512x512.size a
  packedbf16_S4x512x512_S1x512x512_3_0_0 : (Rect.unit (s := S4x512x512) ![3, 0, 0] S1x512x512.size inb_S4x512x512_S1x512x512_3_0_0).PackedRows (EltTy.packing .bf16)
  inb_S4_S1_3 : ∀ a, (![3] : Fin 1 → Nat) a + S1.size a ≤ S4.size a
  wordsbf16_S4x512x512_S1x512x512_3_0_0 : (Rect.unit (s := S4x512x512) ![3, 0, 0] S1x512x512.size inb_S4x512x512_S1x512x512_3_0_0).WholeWords (EltTy.packing .bf16)
  inb_S2048x512_S512x512_0_0 : ∀ a, (![0, 0] : Fin 2 → Nat) a + S512x512.size a ≤ S2048x512.size a
  h_S512x512 : 0 < S512x512.numel
  inb_S2048x512_S512x512_512_0 : ∀ a, (![512, 0] : Fin 2 → Nat) a + S512x512.size a ≤ S2048x512.size a
  inb_S2048x512_S512x512_1024_0 : ∀ a, (![1024, 0] : Fin 2 → Nat) a + S512x512.size a ≤ S2048x512.size a
  inb_S2048x512_S512x512_1536_0 : ∀ a, (![1536, 0] : Fin 2 → Nat) a + S512x512.size a ≤ S2048x512.size a
  hcc0_scratch2 : 2 + S4.numel ≤ 10
  hcc0_scratch3 : 6 + S4.numel ≤ 10
  k0_dev1_lt : ∀ d0 : Dev nD, (k0_dev1 d0) < nD
  k0_off1_inb : ∀ d0 : Dev nD, ∀ a, (k0_off1 d0) a + S1x512x512.size a ≤ S1x2048x1024.size a
  k0_dev2_lt : ∀ d0 : Dev nD, (k0_dev2 d0) < nD
  k0_off2_inb : ∀ d0 : Dev nD, ∀ a, (k0_off2 d0) a + S1x512x512.size a ≤ S1x2048x1024.size a
  k0_dev3_lt : ∀ d0 : Dev nD, (k0_dev3 d0) < nD
  k0_off3_inb : ∀ d0 : Dev nD, ∀ a, (k0_off3 d0) a + S1x512x512.size a ≤ S1x2048x1024.size a
  k0_dev4_lt : ∀ d0 : Dev nD, (k0_dev4 d0) < nD
  k0_off4_inb : ∀ d0 : Dev nD, ∀ a, (k0_off4 d0) a + S1x512x512.size a ≤ S1x2048x1024.size a
  k0_dev5_lt : ∀ d0 : Dev nD, (k0_dev5 d0) < nD
  k0_off5_inb : ∀ d0 : Dev nD, ∀ a, (k0_off5 d0) a + S1x512x512.size a ≤ S1x2048x1024.size a
  k0_off6_inb : ∀ d0 : Dev nD, ∀ a, (k0_off6 d0) a + S1x512x512.size a ≤ S1x2048x1024.size a
  k0_off7_inb : ∀ d0 : Dev nD, ∀ a, (k0_off7 d0) a + S1x512x512.size a ≤ S1x2048x1024.size a
  k0_off8_inb : ∀ d0 : Dev nD, ∀ a, (k0_off8 d0) a + S1x512x512.size a ≤ S1x2048x1024.size a
  hstage0_0 : ∀ j, (stage0_0 j).IsWhole
  hstage0_1 : ∀ j, (stage0_1 j).IsWhole

variable [Facts₀]

abbrev cc0_scratch2 : DmaSems sig S4 := SemArray.consecutive 2 S4 hcc0_scratch2
abbrev cc0_scratch3 : DmaSems sig S4 := SemArray.consecutive 6 S4 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x2048x1024 : Shape := ⟨3, ![2, 2048, 1024]⟩
abbrev S_ : Shape := ⟨0, ![]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S_, .f32⟩
  | .hbm, ⟨2, _⟩ => ⟨S2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S2x2048x1024_S2048x1024_d0 : S2x2048x1024.ReducesTo [0] S2048x1024
  h_S_ : 0 < S_.numel

variable [Facts₀]

class Facts : Prop extends Facts₀ where

variable [Facts]
-- ==== Proof.Spec.lean ====
/-
  The mathematics of the two-device exchange, stated once over plain arrays.

  The sixteen devices sit on a 2 × 2 × 4 mesh; device `c` has first coordinate `c / 8`, and its partner is the
  device with the other first coordinate and the same two others, `(c + 8) % 16`. Each device holds one of the two
  slabs `x[a, :, :]` of a 2 × 2048 × 1024 array (slab `a = c / 8`). It sends its partner the column half the
  partner keeps and adds what it receives to the column half it keeps itself:
      out_c[r, l] = x_c[0, r, 512·(c/8) + l] + x_partner[0, r, 512·(c/8) + l].
  Summing the two slabs, `x[0] + x[1]`, and cutting the columns in two halves gives the same numbers, because
  addition of extended reals is commutative.
-/
import Idealize.ShloMosaic.Lib.Layout
import Idealize.ShloMosaic.PureOps.Ideal

noncomputable section

namespace Cert.RS

open Idealize.ShloMosaic

abbrev Slab : Shape := ⟨3, ![1, 2048, 1024]⟩
abbrev Half : Shape := ⟨2, ![2048, 512]⟩

/-- The partner of device `c`: the other first mesh coordinate, the same second and third. -/
def peer (c : Fin 16) : Fin 16 := ⟨(c.val + 8) % 16, Nat.mod_lt _ (by decide)⟩

theorem peer_peer (c : Fin 16) : peer (peer c) = c := by revert c; decide
theorem peer_ne (c : Fin 16) : peer c ≠ c := by revert c; decide

/-- Where entry `(r, l)` of device `c`'s result is read in a slab: row `r`, column `512·(c/8) + l`. -/
def srcIdx (c : Fin 16) (i : Half.Idx) : Slab.Idx := fun a => match a with
  | ⟨0, _⟩ => ⟨0, Nat.one_pos⟩
  | ⟨1, _⟩ => ⟨(i 0).val, (i 0).isLt⟩
  | ⟨2, _⟩ => ⟨512 * (c.val / 8) + (i 1).val, by
      have h1 : (i 1).val < 512 := (i 1).isLt
      have hc : c.val < 16 := c.isLt
      show 512 * (c.val / 8) + (i 1).val < 1024
      omega⟩

/-- What device `c` ends with, from its own slab `xc` and its partner's slab `xp`. -/
def outSpec (c : Fin 16) (xc xp : Slab.Idx → EReal) : Half.Idx → EReal :=
  fun i => xc (srcIdx c i) + xp (srcIdx c i)

end Cert.RS

end
-- ==== Proof.KernelCells.lean ====
import proofs.«900473_g7700000000000474_dist_rs_v7x_xyz2x2x4_x_m2048_n512_f32_1_alg».proof.Proof.Spec
import proofs.«900473_g7700000000000474_dist_rs_v7x_xyz2x2x4_x_m2048_n512_f32_1_alg».proof.Proof.Gen.Kernel
import proofs.«900473_g7700000000000474_dist_rs_v7x_xyz2x2x4_x_m2048_n512_f32_1_alg».proof.Proof.Gen.Kernel.Skeleton
import proofs.«900473_g7700000000000474_dist_rs_v7x_xyz2x2x4_x_m2048_n512_f32_1_alg».proof.Proof.Gen.Kernel.Launch
import proofs.«900473_g7700000000000474_dist_rs_v7x_xyz2x2x4_x_m2048_n512_f32_1_alg».proof.Proof.Gen.Kernel.Points
import Idealize.ShloMosaic.Lib.Pipeline.Launch
import Idealize.ShloMosaic.Lib.Pipeline.Kit
import Idealize.ShloMosaic.Lib.Pipeline.FrameBody
import Idealize.ShloMosaic.Lib.Ring
import Idealize.ShloMosaic.Lib.Tactic

noncomputable section

/-!
  The exchange as a protocol between partner devices, and its bookkeeping.

  Every device has nine cells: its barrier cell, four send cells and four receive cells (one pair per 512-row
  chunk). Each cell has exactly one duty, in its one round:
  * the barrier cell is paid one unit by the partner's entry signal, which hands over the partner's whole
    receive buffer (any contents) and the knowledge that the partner's four receive cells are open;
  * send cell `k` is paid by the device's own copy `k`, once its source slot has been read; the slot comes back;
  * receive cell `k` is paid by the partner's copy `k`, once slot `k` of the receive buffer is written; the slot
    comes back holding what the partner sent: the partner's rows `512k … 512k+511`, columns of this device's half.
-/

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds algebra beside the protocol's -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The partner -/

/-- The partner of device `c`: the other first mesh coordinate, the same second and third. -/
def peer (c : Dev nD) : Dev nD := ⟨(c.val + 8) % 16, Nat.mod_lt _ (by decide)⟩

theorem peer_peer (c : Dev nD) : peer (peer c) = c := by revert c; decide
theorem peer_ne (c : Dev nD) : peer c ≠ c := by revert c; decide

/-- Every device id the body computes (the entry signal's, the four copies') is the partner's. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))
theorem dev3_eq (c : Dev nD) : (⟨k0_dev3 c, k0_dev3_lt c⟩ : Dev nD) = peer c :=
  Fin.ext ((k0_dev3_eq c).trans (by revert c; decide))
theorem dev4_eq (c : Dev nD) : (⟨k0_dev4 c, k0_dev4_lt c⟩ : Dev nD) = peer c :=
  Fin.ext ((k0_dev4_eq c).trans (by revert c; decide))
theorem dev5_eq (c : Dev nD) : (⟨k0_dev5 c, k0_dev5_lt c⟩ : Dev nD) = peer c :=
  Fin.ext ((k0_dev5_eq c).trans (by revert c; decide))

/-- The exchange as a permutation of the devices. -/
def swap : Dev nD ≃ Dev nD := ⟨peer, peer, peer_peer, peer_peer⟩

/-! ## The buffers, their slots, and the cells -/

abbrev xM : Memref sig .tc .vmem S1x2048x1024 .f32 := Memref.whole cc0_stg0_0
abbrev oM : Memref sig .tc .vmem S2048x512 .f32 := Memref.whole cc0_stg1_0
abbrev sB : Memref sig .tc .vmem S4x512x512 .bf16 := Memref.whole cc0_scratch0
abbrev rB : Memref sig .tc .vmem S4x512x512 .bf16 := Memref.whole cc0_scratch1

/-- Slot `k` of a 4 × 512 × 512 buffer, as a rectangle. -/
abbrev slotR : Fin 4 → Rect S4x512x512
  | 0 => (Rect.unit (s := S4x512x512) ![0, 0, 0] S1x512x512.size inb_S4x512x512_S1x512x512_0_0_0)
  | 1 => (Rect.unit (s := S4x512x512) ![1, 0, 0] S1x512x512.size inb_S4x512x512_S1x512x512_1_0_0)
  | 2 => (Rect.unit (s := S4x512x512) ![2, 0, 0] S1x512x512.size inb_S4x512x512_S1x512x512_2_0_0)
  | 3 => (Rect.unit (s := S4x512x512) ![3, 0, 0] S1x512x512.size inb_S4x512x512_S1x512x512_3_0_0)
  | ⟨_ + 4, h⟩ => absurd h (by omega)

/-- Slot `k` of the send buffer and of the receive buffer, as 1 × 512 × 512 slices and squeezed to 512 × 512. -/
abbrev sSl : Fin 4 → Memref sig .tc .vmem S1x512x512 .bf16
  | 0 => sB.slice (Rect.unit (s := S4x512x512) ![0, 0, 0] S1x512x512.size inb_S4x512x512_S1x512x512_0_0_0) (fun _ => rfl)
  | 1 => sB.slice (Rect.unit (s := S4x512x512) ![1, 0, 0] S1x512x512.size inb_S4x512x512_S1x512x512_1_0_0) (fun _ => rfl)
  | 2 => sB.slice (Rect.unit (s := S4x512x512) ![2, 0, 0] S1x512x512.size inb_S4x512x512_S1x512x512_2_0_0) (fun _ => rfl)
  | 3 => sB.slice (Rect.unit (s := S4x512x512) ![3, 0, 0] S1x512x512.size inb_S4x512x512_S1x512x512_3_0_0) (fun _ => rfl)
  | ⟨_ + 4, h⟩ => absurd h (by omega)
abbrev rSl : Fin 4 → Memref sig .tc .vmem S1x512x512 .bf16
  | 0 => rB.slice (Rect.unit (s := S4x512x512) ![0, 0, 0] S1x512x512.size inb_S4x512x512_S1x512x512_0_0_0) (fun _ => rfl)
  | 1 => rB.slice (Rect.unit (s := S4x512x512) ![1, 0, 0] S1x512x512.size inb_S4x512x512_S1x512x512_1_0_0) (fun _ => rfl)
  | 2 => rB.slice (Rect.unit (s := S4x512x512) ![2, 0, 0] S1x512x512.size inb_S4x512x512_S1x512x512_2_0_0) (fun _ => rfl)
  | 3 => rB.slice (Rect.unit (s := S4x512x512) ![3, 0, 0] S1x512x512.size inb_S4x512x512_S1x512x512_3_0_0) (fun _ => rfl)
  | ⟨_ + 4, h⟩ => absurd h (by omega)
abbrev sSq (k : Fin 4) : Memref sig .tc .vmem S512x512 .bf16 := (sSl k).squeeze S512x512 squeezes_S1x512x512_S512x512
abbrev rSq (k : Fin 4) : Memref sig .tc .vmem S512x512 .bf16 := (rSl k).squeeze S512x512 squeezes_S1x512x512_S512x512

/-- The barrier semaphore and the eight DMA semaphores. -/
abbrev barS : Sem sig := (SemArray.scalar (sig.barrier 0 rfl) : Sems sig S_).sem
abbrev sendSem : Fin 4 → DmaSem sig
  | 0 => ((cc0_scratch2.slice (Rect.unit (s := S4) ![0] S1.size inb_S4_S1_0)).squeeze S_ squeezes_S1_S_).sem
  | 1 => ((cc0_scratch2.slice (Rect.unit (s := S4) ![1] S1.size inb_S4_S1_1)).squeeze S_ squeezes_S1_S_).sem
  | 2 => ((cc0_scratch2.slice (Rect.unit (s := S4) ![2] S1.size inb_S4_S1_2)).squeeze S_ squeezes_S1_S_).sem
  | 3 => ((cc0_scratch2.slice (Rect.unit (s := S4) ![3] S1.size inb_S4_S1_3)).squeeze S_ squeezes_S1_S_).sem
  | ⟨_ + 4, h⟩ => absurd h (by omega)
abbrev recvSem : Fin 4 → DmaSem sig
  | 0 => ((cc0_scratch3.slice (Rect.unit (s := S4) ![0] S1.size inb_S4_S1_0)).squeeze S_ squeezes_S1_S_).sem
  | 1 => ((cc0_scratch3.slice (Rect.unit (s := S4) ![1] S1.size inb_S4_S1_1)).squeeze S_ squeezes_S1_S_).sem
  | 2 => ((cc0_scratch3.slice (Rect.unit (s := S4) ![2] S1.size inb_S4_S1_2)).squeeze S_ squeezes_S1_S_).sem
  | 3 => ((cc0_scratch3.slice (Rect.unit (s := S4) ![3] S1.size inb_S4_S1_3)).squeeze S_ squeezes_S1_S_).sem
  | ⟨_ + 4, h⟩ => absurd h (by omega)

/-- The nine semaphores of the protocol: the barrier, send 0–3, receive 0–3. -/
abbrev csem : Fin 9 → SemLoc sig
  | 0 => .reg barS
  | 1 => .dma (sendSem 0) | 2 => .dma (sendSem 1) | 3 => .dma (sendSem 2) | 4 => .dma (sendSem 3)
  | 5 => .dma (recvSem 0) | 6 => .dma (recvSem 1) | 7 => .dma (recvSem 2) | 8 => .dma (recvSem 3)
  | ⟨_ + 9, h⟩ => absurd h (by omega)
/-- The kernel's own (scoped) semaphores: the eight DMA semaphores. -/
abbrev osem : Fin 8 → SemLoc sig := fun j => csem j.succ

abbrev kcell (ck : Dev nD × Fin 9) : GSem nD τ sig := ((ck.1 : Thread nD τ), csem ck.2)
abbrev barCell (c : Dev nD) : GSem nD τ sig := kcell (c, 0)
abbrev sendCell (k : Fin 4) (c : Dev nD) : GSem nD τ sig := ((c : Thread nD τ), .dma (sendSem k))
abbrev recvCell (k : Fin 4) (c : Dev nD) : GSem nD τ sig := ((c : Thread nD τ), .dma (recvSem k))

theorem csem_injective : Function.Injective csem := by decide

/-- Which of the nine a semaphore is, if any. -/
def cidx (sm : SemLoc sig) : Option (Fin 9) := (List.finRange 9).find? fun j => csem j = sm
theorem cidx_csem : ∀ j : Fin 9, cidx (csem j) = some j := by decide

/-- One slot's worth of credit (the same for every slot of either buffer). -/
abbrev N : ℕ := (rSq 0).view.dmaCredit
theorem N_pos : 0 < N := View.dmaCredit_pos _ (by decide)

end Cert.Kernel.RS

end
-- ==== Proof.KernelSched.lean ====
import proofs.«900473_g7700000000000474_dist_rs_v7x_xyz2x2x4_x_m2048_n512_f32_1_alg».proof.Proof.Spec
import proofs.«900473_g7700000000000474_dist_rs_v7x_xyz2x2x4_x_m2048_n512_f32_1_alg».proof.Proof.Gen.Kernel
import proofs.«900473_g7700000000000474_dist_rs_v7x_xyz2x2x4_x_m2048_n512_f32_1_alg».proof.Proof.Gen.Kernel.Skeleton
import proofs.«900473_g7700000000000474_dist_rs_v7x_xyz2x2x4_x_m2048_n512_f32_1_alg».proof.Proof.Gen.Kernel.Launch
import proofs.«900473_g7700000000000474_dist_rs_v7x_xyz2x2x4_x_m2048_n512_f32_1_alg».proof.Proof.Gen.Kernel.Points
import proofs.«900473_g7700000000000474_dist_rs_v7x_xyz2x2x4_x_m2048_n512_f32_1_alg».proof.Proof.KernelCells
import Idealize.ShloMosaic.Lib.Pipeline.Launch
import Idealize.ShloMosaic.Lib.Pipeline.Kit
import Idealize.ShloMosaic.Lib.Pipeline.FrameBody
import Idealize.ShloMosaic.Lib.Ring
import Idealize.ShloMosaic.Lib.Tactic

noncomputable section

/-!
  What the buffers hold, and the schedule of the nine cells.

  Device `c`'s staged input is its slab `x_c`. Chunk `k` (rows `512k … 512k+511`) is read twice: at the partner's
  column half, narrowed and sent; at the device's own column half, kept and added to what arrives.
-/

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- Device `c`'s staged input: its slab, as the pipeline fetches it. -/
def xstg (c : Dev nD) : (cc0_stg0_0 : Ref sig .tc).ty.Contents (Elt F) :=
  (win0_0.blk (0 : Fin 1)).view.read (Elt F) ((s₀ m ρ).mem ((c : Thread nD τ).loc main_arg0))

/-- The eight 512 × 512 blocks of the slab the body loads: blocks 1–4 at the partner's columns, 5–8 at its own. -/
def ldx1 (c : Dev nD) : Vec F S1x512x512 .f32 := xM.view.readAt (Elt F) (Rect.unit (s := S1x2048x1024) (k0_off1 c) S1x512x512.size (k0_off1_inb c)).toLoadRect (xstg m ρ c)
def ldx2 (c : Dev nD) : Vec F S1x512x512 .f32 := xM.view.readAt (Elt F) (Rect.unit (s := S1x2048x1024) (k0_off2 c) S1x512x512.size (k0_off2_inb c)).toLoadRect (xstg m ρ c)
def ldx3 (c : Dev nD) : Vec F S1x512x512 .f32 := xM.view.readAt (Elt F) (Rect.unit (s := S1x2048x1024) (k0_off3 c) S1x512x512.size (k0_off3_inb c)).toLoadRect (xstg m ρ c)
def ldx4 (c : Dev nD) : Vec F S1x512x512 .f32 := xM.view.readAt (Elt F) (Rect.unit (s := S1x2048x1024) (k0_off4 c) S1x512x512.size (k0_off4_inb c)).toLoadRect (xstg m ρ c)
def ldx5 (c : Dev nD) : Vec F S1x512x512 .f32 := xM.view.readAt (Elt F) (Rect.unit (s := S1x2048x1024) (k0_off5 c) S1x512x512.size (k0_off5_inb c)).toLoadRect (xstg m ρ c)
def ldx6 (c : Dev nD) : Vec F S1x512x512 .f32 := xM.view.readAt (Elt F) (Rect.unit (s := S1x2048x1024) (k0_off6 c) S1x512x512.size (k0_off6_inb c)).toLoadRect (xstg m ρ c)
def ldx7 (c : Dev nD) : Vec F S1x512x512 .f32 := xM.view.readAt (Elt F) (Rect.unit (s := S1x2048x1024) (k0_off7 c) S1x512x512.size (k0_off7_inb c)).toLoadRect (xstg m ρ c)
def ldx8 (c : Dev nD) : Vec F S1x512x512 .f32 := xM.view.readAt (Elt F) (Rect.unit (s := S1x2048x1024) (k0_off8 c) S1x512x512.size (k0_off8_inb c)).toLoadRect (xstg m ρ c)

/-- What device `c` stores in slot `k` of its send buffer: block `k+1` narrowed. -/
def paySend (k : Fin 4) (c : Dev nD) : FVec F S1x512x512 .bf16 := match k with
  | 0 => k0_pay1 (ldx1 m ρ c) | 1 => k0_pay2 (ldx2 m ρ c) | 2 => k0_pay3 (ldx3 m ρ c) | 3 => k0_pay4 (ldx4 m ρ c)
  | ⟨_ + 4, h⟩ => absurd h (by omega)

/-- The same read through the squeezed 512 × 512 slot: what a copy of the slot carries. -/
def sent (k : Fin 4) (c : Dev nD) : S512x512.Idx → Elt F .bf16 :=
  fun j => paySend m ρ k c (Shape.reshapeEquiv (squeezes_S1x512x512_S512x512).numel_eq j)

/-- A squeezed slot reads what the slice reads, re-indexed. -/
theorem sq_read {κ : Kind} (v : View sig κ .vmem S1x512x512 .bf16) (f : v.ty.Contents (Elt F)) :
    (v.reshape S512x512 (squeezes_S1x512x512_S512x512).numel_eq).read (Elt F) f
      = fun j => v.read (Elt F) f (Shape.reshapeEquiv (squeezes_S1x512x512_S512x512).numel_eq j) := rfl

/-- If the squeezed slot reads `sent`, the slice reads `paySend`. -/
theorem slice_of_sq {κ : Kind} (v : View sig κ .vmem S1x512x512 .bf16) (f : v.ty.Contents (Elt F)) (k : Fin 4) (c : Dev nD)
    (h : (v.reshape S512x512 (squeezes_S1x512x512_S512x512).numel_eq).read (Elt F) f = sent m ρ k c) :
    v.read (Elt F) f = paySend m ρ k c := by
  funext i
  have := congrFun h ((Shape.reshapeEquiv (squeezes_S1x512x512_S512x512).numel_eq).symm i)
  rw [sq_read] at this
  simpa [sent] using this

/-- The four 512 × 512 pieces of device `c`'s result: its own block plus the partner's narrowed block, widened. -/
def outPiece (k : Fin 4) (c : Dev nD) : FVec F S512x512 .f32 := match k with
  | 0 => k0_pay7 (k0_pay5 (ldx5 m ρ c)) (k0_pay6 (paySend m ρ 0 (peer c)))
  | 1 => k0_pay8 (ldx6 m ρ c) (paySend m ρ 1 (peer c))
  | 2 => k0_pay9 (ldx7 m ρ c) (paySend m ρ 2 (peer c))
  | 3 => k0_pay10 (ldx8 m ρ c) (paySend m ρ 3 (peer c))
  | ⟨_ + 4, h⟩ => absurd h (by omega)

abbrev ro0 : Rect S2048x512 := (Rect.unit (s := S2048x512) ![0, 0] S512x512.size inb_S2048x512_S512x512_0_0)
abbrev ro1 : Rect S2048x512 := (Rect.unit (s := S2048x512) ![512, 0] S512x512.size inb_S2048x512_S512x512_512_0)
abbrev ro2 : Rect S2048x512 := (Rect.unit (s := S2048x512) ![1024, 0] S512x512.size inb_S2048x512_S512x512_1024_0)
abbrev ro3 : Rect S2048x512 := (Rect.unit (s := S2048x512) ![1536, 0] S512x512.size inb_S2048x512_S512x512_1536_0)

/-- The result's staging buffer after the body: the four pieces, one under the other. -/
def outAt (c : Dev nD) : Vec F S2048x512 .f32 :=
  View.canon [⟨ro3, outPiece m ρ 3 c⟩, ⟨ro2, outPiece m ρ 2 c⟩, ⟨ro1, outPiece m ρ 1 c⟩, ⟨ro0, outPiece m ρ 0 c⟩]

/-- The four pieces tile the 2048 × 512 buffer. -/
theorem out_cover (p0 p1 p2 p3 : Vec F S512x512 .f32) (y : S2048x512.Idx) :
    ∃ pc ∈ ([⟨ro3, p3⟩, ⟨ro2, p2⟩, ⟨ro1, p1⟩, ⟨ro0, p0⟩] : List (View.Piece (Elt F) S2048x512 .f32)), y ∈ pc.1.set :=
  View.cover_of_tiled [⟨ro3, p3⟩, ⟨ro2, p2⟩, ⟨ro1, p1⟩, ⟨ro0, p0⟩] S512x512.size (by rfl) y

/-! ## The schedule -/

/-- The partner's entry signal hands `c` the partner's whole receive buffer, at any contents. -/
def barPay (c : Dev nD) : sProp 𝕄 :=
  iprop(∃ d : Dev nD, ⌜d = peer c⌝ ∗ ∃ f : Buf (Elt F) ((d : Thread nD τ).loc cc0_scratch1), ((d : Thread nD τ).loc cc0_scratch1) ↦{fullShare} f)
/-- Copy `k` read: the source slot comes back, at any contents. -/
def sendPay (k : Fin 4) (c : Dev nD) : sProp 𝕄 := iprop(∃ X, owns (c : Thread nD τ) (sSq k) fullShare X)
/-- The partner's copy `k` landed: slot `k` of the receive buffer holds what the partner sent. -/
def recvPay (k : Fin 4) (c : Dev nD) : sProp 𝕄 := owns (c : Thread nD τ) (rSq k) fullShare (sent m ρ k (peer c))

def payloadOf (j : Fin 9) (c : Dev nD) : sProp 𝕄 := match j with
  | 0 => barPay c
  | 1 => sendPay 0 c | 2 => sendPay 1 c | 3 => sendPay 2 c | 4 => sendPay 3 c
  | 5 => recvPay m ρ 0 c | 6 => recvPay m ρ 1 c | 7 => recvPay m ρ 2 c | 8 => recvPay m ρ 3 c
  | ⟨_ + 9, h⟩ => absurd h (by omega)

/-- One round, one duty per cell: the barrier's of one unit, a send or receive cell's of one slot's credit. -/
def ringRd : Rounds.Schedule (GSem nD τ sig) Unit 𝕄 where
  duties g r := if r = 0 ∧ g.1.2 = .tc ∧ (cidx g.2).isSome then {()} else ∅
  unitless _ := False
  amount g _ _ := if g.2 = .reg barS then 1 else N
  payload g _ _ := match cidx g.2 with
    | some j => payloadOf m ρ j g.1.1
    | none => iprop(emp)
  amount_pos g _ _ _ := by
    by_cases h : g.2 = .reg barS
    · rw [if_pos h]; exact Nat.one_pos
    · rw [if_neg h]; exact N_pos

instance payloadOf_storable (j : Fin 9) (c : Dev nD) : BI.Storable (upEmb : UEmb _ 𝕄) (payloadOf (F := F) m ρ j c) := by
  unfold payloadOf
  split <;> first | (unfold barPay; infer_instance) | (unfold sendPay; infer_instance) | (unfold recvPay; infer_instance) | (exact absurd ‹_› (by omega))

instance ringRd_payload_storable (g : GSem nD τ sig) (r : ℕ) (d : Unit) :
    BI.Storable (upEmb : UEmb _ 𝕄) ((ringRd (F := F) m ρ).payload g r d) := by
  show BI.Storable upEmb (match cidx g.2 with
    | some j => payloadOf m ρ j g.1.1
    | none => iprop(emp))
  split <;> infer_instance

section Sched
variable (c : Dev nD) (j : Fin 9)

theorem duties_cell : (ringRd (F := F) m ρ).duties (kcell (c, j)) 0 = {()} := by
  dsimp only [ringRd]; rw [cidx_csem]; exact if_pos ⟨rfl, rfl, rfl⟩
theorem duties_later (g : GSem nD τ sig) : ∀ r, 1 ≤ r → (ringRd (F := F) m ρ).duties g r = ∅ :=
  fun r hr => by dsimp only [ringRd]; exact if_neg fun h => by omega
theorem amount_bar (u : Unit) : (ringRd (F := F) m ρ).amount (kcell (c, 0)) 0 u = 1 := by dsimp only [ringRd]; exact if_pos rfl
theorem amount_dma (hj : j ≠ 0) (u : Unit) : (ringRd (F := F) m ρ).amount (kcell (c, j)) 0 u = N := by
  dsimp only [ringRd]; exact if_neg fun h => hj (csem_injective h)
theorem expect_bar : (ringRd (F := F) m ρ).expect (kcell (c, 0)) 0 = 1 := by
  unfold Schedule.expect Schedule.amountOf; rw [duties_cell, Finset.sum_singleton, amount_bar]
theorem expect_dma (hj : j ≠ 0) : (ringRd (F := F) m ρ).expect (kcell (c, j)) 0 = N := by
  unfold Schedule.expect Schedule.amountOf; rw [duties_cell, Finset.sum_singleton, amount_dma m ρ c j hj]
theorem payload_cell (u : Unit) : (ringRd (F := F) m ρ).payload (kcell (c, j)) 0 u = payloadOf m ρ j c := by
  show (match cidx (csem j) with
    | some j' => payloadOf m ρ j' c
    | none => iprop(emp)) = _
  rw [cidx_csem]
theorem rest_cell :
    bigSep ((ringRd (F := F) m ρ).duties (kcell (c, j)) 0 \ ∅) (fun u => (ringRd (F := F) m ρ).payload (kcell (c, j)) 0 u) = payloadOf m ρ j c := by
  rw [Finset.sdiff_empty, duties_cell, bigSep_singleton, payload_cell]

end Sched

end Cert.Kernel.RS

end
-- ==== Proof.KernelData.lean ====
import proofs.«900473_g7700000000000474_dist_rs_v7x_xyz2x2x4_x_m2048_n512_f32_1_alg».proof.Proof.Spec
import proofs.«900473_g7700000000000474_dist_rs_v7x_xyz2x2x4_x_m2048_n512_f32_1_alg».proof.Proof.Gen.Kernel
import proofs.«900473_g7700000000000474_dist_rs_v7x_xyz2x2x4_x_m2048_n512_f32_1_alg».proof.Proof.Gen.Kernel.Skeleton
import proofs.«900473_g7700000000000474_dist_rs_v7x_xyz2x2x4_x_m2048_n512_f32_1_alg».proof.Proof.Gen.Kernel.Launch
import proofs.«900473_g7700000000000474_dist_rs_v7x_xyz2x2x4_x_m2048_n512_f32_1_alg».proof.Proof.Gen.Kernel.Points
import proofs.«900473_g7700000000000474_dist_rs_v7x_xyz2x2x4_x_m2048_n512_f32_1_alg».proof.Proof.KernelCells
import proofs.«900473_g7700000000000474_dist_rs_v7x_xyz2x2x4_x_m2048_n512_f32_1_alg».proof.Proof.KernelSched
import Idealize.ShloMosaic.Lib.Pipeline.Launch
import Idealize.ShloMosaic.Lib.Pipeline.Kit
import Idealize.ShloMosaic.Lib.Pipeline.FrameBody
import Idealize.ShloMosaic.Lib.Ring
import Idealize.ShloMosaic.Lib.Tactic

noncomputable section

/-!
  What each device owes its partner at launch, the order of the cells (who may wait while owing what), and the
  data the launch theorem takes.

  A device owes its partner one unit on the partner's barrier cell and one slot's credit on each of the partner's
  four receive cells. It waits on its own barrier cell while still owing the four credits, so barrier cells sit below
  receive cells; it waits on its receive and send cells owing nothing.
-/

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each core owes; the levels -/

def O₃ (c : Dev nD) : CellTallies nD τ sig Unit := 0 + tallyAt (recvCell 3 (peer c)) () N
def O₂ (c : Dev nD) : CellTallies nD τ sig Unit := O₃ c + tallyAt (recvCell 2 (peer c)) () N
def O₁ (c : Dev nD) : CellTallies nD τ sig Unit := O₂ c + tallyAt (recvCell 1 (peer c)) () N
/-- After the entry signal: the four copies. -/
def Os (c : Dev nD) : CellTallies nD τ sig Unit := O₁ c + tallyAt (recvCell 0 (peer c)) () N
/-- At launch: the four copies and the entry signal. -/
def O₀ (c : Dev nD) : CellTallies nD τ sig Unit := Os c + tallyAt (barCell (peer c)) () 1

def IsRecv (sm : SemLoc sig) : Prop := sm = .dma (recvSem 0) ∨ sm = .dma (recvSem 1) ∨ sm = .dma (recvSem 2) ∨ sm = .dma (recvSem 3)
instance (sm : SemLoc sig) : Decidable (IsRecv sm) := by unfold IsRecv; infer_instance

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if IsRecv g.2 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (k : Fin 4) (c : Dev nD) : lv (recvCell k c) () = 2 := by
  revert k; intro k; fin_cases k <;> (dsimp only [lv]; rw [if_neg (fun h => by cases h), if_pos (by unfold IsRecv; decide)])

theorem Os_pos {c : Dev nD} {g : GSem nD τ sig} {u : Unit} (h : 0 < Os c g u) : ∃ k, g = recvCell k (peer c) := by
  unfold Os O₁ O₂ O₃ at h
  simp only [Pi.add_apply, Finsupp.add_apply, tallyAt_apply, Pi.zero_apply, Finsupp.coe_zero] at h
  by_contra hn
  rw [not_exists] at hn
  rw [if_neg (fun h' => hn 3 h'.1), if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) : (∃ k, g = recvCell k (peer c)) ∨ g = barCell (peer c) := by
  unfold O₀ at h
  rw [Pi.add_apply, Finsupp.add_apply, tallyAt_apply] at h
  by_cases hb : g = barCell (peer c)
  · exact .inr hb
  · rw [if_neg (fun h' => hb h'.1), Nat.add_zero] at h
    exact .inl (Os_pos h)

theorem mayWait_stage (c : Dev nD) (q : DmaSem sig) (hq : ¬ IsRecv (.dma q)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl <;> exact Finset.mem_singleton_self _)
      (fun p hp => by rw [Finset.mem_singleton.mp hp]; dsimp only [lv]; rw [if_neg (fun h => by cases h), if_neg hq])
      (fun g u hg => by
        rcases O₀_pos hg with ⟨k, rfl⟩ | rfl
        · rw [lv_recv]; decide
        · rw [lv_bar]; decide)
  · rw [MayWait_zero]; iintro -; iempintro

/-- At its barrier wait a device owes its four copies only: receive cells, above its barrier cell. -/
theorem mayWait_bar (c : Dev nD) :
    (levAts L lv : sProp 𝕄) ⊢ MayWait (c : Thread nD τ) (.reg barS) () (Os c) :=
  MayOwe.of_cut (L := L) (lev := lv) 1 (fun p hp => by rw [Finset.mem_singleton.mp hp, L_tc]; exact Finset.mem_singleton_self _)
    (fun g u hg => by obtain ⟨k, rfl⟩ := Os_pos hg; exact Finset.mem_singleton_self _)
    (fun p hp => by rw [Finset.mem_singleton.mp hp]; dsimp only [lv]; rw [if_pos rfl])
    (fun g u hg => by obtain ⟨k, rfl⟩ := Os_pos hg; rw [lv_recv]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Every cell's invariant and that every cell is at its one round: shared by all devices. -/
def records (K : Dev nD × Fin 9 → ℕ) : sProp 𝕄 :=
  iprop((bigSep Finset.univ fun ck : Dev nD × Fin 9 => cellInv ER (ringRd m ρ) (K ck) (kcell ck))
    ∗ bigSep Finset.univ fun ck : Dev nD × Fin 9 => reached ER (kcell ck) 0)

instance records_persistent (K : Dev nD × Fin 9 → ℕ) : BI.Persistent (records m ρ K) := by unfold records; infer_instance

theorem inv_at₀ (K : Dev nD × Fin 9 → ℕ) (ck : Dev nD × Fin 9) :
    (bigSep Finset.univ fun ck : Dev nD × Fin 9 => (cellInv ER (ringRd m ρ) (K ck) (kcell ck) : sProp 𝕄)) ⊢ cellInv ER (ringRd m ρ) (K ck) (kcell ck) :=
  bigSep_elim (Finset.mem_univ ck)
theorem reached_at₀ (ck : Dev nD × Fin 9) :
    (bigSep Finset.univ fun ck : Dev nD × Fin 9 => (reached ER (kcell ck) 0 : sProp 𝕄)) ⊢ reached ER (kcell ck) 0 :=
  bigSep_elim (Finset.mem_univ ck)
theorem inv_at (K : Dev nD × Fin 9 → ℕ) (ck : Dev nD × Fin 9) : records m ρ K ⊢ cellInv ER (ringRd m ρ) (K ck) (kcell ck) := by
  unfold records; iintro ⟨H, -⟩; iapply (inv_at₀ m ρ K ck); iexact H
theorem reached_at (K : Dev nD × Fin 9 → ℕ) (ck : Dev nD × Fin 9) : records m ρ K ⊢ reached ER (kcell ck) 0 := by
  unfold records; iintro ⟨-, H⟩; iapply (reached_at₀ (F := F) ck); iexact H

/-- The tokens of the duties device `c` pays: the partner's barrier and receive cells, its own send cells. -/
def payToks (c : Dev nD) : sProp 𝕄 :=
  iprop(dutyTok ER (kcell (peer c, 0)) 0 ()
    ∗ dutyTok ER (kcell (c, 1)) 0 () ∗ dutyTok ER (kcell (c, 2)) 0 () ∗ dutyTok ER (kcell (c, 3)) 0 () ∗ dutyTok ER (kcell (c, 4)) 0 ()
    ∗ dutyTok ER (kcell (peer c, 5)) 0 () ∗ dutyTok ER (kcell (peer c, 6)) 0 () ∗ dutyTok ER (kcell (peer c, 7)) 0 () ∗ dutyTok ER (kcell (peer c, 8)) 0 ())

/-- Its positions in its own nine cells. -/
def posns (c : Dev nD) : sProp 𝕄 :=
  iprop(atPos ER (kcell (c, 0)) 0 ∅ 0 ∗ atPos ER (kcell (c, 1)) 0 ∅ 0 ∗ atPos ER (kcell (c, 2)) 0 ∅ 0 ∗ atPos ER (kcell (c, 3)) 0 ∅ 0 ∗ atPos ER (kcell (c, 4)) 0 ∅ 0 ∗ atPos ER (kcell (c, 5)) 0 ∅ 0 ∗ atPos ER (kcell (c, 6)) 0 ∅ 0 ∗ atPos ER (kcell (c, 7)) 0 ∅ 0 ∗ atPos ER (kcell (c, 8)) 0 ∅ 0)

def ghost (K : Dev nD × Fin 9 → ℕ) (c : Dev nD) : sProp 𝕄 := iprop(records m ρ K ∗ posns c ∗ payToks c)

/-- The credit dealt at launch: one unit on the barrier cell, one slot's on each receive cell. -/
def creds (c : Dev nD) : sProp 𝕄 :=
  iprop(cred (tallyAt (kcell (c, 0)) () 1) ∗ cred (tallyAt (kcell (c, 5)) () N) ∗ cred (tallyAt (kcell (c, 6)) () N)
    ∗ cred (tallyAt (kcell (c, 7)) () N) ∗ cred (tallyAt (kcell (c, 8)) () N))

def start (c : Dev nD) : sProp 𝕄 := iprop((∃ K, ghost m ρ K c) ∗ creds c ∗ levAts L lv)

abbrev scr (c : Dev nD) (b : Ref sig .tc) : sProp 𝕄 := iprop(∃ f : Buf (Elt F) ((c : Thread nD τ).loc b), ((c : Thread nD τ).loc b) ↦{fullShare} f)

def Φ₀ (c : Dev nD) : sProp 𝕄 := iprop(start m ρ c ∗ scr c cc0_scratch0 ∗ scr c cc0_scratch1)
/-- After the point: both scratch buffers back, the eight own cells at zero, closed. -/
def Φ₁ (c : Dev nD) : sProp 𝕄 :=
  iprop((scr c cc0_scratch0 ∗ scr c cc0_scratch1)
    ∗ semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq' (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.Kernel.RS

end
-- ==== Proof.KernelSlots.lean ====
import proofs.«900473_g7700000000000474_dist_rs_v7x_xyz2x2x4_x_m2048_n512_f32_1_alg».proof.Proof.Spec
import proofs.«900473_g7700000000000474_dist_rs_v7x_xyz2x2x4_x_m2048_n512_f32_1_alg».proof.Proof.Gen.Kernel
import proofs.«900473_g7700000000000474_dist_rs_v7x_xyz2x2x4_x_m2048_n512_f32_1_alg».proof.Proof.Gen.Kernel.Skeleton
import proofs.«900473_g7700000000000474_dist_rs_v7x_xyz2x2x4_x_m2048_n512_f32_1_alg».proof.Proof.Gen.Kernel.Launch
import proofs.«900473_g7700000000000474_dist_rs_v7x_xyz2x2x4_x_m2048_n512_f32_1_alg».proof.Proof.Gen.Kernel.Points
import proofs.«900473_g7700000000000474_dist_rs_v7x_xyz2x2x4_x_m2048_n512_f32_1_alg».proof.Proof.KernelCells
import proofs.«900473_g7700000000000474_dist_rs_v7x_xyz2x2x4_x_m2048_n512_f32_1_alg».proof.Proof.KernelSched
import proofs.«900473_g7700000000000474_dist_rs_v7x_xyz2x2x4_x_m2048_n512_f32_1_alg».proof.Proof.KernelData
import Idealize.ShloMosaic.Lib.Pipeline.Launch
import Idealize.ShloMosaic.Lib.Pipeline.Kit
import Idealize.ShloMosaic.Lib.Pipeline.FrameBody
import Idealize.ShloMosaic.Lib.Ring
import Idealize.ShloMosaic.Lib.Tactic

noncomputable section

/-!
  The two scratch buffers cut into their four slots and put together again, and what a slot reads.

  A 4 × 512 × 512 buffer is the disjoint union of its four 1 × 512 × 512 slots; owning the buffer is owning the
  four slots, at one contents going in and at any four contents coming back.
-/

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The elements of slot `k` in a view of a 4 × 512 × 512 buffer. -/
abbrev Ks {κ : Kind} (v : View sig κ .vmem S4x512x512 .bf16) (k : Fin 4) : Finset v.ty.Idx := (v.slice (slotR k)).set

theorem slot_disj : ∀ t t' : Fin 4, t ≠ t' → Disjoint (slotR t).set (slotR t').set := by
  intro t t' h
  fin_cases t <;> fin_cases t' <;> first
    | exact absurd rfl h
    | exact Rect.disjoint_of_separated _ _ 0 (by decide)

theorem slot_cover (y : S4x512x512.Idx) : ∃ t : Fin 4, y ∈ (slotR t).set := by
  obtain ⟨p, hp, hy⟩ := View.cover_of_tiled (Val := fun _ => Unit) (e := .bf16)
    [⟨slotR 0, fun _ => ()⟩, ⟨slotR 1, fun _ => ()⟩, ⟨slotR 2, fun _ => ()⟩, ⟨slotR 3, fun _ => ()⟩] S1x512x512.size (by rfl) y
  simp only [List.mem_cons, List.mem_nil_iff, or_false] at hp
  rcases hp with rfl | rfl | rfl | rfl
  · exact ⟨0, hy⟩
  · exact ⟨1, hy⟩
  · exact ⟨2, hy⟩
  · exact ⟨3, hy⟩

theorem Ks_disj {κ : Kind} (v : View sig κ .vmem S4x512x512 .bf16) :
    ∀ t ∈ (Finset.univ : Finset (Fin 4)), ∀ t' ∈ (Finset.univ : Finset (Fin 4)), t ≠ t' → Disjoint (Ks v t) (Ks v t') := by
  intro t _ t' _ htt
  show Disjoint (v.slice (slotR t)).set (v.slice (slotR t')).set
  rw [View.set_slice, View.set_slice]; exact (Finset.disjoint_map _).mpr (slot_disj t t' htt)

theorem Ks_cover {κ : Kind} (v : View sig κ .vmem S4x512x512 .bf16) : (Finset.univ : Finset (Fin 4)).biUnion (Ks v) = v.set := by
  ext i; constructor
  · intro hi
    obtain ⟨t, -, hi⟩ := Finset.mem_biUnion.mp hi
    exact View.set_slice_subset _ _ hi
  · intro hi
    rw [View.set, Finset.mem_map] at hi
    obtain ⟨x, -, rfl⟩ := hi
    obtain ⟨t, hx⟩ := slot_cover x
    exact Finset.mem_biUnion.mpr ⟨t, Finset.mem_univ _, by show _ ∈ (v.slice (slotR t)).set; rw [View.set_slice]; exact Finset.mem_map_of_mem _ hx⟩

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A buffer's elements owned at one contents are its four slots' elements, owned at that contents; -/
theorem cut4 (d : Dev nD) (M : Memref sig .tc .vmem S4x512x512 .bf16) (f : Buf (Elt F) (M.view.loc (d : Thread nD τ))) :
    (M.view.loc (d : Thread nD τ) ↦[M.view.set]{fullShare} f : sProp 𝕄)
      ⊢ iprop((M.view.loc (d : Thread nD τ) ↦[Ks M.view 0]{fullShare} f) ∗ (M.view.loc (d : Thread nD τ) ↦[Ks M.view 1]{fullShare} f)
          ∗ (M.view.loc (d : Thread nD τ) ↦[Ks M.view 2]{fullShare} f) ∗ (M.view.loc (d : Thread nD τ) ↦[Ks M.view 3]{fullShare} f)) := by
  rw [← Ks_cover M.view, pointsTo_biUnion _ _ (Ks_disj M.view), bigSep_fin4]

/-- and four slots owned at any four contents are the buffer's elements owned at some contents. -/
theorem join4 (d : Dev nD) (M : Memref sig .tc .vmem S4x512x512 .bf16) (f0 f1 f2 f3 : Buf (Elt F) (M.view.loc (d : Thread nD τ))) :
    iprop((M.view.loc (d : Thread nD τ) ↦[Ks M.view 0]{fullShare} f0) ∗ (M.view.loc (d : Thread nD τ) ↦[Ks M.view 1]{fullShare} f1)
          ∗ (M.view.loc (d : Thread nD τ) ↦[Ks M.view 2]{fullShare} f2) ∗ (M.view.loc (d : Thread nD τ) ↦[Ks M.view 3]{fullShare} f3))
      ⊢ (iprop(∃ g, M.view.loc (d : Thread nD τ) ↦[M.view.set]{fullShare} g) : sProp 𝕄) := by
  have h := pointsTo_biUnion_join (Ix := Unit) (Name := ℕ) (U := UU) (Lvl := ℕ) (q := fullShare) (ℓ := M.view.loc (d : Thread nD τ)) (Finset.univ : Finset (Fin 4)) (Ks M.view)
    (fun t : Fin 4 => match t with | 0 => f0 | 1 => f1 | 2 => f2 | 3 => f3 | ⟨_ + 4, h⟩ => absurd h (by omega)) f0 (Ks_disj M.view)
  rw [bigSep_fin4, Ks_cover] at h
  refine h.trans ?_
  iintro ⟨%g, -, Hg⟩
  iexists g; iexact Hg

theorem whole_eq (d : Dev nD) (b : Ref sig .tc) (f : Buf (Elt F) ((d : Thread nD τ).loc b)) :
    ((((d : Thread nD τ).loc b) ↦{fullShare} f) : sProp 𝕄) = ((Memref.whole b).view.loc (d : Thread nD τ) ↦[(Memref.whole b).view.set]{fullShare} f) := by
  rw [View.set_whole]

/-- A squeezed slot has the slice's elements. -/
theorem sSq_set0 : (sSq 0).view.set = Ks sB.view 0 := View.set_reshape _ _
theorem rSq_set0 : (rSq 0).view.set = Ks rB.view 0 := View.set_reshape _ _
theorem sSq_set1 : (sSq 1).view.set = Ks sB.view 1 := View.set_reshape _ _
theorem rSq_set1 : (rSq 1).view.set = Ks rB.view 1 := View.set_reshape _ _
theorem sSq_set2 : (sSq 2).view.set = Ks sB.view 2 := View.set_reshape _ _
theorem rSq_set2 : (rSq 2).view.set = Ks rB.view 2 := View.set_reshape _ _
theorem sSq_set3 : (sSq 3).view.set = Ks sB.view 3 := View.set_reshape _ _
theorem rSq_set3 : (rSq 3).view.set = Ks rB.view 3 := View.set_reshape _ _

/-- The squeezed slot reads a store through the slice as the stored block, re-indexed. -/
theorem read_sq_write {κ : Kind} (v : View sig κ .vmem S1x512x512 .bf16) (f : v.ty.Contents (Elt F)) (w : S1x512x512.Idx → Elt F .bf16) :
    (v.reshape S512x512 (squeezes_S1x512x512_S512x512).numel_eq).read (Elt F) (v.write (Elt F) f w Finset.univ)
      = fun j => w (Shape.reshapeEquiv (squeezes_S1x512x512_S512x512).numel_eq j) := by
  rw [sq_read, View.read_write_univ]

theorem to_sq_s0 (d : Dev nD) (f : Buf (Elt F) (sB.view.loc (d : Thread nD τ))) :
    ((sB.view.loc (d : Thread nD τ) ↦[Ks sB.view 0]{fullShare} f) : sProp 𝕄) = ((sSq 0).view.loc (d : Thread nD τ) ↦[(sSq 0).view.set]{fullShare} f) := by
  rw [sSq_set0]
theorem to_sq_r0 (d : Dev nD) (f : Buf (Elt F) (rB.view.loc (d : Thread nD τ))) :
    ((rB.view.loc (d : Thread nD τ) ↦[Ks rB.view 0]{fullShare} f) : sProp 𝕄) = ((rSq 0).view.loc (d : Thread nD τ) ↦[(rSq 0).view.set]{fullShare} f) := by
  rw [rSq_set0]
theorem to_sq_s1 (d : Dev nD) (f : Buf (Elt F) (sB.view.loc (d : Thread nD τ))) :
    ((sB.view.loc (d : Thread nD τ) ↦[Ks sB.view 1]{fullShare} f) : sProp 𝕄) = ((sSq 1).view.loc (d : Thread nD τ) ↦[(sSq 1).view.set]{fullShare} f) := by
  rw [sSq_set1]
theorem to_sq_r1 (d : Dev nD) (f : Buf (Elt F) (rB.view.loc (d : Thread nD τ))) :
    ((rB.view.loc (d : Thread nD τ) ↦[Ks rB.view 1]{fullShare} f) : sProp 𝕄) = ((rSq 1).view.loc (d : Thread nD τ) ↦[(rSq 1).view.set]{fullShare} f) := by
  rw [rSq_set1]
theorem to_sq_s2 (d : Dev nD) (f : Buf (Elt F) (sB.view.loc (d : Thread nD τ))) :
    ((sB.view.loc (d : Thread nD τ) ↦[Ks sB.view 2]{fullShare} f) : sProp 𝕄) = ((sSq 2).view.loc (d : Thread nD τ) ↦[(sSq 2).view.set]{fullShare} f) := by
  rw [sSq_set2]
theorem to_sq_r2 (d : Dev nD) (f : Buf (Elt F) (rB.view.loc (d : Thread nD τ))) :
    ((rB.view.loc (d : Thread nD τ) ↦[Ks rB.view 2]{fullShare} f) : sProp 𝕄) = ((rSq 2).view.loc (d : Thread nD τ) ↦[(rSq 2).view.set]{fullShare} f) := by
  rw [rSq_set2]
theorem to_sq_s3 (d : Dev nD) (f : Buf (Elt F) (sB.view.loc (d : Thread nD τ))) :
    ((sB.view.loc (d : Thread nD τ) ↦[Ks sB.view 3]{fullShare} f) : sProp 𝕄) = ((sSq 3).view.loc (d : Thread nD τ) ↦[(sSq 3).view.set]{fullShare} f) := by
  rw [sSq_set3]
theorem to_sq_r3 (d : Dev nD) (f : Buf (Elt F) (rB.view.loc (d : Thread nD τ))) :
    ((rB.view.loc (d : Thread nD τ) ↦[Ks rB.view 3]{fullShare} f) : sProp 𝕄) = ((rSq 3).view.loc (d : Thread nD τ) ↦[(rSq 3).view.set]{fullShare} f) := by
  rw [rSq_set3]

/-- The entry signal's payload: the signalling device's own receive buffer. -/
theorem bar_pay (c : Dev nD) (f : Buf (Elt F) ((c : Thread nD τ).loc cc0_scratch1)) :
    ((((c : Thread nD τ).loc cc0_scratch1) ↦{fullShare} f) : sProp 𝕄) ⊢ (ringRd m ρ).payload (kcell (peer c, 0)) 0 () := by
  refine BI.Entails.trans ?_ (Entails.of_eq (payload_cell m ρ (peer c) 0 ()).symm)
  show _ ⊢ barPay (peer c)
  unfold barPay
  iintro H; iexists c; isplitr; · ipureintro; exact (peer_peer c).symm
  iexists f; iexact H

theorem mem_duties (c : Dev nD) (j : Fin 9) : () ∈ (ringRd (F := F) m ρ).duties (kcell (c, j)) 0 := by
  rw [duties_cell]; exact Finset.mem_singleton_self _

/-- Copy `0`: slot `0` of the send buffer, holding `sent 0`, goes to slot `0` of the partner's receive buffer. -/
theorem wp_send_slot0 (K : Dev nD × Fin 9 → ℕ) (c n : Dev nD) (hn : n = peer c)
    {hsc : ((rSq 0) : Memref sig (Dev.tc n : Thread nD τ).2.kind .vmem S512x512 .bf16).view.ref.isScScratch = false}
    {hsrc : (sSq 0).view.WordExact} {hdst : (rSq 0).view.WordExact}
    {hsem : DmaTarget.Typed .vmem (.dma (recvSem 0)) (.remote (Dev.tc n : Thread nD τ) (rSq 0) (.dma (sendSem 0)) hsc)}
    {α : Type} {Q : α → sProp 𝕄} {kont : PUnit → Prog (TpuEff nD τ sig (Elt F) Λ₀ .tc) α}
    (fs : Buf (Elt F) ((sSq 0).view.loc (c : Thread nD τ))) (fn : Buf (Elt F) ((rSq 0).view.loc (peer c : Thread nD τ)))
    (hfs : (sSq 0).view.read (Elt F) fs = sent m ρ 0 c)
    (O O' : CellTallies nD τ sig Unit) (hO : O = O' + tallyAt (kcell (peer c, 5)) () N) (W : Waits sig Unit) :
    iprop(cellInv ER (ringRd m ρ) (K (c, 1)) (kcell (c, 1)) ∗ cellInv ER (ringRd m ρ) (K (peer c, 5)) (kcell (peer c, 5))
        ∗ ((sSq 0).view.loc (c : Thread nD τ) ↦[(sSq 0).view.set]{fullShare} fs)
        ∗ ((rSq 0).view.loc (peer c : Thread nD τ) ↦[(rSq 0).view.set]{fullShare} fn)
        ∗ owes (c : Thread nD τ) O W
        ∗ dutyTok ER (kcell (c, 1)) 0 () ∗ reached ER (kcell (c, 1)) 0
        ∗ dutyTok ER (kcell (peer c, 5)) 0 () ∗ reached ER (kcell (peer c, 5)) 0)
      ⊢ iprop(((cred (tallyAt (kcell (c, 1)) () N) ∗ owes (c : Thread nD τ) O' W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sSq 0) (.remote (Dev.tc n : Thread nD τ) (rSq 0) (.dma (sendSem 0)) hsc) (.dma (recvSem 0)) hsrc hdst hsem) kont) Q) := by
  subst hn
  exact Rounds.wp_send_pointsTo 𝒱₀ ER (ringRd m ρ) (c : Thread nD τ) none (κ₁ := K (c, 1)) (κ₂ := K (peer c, 5))
    (r₁ := 0) (r₂ := 0) (d₁ := ()) (d₂ := ()) (fd := fn)
    (mem_duties m ρ c 1) (mem_duties m ρ (peer c) 5)
    () () N rfl (amount_dma m ρ c 1 (by decide) ()) (amount_dma m ρ (peer c) 5 (by decide) ()) O' hO (W := W)
    (by
      refine BI.Entails.trans ?_ (Entails.of_eq (payload_cell m ρ c 1 ()).symm)
      show _ ⊢ sendPay 0 c
      unfold sendPay
      iintro H; iexists _; iapply (owns_intro (c : Thread nD τ) (sSq 0) fullShare fs); iexact H)
    (by
      refine BI.Entails.trans ?_ (Entails.of_eq (payload_cell m ρ (peer c) 5 ()).symm)
      show _ ⊢ recvPay m ρ 0 (peer c)
      unfold recvPay owns
      iintro H; iexists ((rSq 0).view.write (Elt F) fn ((sSq 0).view.read (Elt F) fs) Finset.univ)
      isplitr
      · ipureintro; rw [View.read_write_univ, hfs, peer_peer]
      · iexact H)

/-- Copy `1`: slot `1` of the send buffer, holding `sent 1`, goes to slot `1` of the partner's receive buffer. -/
theorem wp_send_slot1 (K : Dev nD × Fin 9 → ℕ) (c n : Dev nD) (hn : n = peer c)
    {hsc : ((rSq 1) : Memref sig (Dev.tc n : Thread nD τ).2.kind .vmem S512x512 .bf16).view.ref.isScScratch = false}
    {hsrc : (sSq 1).view.WordExact} {hdst : (rSq 1).view.WordExact}
    {hsem : DmaTarget.Typed .vmem (.dma (recvSem 1)) (.remote (Dev.tc n : Thread nD τ) (rSq 1) (.dma (sendSem 1)) hsc)}
    {α : Type} {Q : α → sProp 𝕄} {kont : PUnit → Prog (TpuEff nD τ sig (Elt F) Λ₀ .tc) α}
    (fs : Buf (Elt F) ((sSq 1).view.loc (c : Thread nD τ))) (fn : Buf (Elt F) ((rSq 1).view.loc (peer c : Thread nD τ)))
    (hfs : (sSq 1).view.read (Elt F) fs = sent m ρ 1 c)
    (O O' : CellTallies nD τ sig Unit) (hO : O = O' + tallyAt (kcell (peer c, 6)) () N) (W : Waits sig Unit) :
    iprop(cellInv ER (ringRd m ρ) (K (c, 2)) (kcell (c, 2)) ∗ cellInv ER (ringRd m ρ) (K (peer c, 6)) (kcell (peer c, 6))
        ∗ ((sSq 1).view.loc (c : Thread nD τ) ↦[(sSq 1).view.set]{fullShare} fs)
        ∗ ((rSq 1).view.loc (peer c : Thread nD τ) ↦[(rSq 1).view.set]{fullShare} fn)
        ∗ owes (c : Thread nD τ) O W
        ∗ dutyTok ER (kcell (c, 2)) 0 () ∗ reached ER (kcell (c, 2)) 0
        ∗ dutyTok ER (kcell (peer c, 6)) 0 () ∗ reached ER (kcell (peer c, 6)) 0)
      ⊢ iprop(((cred (tallyAt (kcell (c, 2)) () N) ∗ owes (c : Thread nD τ) O' W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sSq 1) (.remote (Dev.tc n : Thread nD τ) (rSq 1) (.dma (sendSem 1)) hsc) (.dma (recvSem 1)) hsrc hdst hsem) kont) Q) := by
  subst hn
  exact Rounds.wp_send_pointsTo 𝒱₀ ER (ringRd m ρ) (c : Thread nD τ) none (κ₁ := K (c, 2)) (κ₂ := K (peer c, 6))
    (r₁ := 0) (r₂ := 0) (d₁ := ()) (d₂ := ()) (fd := fn)
    (mem_duties m ρ c 2) (mem_duties m ρ (peer c) 6)
    () () N rfl (amount_dma m ρ c 2 (by decide) ()) (amount_dma m ρ (peer c) 6 (by decide) ()) O' hO (W := W)
    (by
      refine BI.Entails.trans ?_ (Entails.of_eq (payload_cell m ρ c 2 ()).symm)
      show _ ⊢ sendPay 1 c
      unfold sendPay
      iintro H; iexists _; iapply (owns_intro (c : Thread nD τ) (sSq 1) fullShare fs); iexact H)
    (by
      refine BI.Entails.trans ?_ (Entails.of_eq (payload_cell m ρ (peer c) 6 ()).symm)
      show _ ⊢ recvPay m ρ 1 (peer c)
      unfold recvPay owns
      iintro H; iexists ((rSq 1).view.write (Elt F) fn ((sSq 1).view.read (Elt F) fs) Finset.univ)
      isplitr
      · ipureintro; rw [View.read_write_univ, hfs, peer_peer]
      · iexact H)

/-- Copy `2`: slot `2` of the send buffer, holding `sent 2`, goes to slot `2` of the partner's receive buffer. -/
theorem wp_send_slot2 (K : Dev nD × Fin 9 → ℕ) (c n : Dev nD) (hn : n = peer c)
    {hsc : ((rSq 2) : Memref sig (Dev.tc n : Thread nD τ).2.kind .vmem S512x512 .bf16).view.ref.isScScratch = false}
    {hsrc : (sSq 2).view.WordExact} {hdst : (rSq 2).view.WordExact}
    {hsem : DmaTarget.Typed .vmem (.dma (recvSem 2)) (.remote (Dev.tc n : Thread nD τ) (rSq 2) (.dma (sendSem 2)) hsc)}
    {α : Type} {Q : α → sProp 𝕄} {kont : PUnit → Prog (TpuEff nD τ sig (Elt F) Λ₀ .tc) α}
    (fs : Buf (Elt F) ((sSq 2).view.loc (c : Thread nD τ))) (fn : Buf (Elt F) ((rSq 2).view.loc (peer c : Thread nD τ)))
    (hfs : (sSq 2).view.read (Elt F) fs = sent m ρ 2 c)
    (O O' : CellTallies nD τ sig Unit) (hO : O = O' + tallyAt (kcell (peer c, 7)) () N) (W : Waits sig Unit) :
    iprop(cellInv ER (ringRd m ρ) (K (c, 3)) (kcell (c, 3)) ∗ cellInv ER (ringRd m ρ) (K (peer c, 7)) (kcell (peer c, 7))
        ∗ ((sSq 2).view.loc (c : Thread nD τ) ↦[(sSq 2).view.set]{fullShare} fs)
        ∗ ((rSq 2).view.loc (peer c : Thread nD τ) ↦[(rSq 2).view.set]{fullShare} fn)
        ∗ owes (c : Thread nD τ) O W
        ∗ dutyTok ER (kcell (c, 3)) 0 () ∗ reached ER (kcell (c, 3)) 0
        ∗ dutyTok ER (kcell (peer c, 7)) 0 () ∗ reached ER (kcell (peer c, 7)) 0)
      ⊢ iprop(((cred (tallyAt (kcell (c, 3)) () N) ∗ owes (c : Thread nD τ) O' W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sSq 2) (.remote (Dev.tc n : Thread nD τ) (rSq 2) (.dma (sendSem 2)) hsc) (.dma (recvSem 2)) hsrc hdst hsem) kont) Q) := by
  subst hn
  exact Rounds.wp_send_pointsTo 𝒱₀ ER (ringRd m ρ) (c : Thread nD τ) none (κ₁ := K (c, 3)) (κ₂ := K (peer c, 7))
    (r₁ := 0) (r₂ := 0) (d₁ := ()) (d₂ := ()) (fd := fn)
    (mem_duties m ρ c 3) (mem_duties m ρ (peer c) 7)
    () () N rfl (amount_dma m ρ c 3 (by decide) ()) (amount_dma m ρ (peer c) 7 (by decide) ()) O' hO (W := W)
    (by
      refine BI.Entails.trans ?_ (Entails.of_eq (payload_cell m ρ c 3 ()).symm)
      show _ ⊢ sendPay 2 c
      unfold sendPay
      iintro H; iexists _; iapply (owns_intro (c : Thread nD τ) (sSq 2) fullShare fs); iexact H)
    (by
      refine BI.Entails.trans ?_ (Entails.of_eq (payload_cell m ρ (peer c) 7 ()).symm)
      show _ ⊢ recvPay m ρ 2 (peer c)
      unfold recvPay owns
      iintro H; iexists ((rSq 2).view.write (Elt F) fn ((sSq 2).view.read (Elt F) fs) Finset.univ)
      isplitr
      · ipureintro; rw [View.read_write_univ, hfs, peer_peer]
      · iexact H)

/-- Copy `3`: slot `3` of the send buffer, holding `sent 3`, goes to slot `3` of the partner's receive buffer. -/
theorem wp_send_slot3 (K : Dev nD × Fin 9 → ℕ) (c n : Dev nD) (hn : n = peer c)
    {hsc : ((rSq 3) : Memref sig (Dev.tc n : Thread nD τ).2.kind .vmem S512x512 .bf16).view.ref.isScScratch = false}
    {hsrc : (sSq 3).view.WordExact} {hdst : (rSq 3).view.WordExact}
    {hsem : DmaTarget.Typed .vmem (.dma (recvSem 3)) (.remote (Dev.tc n : Thread nD τ) (rSq 3) (.dma (sendSem 3)) hsc)}
    {α : Type} {Q : α → sProp 𝕄} {kont : PUnit → Prog (TpuEff nD τ sig (Elt F) Λ₀ .tc) α}
    (fs : Buf (Elt F) ((sSq 3).view.loc (c : Thread nD τ))) (fn : Buf (Elt F) ((rSq 3).view.loc (peer c : Thread nD τ)))
    (hfs : (sSq 3).view.read (Elt F) fs = sent m ρ 3 c)
    (O O' : CellTallies nD τ sig Unit) (hO : O = O' + tallyAt (kcell (peer c, 8)) () N) (W : Waits sig Unit) :
    iprop(cellInv ER (ringRd m ρ) (K (c, 4)) (kcell (c, 4)) ∗ cellInv ER (ringRd m ρ) (K (peer c, 8)) (kcell (peer c, 8))
        ∗ ((sSq 3).view.loc (c : Thread nD τ) ↦[(sSq 3).view.set]{fullShare} fs)
        ∗ ((rSq 3).view.loc (peer c : Thread nD τ) ↦[(rSq 3).view.set]{fullShare} fn)
        ∗ owes (c : Thread nD τ) O W
        ∗ dutyTok ER (kcell (c, 4)) 0 () ∗ reached ER (kcell (c, 4)) 0
        ∗ dutyTok ER (kcell (peer c, 8)) 0 () ∗ reached ER (kcell (peer c, 8)) 0)
      ⊢ iprop(((cred (tallyAt (kcell (c, 4)) () N) ∗ owes (c : Thread nD τ) O' W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sSq 3) (.remote (Dev.tc n : Thread nD τ) (rSq 3) (.dma (sendSem 3)) hsc) (.dma (recvSem 3)) hsrc hdst hsem) kont) Q) := by
  subst hn
  exact Rounds.wp_send_pointsTo 𝒱₀ ER (ringRd m ρ) (c : Thread nD τ) none (κ₁ := K (c, 4)) (κ₂ := K (peer c, 8))
    (r₁ := 0) (r₂ := 0) (d₁ := ()) (d₂ := ()) (fd := fn)
    (mem_duties m ρ c 4) (mem_duties m ρ (peer c) 8)
    () () N rfl (amount_dma m ρ c 4 (by decide) ()) (amount_dma m ρ (peer c) 8 (by decide) ()) O' hO (W := W)
    (by
      refine BI.Entails.trans ?_ (Entails.of_eq (payload_cell m ρ c 4 ()).symm)
      show _ ⊢ sendPay 3 c
      unfold sendPay
      iintro H; iexists _; iapply (owns_intro (c : Thread nD τ) (sSq 3) fullShare fs); iexact H)
    (by
      refine BI.Entails.trans ?_ (Entails.of_eq (payload_cell m ρ (peer c) 8 ()).symm)
      show _ ⊢ recvPay m ρ 3 (peer c)
      unfold recvPay owns
      iintro H; iexists ((rSq 3).view.write (Elt F) fn ((sSq 3).view.read (Elt F) fs) Finset.univ)
      isplitr
      · ipureintro; rw [View.read_write_univ, hfs, peer_peer]
      · iexact H)

end Cert.Kernel.RS

end
-- ==== Proof.KernelBody.lean ====
import proofs.«900473_g7700000000000474_dist_rs_v7x_xyz2x2x4_x_m2048_n512_f32_1_alg».proof.Proof.Spec
import proofs.«900473_g7700000000000474_dist_rs_v7x_xyz2x2x4_x_m2048_n512_f32_1_alg».proof.Proof.Gen.Kernel
import proofs.«900473_g7700000000000474_dist_rs_v7x_xyz2x2x4_x_m2048_n512_f32_1_alg».proof.Proof.Gen.Kernel.Skeleton
import proofs.«900473_g7700000000000474_dist_rs_v7x_xyz2x2x4_x_m2048_n512_f32_1_alg».proof.Proof.Gen.Kernel.Launch
import proofs.«900473_g7700000000000474_dist_rs_v7x_xyz2x2x4_x_m2048_n512_f32_1_alg».proof.Proof.Gen.Kernel.Points
import proofs.«900473_g7700000000000474_dist_rs_v7x_xyz2x2x4_x_m2048_n512_f32_1_alg».proof.Proof.KernelCells
import proofs.«900473_g7700000000000474_dist_rs_v7x_xyz2x2x4_x_m2048_n512_f32_1_alg».proof.Proof.KernelSched
import proofs.«900473_g7700000000000474_dist_rs_v7x_xyz2x2x4_x_m2048_n512_f32_1_alg».proof.Proof.KernelData
import proofs.«900473_g7700000000000474_dist_rs_v7x_xyz2x2x4_x_m2048_n512_f32_1_alg».proof.Proof.KernelSlots
import Idealize.ShloMosaic.Lib.Pipeline.Launch
import Idealize.ShloMosaic.Lib.Pipeline.Kit
import Idealize.ShloMosaic.Lib.Pipeline.FrameBody
import Idealize.ShloMosaic.Lib.Ring
import Idealize.ShloMosaic.Lib.Tactic

noncomputable section

/-!
  One device's body, stepped from start to end.

  The entry signal hands the partner this device's receive buffer; the wait on the own barrier cell brings the
  partner's. Both scratch buffers are cut into their four slots. Chunk by chunk the slab's block at the partner's
  columns is narrowed, stored in a slot and sent into the partner's slot of the same number; then chunk by chunk the
  partner's copy is awaited, its slot read, and own block plus received block stored in the result; then the four
  copies are awaited on the sending side. At the end the eight own cells are closed and the slots put together
  again. The four stores tile the result's staging buffer, so it holds the four pieces whatever it held before.
-/

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 9 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What one device's body starts from: the protocol's ghost state and launch credit, its two scratch buffers at any
    contents, what it owes, its slab staged, the result's staging buffer at any contents. -/
def bodyPre (c : Dev nD) : sProp 𝕄 :=
  iprop((ghost m ρ K c ∗ creds c ∗ levAts L lv ∗ scr c cc0_scratch0 ∗ scr c cc0_scratch1)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it ends with: the scratch buffers back, its eight cells closed, nothing owed, the slab as staged, and the
    result's staging buffer holding own block plus partner's block, chunk by chunk. -/
def bodyPost (c : Dev nD) : sProp 𝕄 :=
  iprop(Φ₁ c ∗ (dats m ρ 0 c).owesAt () t₀.succ ∗ stg c cc0_stg0_0 (xstg m ρ c) ∗ stg c cc0_stg1_0 (outAt m ρ c))

set_option maxHeartbeats 8000000 in
set_option maxRecDepth 65536 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold bodyPre ghost posns payToks creds
  iintro ⟨⟨⟨⟨#Hrec, ⟨Hp0, Hp1, Hp2, Hp3, Hp4, Hp5, Hp6, Hp7, Hp8⟩, ⟨HtB, HtS0, HtS1, HtS2, HtS3, HtR0, HtR1, HtR2, HtR3⟩⟩, ⟨HcB, HcR0, HcR1, HcR2, HcR3⟩, #Hlev, ⟨%fs, Hs⟩, ⟨%fr, Hr⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  ihave HI0 := (inv_at m ρ K (c, 0)) $$ Hrec; icases HI0 with #HI0
  ihave HI1 := (inv_at m ρ K (c, 1)) $$ Hrec; icases HI1 with #HI1
  ihave HI2 := (inv_at m ρ K (c, 2)) $$ Hrec; icases HI2 with #HI2
  ihave HI3 := (inv_at m ρ K (c, 3)) $$ Hrec; icases HI3 with #HI3
  ihave HI4 := (inv_at m ρ K (c, 4)) $$ Hrec; icases HI4 with #HI4
  ihave HI5 := (inv_at m ρ K (c, 5)) $$ Hrec; icases HI5 with #HI5
  ihave HI6 := (inv_at m ρ K (c, 6)) $$ Hrec; icases HI6 with #HI6
  ihave HI7 := (inv_at m ρ K (c, 7)) $$ Hrec; icases HI7 with #HI7
  ihave HI8 := (inv_at m ρ K (c, 8)) $$ Hrec; icases HI8 with #HI8
  ihave HIP0 := (inv_at m ρ K (peer c, 0)) $$ Hrec; icases HIP0 with #HIP0
  ihave HIP5 := (inv_at m ρ K (peer c, 5)) $$ Hrec; icases HIP5 with #HIP5
  ihave HIP6 := (inv_at m ρ K (peer c, 6)) $$ Hrec; icases HIP6 with #HIP6
  ihave HIP7 := (inv_at m ρ K (peer c, 7)) $$ Hrec; icases HIP7 with #HIP7
  ihave HIP8 := (inv_at m ρ K (peer c, 8)) $$ Hrec; icases HIP8 with #HIP8
  ihave Hre1 := (reached_at m ρ K (c, 1)) $$ Hrec; icases Hre1 with #Hre1
  ihave Hre2 := (reached_at m ρ K (c, 2)) $$ Hrec; icases Hre2 with #Hre2
  ihave Hre3 := (reached_at m ρ K (c, 3)) $$ Hrec; icases Hre3 with #Hre3
  ihave Hre4 := (reached_at m ρ K (c, 4)) $$ Hrec; icases Hre4 with #Hre4
  ihave HreP0 := (reached_at m ρ K (peer c, 0)) $$ Hrec; icases HreP0 with #HreP0
  ihave HreP5 := (reached_at m ρ K (peer c, 5)) $$ Hrec; icases HreP5 with #HreP5
  ihave HreP6 := (reached_at m ρ K (peer c, 6)) $$ Hrec; icases HreP6 with #HreP6
  ihave HreP7 := (reached_at m ρ K (peer c, 7)) $$ Hrec; icases HreP7 with #HreP7
  ihave HreP8 := (reached_at m ρ K (peer c, 8)) $$ Hrec; icases HreP8 with #HreP8
  -- the entry signal to the partner's barrier cell: it hands over this device's receive buffer
  simp only [dev1_eq c]
  iapply (Rounds.wp_signal 𝒱₀ ER (ringRd m ρ) (c : Thread nD τ) none (dst := (peer c : Thread nD τ)) (κ := K (peer c, 0))
      (d := ()) (mem_duties m ρ (peer c) 0) ((amount_bar m ρ (peer c) ()).trans (by decide)) () (Os c) rfl)
    $$ [HO HtB Hr]
  · isplitr; · iexact HIP0
    isplitl [HO]; · iexact HO
    isplitl [HtB]; · iexact HtB
    isplitl [Hr]
    · iapply (bar_pay m ρ c fr); iexact Hr
    · iexact HreP0
  iintro HO
  -- the wait on the own barrier cell, still owing the four copies: the partner's receive buffer comes with it
  iapply (Rounds.wp_wait_rest_token 𝒱₀ ER (ringRd m ρ) (c : Thread nD τ) none (κ := K (c, 0))
      (wpE_semWait_eq 𝒱₀ (c : Thread nD τ) none Set.univ) (Set.mem_univ _) () (O := Os c) (W := W) (R := 0) (m := 0) (T := ∅)
      (by rw [expect_bar]; decide)) $$ [HcB HO Hp0]
  · isplitr; · iexact HI0
    isplitl [HcB]; · iexact HcB
    isplitl [HO]; · iexact HO
    isplitr; · iapply (mayWait_bar c); iexact Hlev
    iexact Hp0
  iintro ⟨HO, Hp0, -, Hpay⟩
  ihave Hpay := (Entails.of_eq (rest_cell m ρ c 0)) $$ Hpay
  ihave Hpay := (show payloadOf m ρ 0 c ⊢ barPay c from .rfl) $$ Hpay
  unfold barPay
  icases Hpay with ⟨%dp, %hdp, %fn, HrN⟩
  subst hdp
  -- both buffers cut into their slots
  ihave HrN := (Entails.of_eq (whole_eq (peer c) cc0_scratch1 fn)) $$ HrN
  ihave HrN := (cut4 (peer c) rB fn) $$ HrN
  icases HrN with ⟨HN0, HN1, HN2, HN3⟩
  ihave Hs := (Entails.of_eq (whole_eq c cc0_scratch0 fs)) $$ Hs
  ihave Hs := (cut4 c sB fs) $$ Hs
  icases Hs with ⟨Hs0, Hs1, Hs2, Hs3⟩
  unfold Os O₁ O₂ O₃
  -- chunk 0: the slab's block at the partner's columns, narrowed, stored in slot 0 and sent
  iapply (wp_load 𝒱₀ (c : Thread nD τ) none Set.univ (m := xM) (Finset.subset_univ _)) $$ Hx; iintro Hx
  iapply (wp_load_rect 𝒱₀ (c : Thread nD τ) none Set.univ (m := sB) (r := (Rect.unit (s := S4x512x512) ![0, 0, 0] S1x512x512.size inb_S4x512x512_S1x512x512_0_0_0)) (Finset.Subset.refl _)) $$ Hs0; iintro Hs0
  iapply (wp_store 𝒱₀ (c : Thread nD τ) none Set.univ (m := sB) (r := (Rect.unit (s := S4x512x512) ![0, 0, 0] S1x512x512.size inb_S4x512x512_S1x512x512_0_0_0)) (Mk := Finset.univ) (S := (sB.access (Rect.unit (s := S4x512x512) ![0, 0, 0] S1x512x512.size inb_S4x512x512_S1x512x512_0_0_0)).set) (Finset.Subset.refl _)) $$ Hs0; iintro Hs0
  ihave Hs0 := (Entails.of_eq (to_sq_s0 c _)) $$ Hs0
  ihave HN0 := (Entails.of_eq (to_sq_r0 (peer c) fn)) $$ HN0
  iapply (wp_send_slot0 m ρ K c _ (dev2_eq c) ((sB.access (Rect.unit (s := S4x512x512) ![0, 0, 0] S1x512x512.size inb_S4x512x512_S1x512x512_0_0_0)).write (Elt F) fs (paySend m ρ 0 c) Finset.univ) fn
      (read_sq_write (sB.access (Rect.unit (s := S4x512x512) ![0, 0, 0] S1x512x512.size inb_S4x512x512_S1x512x512_0_0_0)) fs (paySend m ρ 0 c)) _ (O₁ c) rfl _) $$ [Hs0 HN0 HO HtS0 HtR0]
  · isplitr; · iexact HI1
    isplitr; · iexact HIP5
    isplitl [Hs0]; · iexact Hs0
    isplitl [HN0]; · iexact HN0
    isplitl [HO]; · iexact HO
    isplitl [HtS0]; · iexact HtS0
    isplitr; · iexact Hre1
    isplitl [HtR0]; · iexact HtR0
    iexact HreP5
  iintro ⟨HcS0, HO⟩
  -- chunk 1: the slab's block at the partner's columns, narrowed, stored in slot 1 and sent
  iapply (wp_load 𝒱₀ (c : Thread nD τ) none Set.univ (m := xM) (Finset.subset_univ _)) $$ Hx; iintro Hx
  iapply (wp_load_rect 𝒱₀ (c : Thread nD τ) none Set.univ (m := sB) (r := (Rect.unit (s := S4x512x512) ![1, 0, 0] S1x512x512.size inb_S4x512x512_S1x512x512_1_0_0)) (Finset.Subset.refl _)) $$ Hs1; iintro Hs1
  iapply (wp_store 𝒱₀ (c : Thread nD τ) none Set.univ (m := sB) (r := (Rect.unit (s := S4x512x512) ![1, 0, 0] S1x512x512.size inb_S4x512x512_S1x512x512_1_0_0)) (Mk := Finset.univ) (S := (sB.access (Rect.unit (s := S4x512x512) ![1, 0, 0] S1x512x512.size inb_S4x512x512_S1x512x512_1_0_0)).set) (Finset.Subset.refl _)) $$ Hs1; iintro Hs1
  ihave Hs1 := (Entails.of_eq (to_sq_s1 c _)) $$ Hs1
  ihave HN1 := (Entails.of_eq (to_sq_r1 (peer c) fn)) $$ HN1
  iapply (wp_send_slot1 m ρ K c _ (dev3_eq c) ((sB.access (Rect.unit (s := S4x512x512) ![1, 0, 0] S1x512x512.size inb_S4x512x512_S1x512x512_1_0_0)).write (Elt F) fs (paySend m ρ 1 c) Finset.univ) fn
      (read_sq_write (sB.access (Rect.unit (s := S4x512x512) ![1, 0, 0] S1x512x512.size inb_S4x512x512_S1x512x512_1_0_0)) fs (paySend m ρ 1 c)) _ (O₂ c) rfl _) $$ [Hs1 HN1 HO HtS1 HtR1]
  · isplitr; · iexact HI2
    isplitr; · iexact HIP6
    isplitl [Hs1]; · iexact Hs1
    isplitl [HN1]; · iexact HN1
    isplitl [HO]; · iexact HO
    isplitl [HtS1]; · iexact HtS1
    isplitr; · iexact Hre2
    isplitl [HtR1]; · iexact HtR1
    iexact HreP6
  iintro ⟨HcS1, HO⟩
  -- chunk 2: the slab's block at the partner's columns, narrowed, stored in slot 2 and sent
  iapply (wp_load 𝒱₀ (c : Thread nD τ) none Set.univ (m := xM) (Finset.subset_univ _)) $$ Hx; iintro Hx
  iapply (wp_load_rect 𝒱₀ (c : Thread nD τ) none Set.univ (m := sB) (r := (Rect.unit (s := S4x512x512) ![2, 0, 0] S1x512x512.size inb_S4x512x512_S1x512x512_2_0_0)) (Finset.Subset.refl _)) $$ Hs2; iintro Hs2
  iapply (wp_store 𝒱₀ (c : Thread nD τ) none Set.univ (m := sB) (r := (Rect.unit (s := S4x512x512) ![2, 0, 0] S1x512x512.size inb_S4x512x512_S1x512x512_2_0_0)) (Mk := Finset.univ) (S := (sB.access (Rect.unit (s := S4x512x512) ![2, 0, 0] S1x512x512.size inb_S4x512x512_S1x512x512_2_0_0)).set) (Finset.Subset.refl _)) $$ Hs2; iintro Hs2
  ihave Hs2 := (Entails.of_eq (to_sq_s2 c _)) $$ Hs2
  ihave HN2 := (Entails.of_eq (to_sq_r2 (peer c) fn)) $$ HN2
  iapply (wp_send_slot2 m ρ K c _ (dev4_eq c) ((sB.access (Rect.unit (s := S4x512x512) ![2, 0, 0] S1x512x512.size inb_S4x512x512_S1x512x512_2_0_0)).write (Elt F) fs (paySend m ρ 2 c) Finset.univ) fn
      (read_sq_write (sB.access (Rect.unit (s := S4x512x512) ![2, 0, 0] S1x512x512.size inb_S4x512x512_S1x512x512_2_0_0)) fs (paySend m ρ 2 c)) _ (O₃ c) rfl _) $$ [Hs2 HN2 HO HtS2 HtR2]
  · isplitr; · iexact HI3
    isplitr; · iexact HIP7
    isplitl [Hs2]; · iexact Hs2
    isplitl [HN2]; · iexact HN2
    isplitl [HO]; · iexact HO
    isplitl [HtS2]; · iexact HtS2
    isplitr; · iexact Hre3
    isplitl [HtR2]; · iexact HtR2
    iexact HreP7
  iintro ⟨HcS2, HO⟩
  -- chunk 3: the slab's block at the partner's columns, narrowed, stored in slot 3 and sent
  iapply (wp_load 𝒱₀ (c : Thread nD τ) none Set.univ (m := xM) (Finset.subset_univ _)) $$ Hx; iintro Hx
  iapply (wp_load_rect 𝒱₀ (c : Thread nD τ) none Set.univ (m := sB) (r := (Rect.unit (s := S4x512x512) ![3, 0, 0] S1x512x512.size inb_S4x512x512_S1x512x512_3_0_0)) (Finset.Subset.refl _)) $$ Hs3; iintro Hs3
  iapply (wp_store 𝒱₀ (c : Thread nD τ) none Set.univ (m := sB) (r := (Rect.unit (s := S4x512x512) ![3, 0, 0] S1x512x512.size inb_S4x512x512_S1x512x512_3_0_0)) (Mk := Finset.univ) (S := (sB.access (Rect.unit (s := S4x512x512) ![3, 0, 0] S1x512x512.size inb_S4x512x512_S1x512x512_3_0_0)).set) (Finset.Subset.refl _)) $$ Hs3; iintro Hs3
  ihave Hs3 := (Entails.of_eq (to_sq_s3 c _)) $$ Hs3
  ihave HN3 := (Entails.of_eq (to_sq_r3 (peer c) fn)) $$ HN3
  iapply (wp_send_slot3 m ρ K c _ (dev5_eq c) ((sB.access (Rect.unit (s := S4x512x512) ![3, 0, 0] S1x512x512.size inb_S4x512x512_S1x512x512_3_0_0)).write (Elt F) fs (paySend m ρ 3 c) Finset.univ) fn
      (read_sq_write (sB.access (Rect.unit (s := S4x512x512) ![3, 0, 0] S1x512x512.size inb_S4x512x512_S1x512x512_3_0_0)) fs (paySend m ρ 3 c)) _ (0) rfl _) $$ [Hs3 HN3 HO HtS3 HtR3]
  · isplitr; · iexact HI4
    isplitr; · iexact HIP8
    isplitl [Hs3]; · iexact Hs3
    isplitl [HN3]; · iexact HN3
    isplitl [HO]; · iexact HO
    isplitl [HtS3]; · iexact HtS3
    isplitr; · iexact Hre4
    isplitl [HtR3]; · iexact HtR3
    iexact HreP8
  iintro ⟨HcS3, HO⟩
  -- chunk 0: the wait for the partner's copy, then own block plus what arrived, stored in the result
  iapply (Rounds.wp_wait_rest_token 𝒱₀ ER (ringRd m ρ) (c : Thread nD τ) none (κ := K (c, 5))
      (wpE_waitDma2_eq 𝒱₀ (c : Thread nD τ) none Set.univ) (Set.mem_univ _) () (O := 0) (R := 0) (m := 0) (T := ∅)
      (by rw [Nat.zero_add, expect_dma m ρ c 5 (by decide)])) $$ [HcR0 HO Hp5]
  · isplitr; · iexact HI5
    isplitl [HcR0]; · iexact HcR0
    isplitl [HO]; · iexact HO
    isplitr; · rw [MayWait_zero]; iempintro
    iexact Hp5
  iintro ⟨HO, Hp5, -, Hpay⟩
  ihave Hpay := (Entails.of_eq (rest_cell m ρ c 5)) $$ Hpay
  ihave Hpay := (show payloadOf m ρ 5 c ⊢ recvPay m ρ 0 c from .rfl) $$ Hpay
  unfold recvPay owns
  icases Hpay with ⟨%fk0, %hfk0, Hr0⟩
  iapply (wp_load 𝒱₀ (c : Thread nD τ) none Set.univ (m := xM) (Finset.subset_univ _)) $$ Hx; iintro Hx
  iapply (wp_load_rect 𝒱₀ (c : Thread nD τ) none Set.univ (m := rB) (r := (Rect.unit (s := S4x512x512) ![0, 0, 0] S1x512x512.size inb_S4x512x512_S1x512x512_0_0_0)) (S := (rSq 0).view.set) rSq_set0.symm.subset) $$ Hr0; iintro Hr0
  rw [show (rB.access (Rect.unit (s := S4x512x512) ![0, 0, 0] S1x512x512.size inb_S4x512x512_S1x512x512_0_0_0)).read (Elt F) fk0 = paySend m ρ 0 (peer c) from slice_of_sq m ρ _ fk0 0 (peer c) hfk0]
  iapply (wp_load 𝒱₀ (c : Thread nD τ) none Set.univ (m := oM) (Finset.subset_univ _)) $$ Hout; iintro Hout
  iapply (wp_store 𝒱₀ (c : Thread nD τ) none Set.univ (m := oM) (r := ro0) (Mk := Finset.univ) (Finset.subset_univ _)) $$ Hout; iintro Hout
  -- chunk 1: the wait for the partner's copy, then own block plus what arrived, stored in the result
  iapply (Rounds.wp_wait_rest_token 𝒱₀ ER (ringRd m ρ) (c : Thread nD τ) none (κ := K (c, 6))
      (wpE_waitDma2_eq 𝒱₀ (c : Thread nD τ) none Set.univ) (Set.mem_univ _) () (O := 0) (R := 0) (m := 0) (T := ∅)
      (by rw [Nat.zero_add, expect_dma m ρ c 6 (by decide)])) $$ [HcR1 HO Hp6]
  · isplitr; · iexact HI6
    isplitl [HcR1]; · iexact HcR1
    isplitl [HO]; · iexact HO
    isplitr; · rw [MayWait_zero]; iempintro
    iexact Hp6
  iintro ⟨HO, Hp6, -, Hpay⟩
  ihave Hpay := (Entails.of_eq (rest_cell m ρ c 6)) $$ Hpay
  ihave Hpay := (show payloadOf m ρ 6 c ⊢ recvPay m ρ 1 c from .rfl) $$ Hpay
  unfold recvPay owns
  icases Hpay with ⟨%fk1, %hfk1, Hr1⟩
  iapply (wp_load 𝒱₀ (c : Thread nD τ) none Set.univ (m := xM) (Finset.subset_univ _)) $$ Hx; iintro Hx
  iapply (wp_load_rect 𝒱₀ (c : Thread nD τ) none Set.univ (m := rB) (r := (Rect.unit (s := S4x512x512) ![1, 0, 0] S1x512x512.size inb_S4x512x512_S1x512x512_1_0_0)) (S := (rSq 1).view.set) rSq_set1.symm.subset) $$ Hr1; iintro Hr1
  rw [show (rB.access (Rect.unit (s := S4x512x512) ![1, 0, 0] S1x512x512.size inb_S4x512x512_S1x512x512_1_0_0)).read (Elt F) fk1 = paySend m ρ 1 (peer c) from slice_of_sq m ρ _ fk1 1 (peer c) hfk1]
  iapply (wp_load 𝒱₀ (c : Thread nD τ) none Set.univ (m := oM) (Finset.subset_univ _)) $$ Hout; iintro Hout
  iapply (wp_store 𝒱₀ (c : Thread nD τ) none Set.univ (m := oM) (r := ro1) (Mk := Finset.univ) (Finset.subset_univ _)) $$ Hout; iintro Hout
  -- chunk 2: the wait for the partner's copy, then own block plus what arrived, stored in the result
  iapply (Rounds.wp_wait_rest_token 𝒱₀ ER (ringRd m ρ) (c : Thread nD τ) none (κ := K (c, 7))
      (wpE_waitDma2_eq 𝒱₀ (c : Thread nD τ) none Set.univ) (Set.mem_univ _) () (O := 0) (R := 0) (m := 0) (T := ∅)
      (by rw [Nat.zero_add, expect_dma m ρ c 7 (by decide)])) $$ [HcR2 HO Hp7]
  · isplitr; · iexact HI7
    isplitl [HcR2]; · iexact HcR2
    isplitl [HO]; · iexact HO
    isplitr; · rw [MayWait_zero]; iempintro
    iexact Hp7
  iintro ⟨HO, Hp7, -, Hpay⟩
  ihave Hpay := (Entails.of_eq (rest_cell m ρ c 7)) $$ Hpay
  ihave Hpay := (show payloadOf m ρ 7 c ⊢ recvPay m ρ 2 c from .rfl) $$ Hpay
  unfold recvPay owns
  icases Hpay with ⟨%fk2, %hfk2, Hr2⟩
  iapply (wp_load 𝒱₀ (c : Thread nD τ) none Set.univ (m := xM) (Finset.subset_univ _)) $$ Hx; iintro Hx
  iapply (wp_load_rect 𝒱₀ (c : Thread nD τ) none Set.univ (m := rB) (r := (Rect.unit (s := S4x512x512) ![2, 0, 0] S1x512x512.size inb_S4x512x512_S1x512x512_2_0_0)) (S := (rSq 2).view.set) rSq_set2.symm.subset) $$ Hr2; iintro Hr2
  rw [show (rB.access (Rect.unit (s := S4x512x512) ![2, 0, 0] S1x512x512.size inb_S4x512x512_S1x512x512_2_0_0)).read (Elt F) fk2 = paySend m ρ 2 (peer c) from slice_of_sq m ρ _ fk2 2 (peer c) hfk2]
  iapply (wp_load 𝒱₀ (c : Thread nD τ) none Set.univ (m := oM) (Finset.subset_univ _)) $$ Hout; iintro Hout
  iapply (wp_store 𝒱₀ (c : Thread nD τ) none Set.univ (m := oM) (r := ro2) (Mk := Finset.univ) (Finset.subset_univ _)) $$ Hout; iintro Hout
  -- chunk 3: the wait for the partner's copy, then own block plus what arrived, stored in the result
  iapply (Rounds.wp_wait_rest_token 𝒱₀ ER (ringRd m ρ) (c : Thread nD τ) none (κ := K (c, 8))
      (wpE_waitDma2_eq 𝒱₀ (c : Thread nD τ) none Set.univ) (Set.mem_univ _) () (O := 0) (R := 0) (m := 0) (T := ∅)
      (by rw [Nat.zero_add, expect_dma m ρ c 8 (by decide)])) $$ [HcR3 HO Hp8]
  · isplitr; · iexact HI8
    isplitl [HcR3]; · iexact HcR3
    isplitl [HO]; · iexact HO
    isplitr; · rw [MayWait_zero]; iempintro
    iexact Hp8
  iintro ⟨HO, Hp8, -, Hpay⟩
  ihave Hpay := (Entails.of_eq (rest_cell m ρ c 8)) $$ Hpay
  ihave Hpay := (show payloadOf m ρ 8 c ⊢ recvPay m ρ 3 c from .rfl) $$ Hpay
  unfold recvPay owns
  icases Hpay with ⟨%fk3, %hfk3, Hr3⟩
  iapply (wp_load 𝒱₀ (c : Thread nD τ) none Set.univ (m := xM) (Finset.subset_univ _)) $$ Hx; iintro Hx
  iapply (wp_load_rect 𝒱₀ (c : Thread nD τ) none Set.univ (m := rB) (r := (Rect.unit (s := S4x512x512) ![3, 0, 0] S1x512x512.size inb_S4x512x512_S1x512x512_3_0_0)) (S := (rSq 3).view.set) rSq_set3.symm.subset) $$ Hr3; iintro Hr3
  rw [show (rB.access (Rect.unit (s := S4x512x512) ![3, 0, 0] S1x512x512.size inb_S4x512x512_S1x512x512_3_0_0)).read (Elt F) fk3 = paySend m ρ 3 (peer c) from slice_of_sq m ρ _ fk3 3 (peer c) hfk3]
  iapply (wp_load 𝒱₀ (c : Thread nD τ) none Set.univ (m := oM) (Finset.subset_univ _)) $$ Hout; iintro Hout
  iapply (wp_store 𝒱₀ (c : Thread nD τ) none Set.univ (m := oM) (r := ro3) (Mk := Finset.univ) (Finset.subset_univ _)) $$ Hout; iintro Hout
  -- the wait for copy 0 to have been read: slot 0 of the send buffer back
  iapply (Rounds.wp_wait_rest_token 𝒱₀ ER (ringRd m ρ) (c : Thread nD τ) none (κ := K (c, 1))
      (wpE_waitDma2_eq 𝒱₀ (c : Thread nD τ) none Set.univ) (Set.mem_univ _) () (O := 0) (R := 0) (m := 0) (T := ∅)
      (by rw [Nat.zero_add, expect_dma m ρ c 1 (by decide)])) $$ [HcS0 HO Hp1]
  · isplitr; · iexact HI1
    isplitl [HcS0]; · iexact HcS0
    isplitl [HO]; · iexact HO
    isplitr; · rw [MayWait_zero]; iempintro
    iexact Hp1
  iintro ⟨HO, Hp1, -, Hpay⟩
  ihave Hpay := (Entails.of_eq (rest_cell m ρ c 1)) $$ Hpay
  ihave Hpay := (show payloadOf m ρ 1 c ⊢ sendPay 0 c from .rfl) $$ Hpay
  unfold sendPay owns
  icases Hpay with ⟨%X0, %fq0, -, Hs0⟩
  -- the wait for copy 1 to have been read: slot 1 of the send buffer back
  iapply (Rounds.wp_wait_rest_token 𝒱₀ ER (ringRd m ρ) (c : Thread nD τ) none (κ := K (c, 2))
      (wpE_waitDma2_eq 𝒱₀ (c : Thread nD τ) none Set.univ) (Set.mem_univ _) () (O := 0) (R := 0) (m := 0) (T := ∅)
      (by rw [Nat.zero_add, expect_dma m ρ c 2 (by decide)])) $$ [HcS1 HO Hp2]
  · isplitr; · iexact HI2
    isplitl [HcS1]; · iexact HcS1
    isplitl [HO]; · iexact HO
    isplitr; · rw [MayWait_zero]; iempintro
    iexact Hp2
  iintro ⟨HO, Hp2, -, Hpay⟩
  ihave Hpay := (Entails.of_eq (rest_cell m ρ c 2)) $$ Hpay
  ihave Hpay := (show payloadOf m ρ 2 c ⊢ sendPay 1 c from .rfl) $$ Hpay
  unfold sendPay owns
  icases Hpay with ⟨%X1, %fq1, -, Hs1⟩
  -- the wait for copy 2 to have been read: slot 2 of the send buffer back
  iapply (Rounds.wp_wait_rest_token 𝒱₀ ER (ringRd m ρ) (c : Thread nD τ) none (κ := K (c, 3))
      (wpE_waitDma2_eq 𝒱₀ (c : Thread nD τ) none Set.univ) (Set.mem_univ _) () (O := 0) (R := 0) (m := 0) (T := ∅)
      (by rw [Nat.zero_add, expect_dma m ρ c 3 (by decide)])) $$ [HcS2 HO Hp3]
  · isplitr; · iexact HI3
    isplitl [HcS2]; · iexact HcS2
    isplitl [HO]; · iexact HO
    isplitr; · rw [MayWait_zero]; iempintro
    iexact Hp3
  iintro ⟨HO, Hp3, -, Hpay⟩
  ihave Hpay := (Entails.of_eq (rest_cell m ρ c 3)) $$ Hpay
  ihave Hpay := (show payloadOf m ρ 3 c ⊢ sendPay 2 c from .rfl) $$ Hpay
  unfold sendPay owns
  icases Hpay with ⟨%X2, %fq2, -, Hs2⟩
  -- the wait for copy 3 to have been read: slot 3 of the send buffer back
  iapply (Rounds.wp_wait_rest_token 𝒱₀ ER (ringRd m ρ) (c : Thread nD τ) none (κ := K (c, 4))
      (wpE_waitDma2_eq 𝒱₀ (c : Thread nD τ) none Set.univ) (Set.mem_univ _) () (O := 0) (R := 0) (m := 0) (T := ∅)
      (by rw [Nat.zero_add, expect_dma m ρ c 4 (by decide)])) $$ [HcS3 HO Hp4]
  · isplitr; · iexact HI4
    isplitl [HcS3]; · iexact HcS3
    isplitl [HO]; · iexact HO
    isplitr; · rw [MayWait_zero]; iempintro
    iexact Hp4
  iintro ⟨HO, Hp4, -, Hpay⟩
  ihave Hpay := (Entails.of_eq (rest_cell m ρ c 4)) $$ Hpay
  ihave Hpay := (show payloadOf m ρ 4 c ⊢ sendPay 3 c from .rfl) $$ Hpay
  unfold sendPay owns
  icases Hpay with ⟨%X3, %fq3, -, Hs3⟩
  -- the eight own cells close: their counters at zero are the core's again
  imod (Rounds.cell_close ER (ringRd m ρ) (Set.mem_univ (K (c, 1))) (fun h => h) (R := 0 + 1) (duties_later m ρ (kcell (c, 1)))) $$ [Hp1] with Hz1
  · isplitr; · iexact HI1
    iexact Hp1
  imod (Rounds.cell_close ER (ringRd m ρ) (Set.mem_univ (K (c, 2))) (fun h => h) (R := 0 + 1) (duties_later m ρ (kcell (c, 2)))) $$ [Hp2] with Hz2
  · isplitr; · iexact HI2
    iexact Hp2
  imod (Rounds.cell_close ER (ringRd m ρ) (Set.mem_univ (K (c, 3))) (fun h => h) (R := 0 + 1) (duties_later m ρ (kcell (c, 3)))) $$ [Hp3] with Hz3
  · isplitr; · iexact HI3
    iexact Hp3
  imod (Rounds.cell_close ER (ringRd m ρ) (Set.mem_univ (K (c, 4))) (fun h => h) (R := 0 + 1) (duties_later m ρ (kcell (c, 4)))) $$ [Hp4] with Hz4
  · isplitr; · iexact HI4
    iexact Hp4
  imod (Rounds.cell_close ER (ringRd m ρ) (Set.mem_univ (K (c, 5))) (fun h => h) (R := 0 + 1) (duties_later m ρ (kcell (c, 5)))) $$ [Hp5] with Hz5
  · isplitr; · iexact HI5
    iexact Hp5
  imod (Rounds.cell_close ER (ringRd m ρ) (Set.mem_univ (K (c, 6))) (fun h => h) (R := 0 + 1) (duties_later m ρ (kcell (c, 6)))) $$ [Hp6] with Hz6
  · isplitr; · iexact HI6
    iexact Hp6
  imod (Rounds.cell_close ER (ringRd m ρ) (Set.mem_univ (K (c, 7))) (fun h => h) (R := 0 + 1) (duties_later m ρ (kcell (c, 7)))) $$ [Hp7] with Hz7
  · isplitr; · iexact HI7
    iexact Hp7
  imod (Rounds.cell_close ER (ringRd m ρ) (Set.mem_univ (K (c, 8))) (fun h => h) (R := 0 + 1) (duties_later m ρ (kcell (c, 8)))) $$ [Hp8] with Hz8
  · isplitr; · iexact HI8
    iexact Hp8
  -- the slots put together again
  ihave Hs0 := (Entails.of_eq (to_sq_s0 c fq0).symm) $$ Hs0
  ihave Hr0 := (Entails.of_eq (to_sq_r0 c fk0).symm) $$ Hr0
  ihave Hs1 := (Entails.of_eq (to_sq_s1 c fq1).symm) $$ Hs1
  ihave Hr1 := (Entails.of_eq (to_sq_r1 c fk1).symm) $$ Hr1
  ihave Hs2 := (Entails.of_eq (to_sq_s2 c fq2).symm) $$ Hs2
  ihave Hr2 := (Entails.of_eq (to_sq_r2 c fk2).symm) $$ Hr2
  ihave Hs3 := (Entails.of_eq (to_sq_s3 c fq3).symm) $$ Hs3
  ihave Hr3 := (Entails.of_eq (to_sq_r3 c fk3).symm) $$ Hr3
  ihave Hsw := (join4 c sB fq0 fq1 fq2 fq3) $$ [Hs0 Hs1 Hs2 Hs3]
  · isplitl [Hs0]; · iexact Hs0
    isplitl [Hs1]; · iexact Hs1
    isplitl [Hs2]; · iexact Hs2
    iexact Hs3
  ihave Hrw := (join4 c rB fk0 fk1 fk2 fk3) $$ [Hr0 Hr1 Hr2 Hr3]
  · isplitl [Hr0]; · iexact Hr0
    isplitl [Hr1]; · iexact Hr1
    isplitl [Hr2]; · iexact Hr2
    iexact Hr3
  icases Hsw with ⟨%gs, Hsw⟩
  icases Hrw with ⟨%gr, Hrw⟩
  ihave Hsw := (Entails.of_eq (whole_eq c cc0_scratch0 gs).symm) $$ Hsw
  ihave Hrw := (Entails.of_eq (whole_eq c cc0_scratch1 gr).symm) $$ Hrw
  rw [wp_ret]; imodintro
  iapply Hk
  unfold bodyPost Φ₁ Dat.owesAt Pipeline.owesWithin
  rw [show (dats m ρ 0 c).owed t₀.succ = 0 from rfl]
  isplitl [Hsw Hrw Hz1 Hz2 Hz3 Hz4 Hz5 Hz6 Hz7 Hz8]
  · isplitl [Hsw Hrw]
    · isplitl [Hsw]
      · iexists gs; iexact Hsw
      · iexists gr; iexact Hrw
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    iexact Hz8
  isplitl [HO]
  · iexists _
    isplitr
    swap; · iexact HO
    ipureintro; exact fun _ _ => Or.inl trivial
  isplitl [Hx]
  · iexists _; isplitr; · (ipureintro; rfl)
    iexact Hx
  iexists _; isplitr
  swap; · iexact Hout
  ipureintro
  exact (View.read_writes_eq_canon oM.view g1
    [⟨ro3, outPiece m ρ 3 c⟩, ⟨ro2, outPiece m ρ 2 c⟩, ⟨ro1, outPiece m ρ 1 c⟩, ⟨ro0, outPiece m ρ 0 c⟩] (out_cover _ _ _ _))

end Body

end Cert.Kernel.RS

end
-- ==== Proof.KernelLaunch.lean ====
import proofs.«900473_g7700000000000474_dist_rs_v7x_xyz2x2x4_x_m2048_n512_f32_1_alg».proof.Proof.Spec
import proofs.«900473_g7700000000000474_dist_rs_v7x_xyz2x2x4_x_m2048_n512_f32_1_alg».proof.Proof.Gen.Kernel
import proofs.«900473_g7700000000000474_dist_rs_v7x_xyz2x2x4_x_m2048_n512_f32_1_alg».proof.Proof.Gen.Kernel.Skeleton
import proofs.«900473_g7700000000000474_dist_rs_v7x_xyz2x2x4_x_m2048_n512_f32_1_alg».proof.Proof.Gen.Kernel.Launch
import proofs.«900473_g7700000000000474_dist_rs_v7x_xyz2x2x4_x_m2048_n512_f32_1_alg».proof.Proof.Gen.Kernel.Points
import proofs.«900473_g7700000000000474_dist_rs_v7x_xyz2x2x4_x_m2048_n512_f32_1_alg».proof.Proof.KernelCells
import proofs.«900473_g7700000000000474_dist_rs_v7x_xyz2x2x4_x_m2048_n512_f32_1_alg».proof.Proof.KernelSched
import proofs.«900473_g7700000000000474_dist_rs_v7x_xyz2x2x4_x_m2048_n512_f32_1_alg».proof.Proof.KernelData
import proofs.«900473_g7700000000000474_dist_rs_v7x_xyz2x2x4_x_m2048_n512_f32_1_alg».proof.Proof.KernelSlots
import proofs.«900473_g7700000000000474_dist_rs_v7x_xyz2x2x4_x_m2048_n512_f32_1_alg».proof.Proof.KernelBody
import Idealize.ShloMosaic.Lib.Pipeline.Launch
import Idealize.ShloMosaic.Lib.Pipeline.Kit
import Idealize.ShloMosaic.Lib.Pipeline.FrameBody
import Idealize.ShloMosaic.Lib.Ring
import Idealize.ShloMosaic.Lib.Tactic

noncomputable section

/-!
  The launch: every device's body obligation, the protocol's ghost state allocated for all devices at once, the
  launch credit, and the run of the whole mesh.

  The tokens are dealt across partners: a device pays the partner's barrier duty and the partner's four receive
  duties, and its own four send duties. The credit a device finds on its barrier cell and on its receive cells is
  what its partner owes them.
-/

namespace Cert.Kernel.RS

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
set_option maxHeartbeats 4000000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq']
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hcr, Hlev⟩, Hs, Hr⟩, Ho, Hx, Hout⟩
  iapply (sound_body m ρ K c fun _ => bodyPost m ρ c)
  unfold bodyPre
  isplitr []
  · isplitl [Hg Hcr Hlev Hs Hr]
    · isplitl [Hg]; · iexact Hg
      isplitl [Hcr]; · iexact Hcr
      isplitl [Hlev]; · iexact Hlev
      isplitl [Hs]; · iexact Hs
      iexact Hr
    isplitl [Ho]; · iexact Ho
    isplitl [Hx] <;> iassumption
  · iintro H; iexact H

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 9 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- Each cell's one duty token as minted. -/
abbrev tokOf (cj : Dev nD × Fin 9) : GSem nD τ sig × ℕ × Unit := (kcell cj, 0, ())
theorem tokOf_injective : Function.Injective (tokOf : Dev nD × Fin 9 → GSem nD τ sig × ℕ × Unit) :=
  fun a b h => kcell_injective (congrArg Prod.fst h)
def ringToks : Finset (GSem nD τ sig × ℕ × Unit) := Finset.univ.map ⟨tokOf, tokOf_injective⟩

def u₀ : UU :=
  (initOf (Pipeline.cells cfgs cellOf_inj) (Pipeline.launchToks cfgs cellOf_inj), initOf ringCells ringToks)

/-- The duty tokens of device `c`'s own nine cells. -/
def toks (c : Dev nD) : sProp 𝕄 :=
  iprop(dutyTok ER (kcell (c, 0)) 0 () ∗ dutyTok ER (kcell (c, 1)) 0 () ∗ dutyTok ER (kcell (c, 2)) 0 () ∗ dutyTok ER (kcell (c, 3)) 0 () ∗ dutyTok ER (kcell (c, 4)) 0 () ∗ dutyTok ER (kcell (c, 5)) 0 () ∗ dutyTok ER (kcell (c, 6)) 0 () ∗ dutyTok ER (kcell (c, 7)) 0 () ∗ dutyTok ER (kcell (c, 8)) 0 ())

/-- What the launch element deals device `c`. -/
def G (c : Dev nD) : sProp 𝕄 :=
  iprop((bigSep Finset.univ fun k : Fin 9 => roundState ER (ringRd m ρ) (kcell (c, k)) 0)
    ∗ (bigSep Finset.univ fun k : Fin 9 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 9 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin9]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The eight DMA semaphores are the kernel's own; -/
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0) := by
  rw [Pipeline.ownSems0_eq_of_list c osem [0, 1, 2, 3, 4, 5, 6, 7] (by decide) (by decide)]; rfl
/-- the barrier semaphore the launch's one unscoped semaphore. -/
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, bigSep_fin9]
  iintro ⟨⟨H1, H2, H3, H4, H5, H6, H7, H8⟩, HB⟩
  isplitl [HB]; · iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k : Fin 9 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def linear (c : Dev nD) : sProp 𝕄 := iprop(posns c ∗ payToks c)

theorem ghost_intro (K : Dev nD × Fin 9 → ℕ) (c : Dev nD) : iprop(records m ρ K ∗ linear c) ⊢ G' m ρ c := by
  unfold linear G' ghost
  iintro ⟨#HR, Hl⟩
  iexists K
  isplitr; · iexact HR
  iexact Hl

/-- The tokens dealt across partners: a barrier's and a receive cell's token to the partner, a send cell's stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_sep', bigSep_sep', bigSep_sep', bigSep_sep', bigSep_sep', bigSep_sep', bigSep_sep', bigSep_sep',
    bigSep_univ_equiv swap (fun c : Dev nD => (dutyTok ER (kcell (c, 0)) 0 () : sProp 𝕄)),
    bigSep_univ_equiv swap (fun c : Dev nD => (dutyTok ER (kcell (c, 5)) 0 () : sProp 𝕄)),
    bigSep_univ_equiv swap (fun c : Dev nD => (dutyTok ER (kcell (c, 6)) 0 () : sProp 𝕄)),
    bigSep_univ_equiv swap (fun c : Dev nD => (dutyTok ER (kcell (c, 7)) 0 () : sProp 𝕄)),
    bigSep_univ_equiv swap (fun c : Dev nD => (dutyTok ER (kcell (c, 8)) 0 () : sProp 𝕄))]
  exact .rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m ρ) κ (kcell (c, k))))
          ∗ (bigSep Finset.univ fun k : Fin 9 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 9 => iprop(∃ κ : ℕ, cellInv ER (ringRd m ρ) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 9 => (atPos ER (kcell (c, k)) 0 ∅ 0 : sProp 𝕄)) payToks).symm).trans
      (bigSep_mono fun c _ => show _ ⊢ linear c from Entails.of_eq (by unfold linear posns; rw [bigSep_fin9])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem kcell_eq_iff {a b : Dev nD} {i j : Fin 9} : kcell (a, i) = kcell (b, j) ↔ a = b ∧ i = j :=
  ⟨fun h => by have := kcell_injective h; exact ⟨congrArg (fun x => x.1) this, congrArg (fun x => x.2) this⟩, fun ⟨h1, h2⟩ => by rw [h1, h2]⟩

theorem peer_eq_iff {c d : Dev nD} : c = peer d ↔ d = peer c :=
  ⟨fun h => by rw [h, peer_peer], fun h => by rw [h, peer_peer]⟩

/-- What device `d` owes cell `j` of device `c`: the barrier's unit or a receive cell's slot credit if `d` is `c`'s
    partner, nothing otherwise, and nothing on a send cell. -/
theorem owed_cell (d c : Dev nD) (j : Fin 9) :
    O₀ d (kcell (c, j)) () = if d = peer c then (if j = 0 then 1 else if 5 ≤ j.val then N else 0) else 0 := by
  unfold O₀ Os O₁ O₂ O₃
  show ((((0 + tallyAt (kcell (peer d, 8)) () N) + tallyAt (kcell (peer d, 7)) () N) + tallyAt (kcell (peer d, 6)) () N) + tallyAt (kcell (peer d, 5)) () N
    + tallyAt (kcell (peer d, 0)) () 1 : CellTallies nD τ sig Unit) (kcell (c, j)) () = _
  simp only [Pi.add_apply, Finsupp.add_apply, tallyAt_apply, Pi.zero_apply, Finsupp.coe_zero, kcell_eq_iff, and_true, Nat.zero_add]
  by_cases h : d = peer c
  · subst h
    simp only [peer_peer, true_and, if_true]
    fin_cases j <;> simp
  · have h' : ¬ c = peer d := fun e => h (peer_eq_iff.mp e)
    simp only [h', false_and, if_false, h]

theorem launch_cell (c : Dev nD) (j : Fin 9) :
    tallyOn (kcell (c, j)) (launchCredit (Pipeline.owing O₀) 0 (kcell (c, j)))
      = (tallyAt (kcell (c, j)) () (if j = 0 then 1 else if 5 ≤ j.val then N else 0) : CellTallies nD τ sig Unit) := by
  unfold tallyAt; refine congrArg _ (Finsupp.ext fun u => ?_); cases u
  rw [Pipeline.launchCredit_owing, Finsupp.single_eq_same, Finset.sum_congr rfl fun d _ => owed_cell d c j,
    Finset.sum_ite_eq' Finset.univ (peer c) fun _ => (if j = 0 then 1 else if 5 ≤ j.val then N else 0), if_pos (Finset.mem_univ _)]

theorem creds_intro (c : Dev nD) : (Pipeline.launchCred O₀ c : sProp 𝕄) ⊢ creds c := by
  have h11 (Φ : SemLoc sig → sProp 𝕄) : bigSep Finset.univ Φ
      = iprop(Φ (.reg barS) ∗ Φ (.dma 0) ∗ Φ (.dma 1) ∗ Φ (.dma 2) ∗ Φ (.dma 3) ∗ Φ (.dma 4) ∗ Φ (.dma 5) ∗ Φ (.dma 6) ∗ Φ (.dma 7) ∗ Φ (.dma 8) ∗ Φ (.dma 9)) :=
    bigSep_univ_eq_bigSepL [SemLoc.reg barS, .dma 0, .dma 1, .dma 2, .dma 3, .dma 4, .dma 5, .dma 6, .dma 7, .dma 8, .dma 9] (by decide) (by decide) Φ
  unfold Pipeline.launchCred creds
  rw [h11]
  iintro ⟨Hb, -, -, -, -, -, -, H5, H6, H7, H8⟩
  isplitl [Hb]; · iapply (Entails.of_eq (congrArg cred (launch_cell c 0))); iexact Hb
  isplitl [H5]; · iapply (Entails.of_eq (congrArg cred (launch_cell c 5))); iexact H5
  isplitl [H6]; · iapply (Entails.of_eq (congrArg cred (launch_cell c 6))); iexact H6
  isplitl [H7]; · iapply (Entails.of_eq (congrArg cred (launch_cell c 7))); iexact H7
  iapply (Entails.of_eq (congrArg cred (launch_cell c 8))); iexact H8

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hs0, Hs1⟩
  isplitl [Hs]; · iexact Hs
  isplitl [Hs0]; · iexact Hs0
  iexact Hs1

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨Hscr, Hz⟩
  isplitr; · iempintro
  isplitl [Hz]; · iexact Hz
  iexact Hscr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> (unfold IsRecv; decide)) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: every weakly fair
    execution of @main — the sixteen kernels meeting in pairs on the barrier semaphore, then exchanging four chunks —
    terminates, and every final state has each device's argument and result arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.RS.run_main' depends on axioms: [propext, Classical.choice, Quot.sound] -/
#guard_msgs in #print axioms run_main

/-! ### The final arrays -/

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The staged slab is the argument array. -/
theorem xstg_eq (c : Dev nD) : xstg m ρ c = m ((c : Thread nD τ).loc main_arg0) := by
  unfold xstg
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

set_option maxHeartbeats 2000000 in
/-- The result array after the run is what the body left in the result's staging buffer. -/
theorem finalA_out (c : Dev nD) : finalA m ρ c (1 : Fin 2) = outAt m ρ c := by
  have hb : ((cfg0.win (1 : Fin 2)).blk t₀).view.read (Elt F) ((dats (F := F) m ρ 0 c).arrAt (1 : Fin 2) cfg0.N)
      = (dats (F := F) m ρ 0 c).flushed (1 : Fin 2) t₀ := by
    rw [show cfg0.N = (t₀ : Fin cfg0.N).val + 1 from rfl, (dats (F := F) m ρ 0 c).arrAt_succ (1 : Fin 2) t₀]
    rw [show (cfg0.win (1 : Fin 2)).flush t₀ = true from by decide, if_pos rfl]
    exact View.read_write_univ _ _
  have hz : (fun a => (win0_1.index t₀) a * main_v1.ty.shape.size a) = fun _ => 0 := funext fun a => by fin_cases a <;> decide
  have hr := fun f => Memref.read_access_unit_zero (Elt F) main_v1 hz (fun a => by fin_cases a <;> decide) f
  rw [hr] at hb
  unfold finalA
  rw [hb]
  show (cfg0.win (1 : Fin 2)).cut _ ((dats (F := F) m ρ 0 c).after (1 : Fin 2) t₀) = _
  rw [show (dats (F := F) m ρ 0 c).after (1 : Fin 2) t₀ = outAt m ρ c from by dsimp only [dats]]
  rfl

end Cert.Kernel.RS

end
-- ==== Proof.KernelIdealCells.lean ====
import proofs.«900473_g7700000000000474_dist_rs_v7x_xyz2x2x4_x_m2048_n512_f32_1_alg».proof.Proof.Spec
import proofs.«900473_g7700000000000474_dist_rs_v7x_xyz2x2x4_x_m2048_n512_f32_1_alg».proof.Proof.Gen.KernelIdeal
import proofs.«900473_g7700000000000474_dist_rs_v7x_xyz2x2x4_x_m2048_n512_f32_1_alg».proof.Proof.Gen.KernelIdeal.Skeleton
import proofs.«900473_g7700000000000474_dist_rs_v7x_xyz2x2x4_x_m2048_n512_f32_1_alg».proof.Proof.Gen.KernelIdeal.Launch
import proofs.«900473_g7700000000000474_dist_rs_v7x_xyz2x2x4_x_m2048_n512_f32_1_alg».proof.Proof.Gen.KernelIdeal.Points
import Idealize.ShloMosaic.Lib.Pipeline.Launch
import Idealize.ShloMosaic.Lib.Pipeline.Kit
import Idealize.ShloMosaic.Lib.Pipeline.FrameBody
import Idealize.ShloMosaic.Lib.Ring
import Idealize.ShloMosaic.Lib.Tactic

noncomputable section

/-!
  The exchange as a protocol between partner devices, and its bookkeeping.

  Every device has nine cells: its barrier cell, four send cells and four receive cells (one pair per 512-row
  chunk). Each cell has exactly one duty, in its one round:
  * the barrier cell is paid one unit by the partner's entry signal, which hands over the partner's whole
    receive buffer (any contents) and the knowledge that the partner's four receive cells are open;
  * send cell `k` is paid by the device's own copy `k`, once its source slot has been read; the slot comes back;
  * receive cell `k` is paid by the partner's copy `k`, once slot `k` of the receive buffer is written; the slot
    comes back holding what the partner sent: the partner's rows `512k … 512k+511`, columns of this device's half.
-/

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds algebra beside the protocol's -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The partner -/

/-- The partner of device `c`: the other first mesh coordinate, the same second and third. -/
def peer (c : Dev nD) : Dev nD := ⟨(c.val + 8) % 16, Nat.mod_lt _ (by decide)⟩

theorem peer_peer (c : Dev nD) : peer (peer c) = c := by revert c; decide
theorem peer_ne (c : Dev nD) : peer c ≠ c := by revert c; decide

/-- Every device id the body computes (the entry signal's, the four copies') is the partner's. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))
theorem dev3_eq (c : Dev nD) : (⟨k0_dev3 c, k0_dev3_lt c⟩ : Dev nD) = peer c :=
  Fin.ext ((k0_dev3_eq c).trans (by revert c; decide))
theorem dev4_eq (c : Dev nD) : (⟨k0_dev4 c, k0_dev4_lt c⟩ : Dev nD) = peer c :=
  Fin.ext ((k0_dev4_eq c).trans (by revert c; decide))
theorem dev5_eq (c : Dev nD) : (⟨k0_dev5 c, k0_dev5_lt c⟩ : Dev nD) = peer c :=
  Fin.ext ((k0_dev5_eq c).trans (by revert c; decide))

/-- The exchange as a permutation of the devices. -/
def swap : Dev nD ≃ Dev nD := ⟨peer, peer, peer_peer, peer_peer⟩

/-! ## The buffers, their slots, and the cells -/

abbrev xM : Memref sig .tc .vmem S1x2048x1024 .f32 := Memref.whole cc0_stg0_0
abbrev oM : Memref sig .tc .vmem S2048x512 .f32 := Memref.whole cc0_stg1_0
abbrev sB : Memref sig .tc .vmem S4x512x512 .bf16 := Memref.whole cc0_scratch0
abbrev rB : Memref sig .tc .vmem S4x512x512 .bf16 := Memref.whole cc0_scratch1

/-- Slot `k` of a 4 × 512 × 512 buffer, as a rectangle. -/
abbrev slotR : Fin 4 → Rect S4x512x512
  | 0 => (Rect.unit (s := S4x512x512) ![0, 0, 0] S1x512x512.size inb_S4x512x512_S1x512x512_0_0_0)
  | 1 => (Rect.unit (s := S4x512x512) ![1, 0, 0] S1x512x512.size inb_S4x512x512_S1x512x512_1_0_0)
  | 2 => (Rect.unit (s := S4x512x512) ![2, 0, 0] S1x512x512.size inb_S4x512x512_S1x512x512_2_0_0)
  | 3 => (Rect.unit (s := S4x512x512) ![3, 0, 0] S1x512x512.size inb_S4x512x512_S1x512x512_3_0_0)
  | ⟨_ + 4, h⟩ => absurd h (by omega)

/-- Slot `k` of the send buffer and of the receive buffer, as 1 × 512 × 512 slices and squeezed to 512 × 512. -/
abbrev sSl : Fin 4 → Memref sig .tc .vmem S1x512x512 .bf16
  | 0 => sB.slice (Rect.unit (s := S4x512x512) ![0, 0, 0] S1x512x512.size inb_S4x512x512_S1x512x512_0_0_0) (fun _ => rfl)
  | 1 => sB.slice (Rect.unit (s := S4x512x512) ![1, 0, 0] S1x512x512.size inb_S4x512x512_S1x512x512_1_0_0) (fun _ => rfl)
  | 2 => sB.slice (Rect.unit (s := S4x512x512) ![2, 0, 0] S1x512x512.size inb_S4x512x512_S1x512x512_2_0_0) (fun _ => rfl)
  | 3 => sB.slice (Rect.unit (s := S4x512x512) ![3, 0, 0] S1x512x512.size inb_S4x512x512_S1x512x512_3_0_0) (fun _ => rfl)
  | ⟨_ + 4, h⟩ => absurd h (by omega)
abbrev rSl : Fin 4 → Memref sig .tc .vmem S1x512x512 .bf16
  | 0 => rB.slice (Rect.unit (s := S4x512x512) ![0, 0, 0] S1x512x512.size inb_S4x512x512_S1x512x512_0_0_0) (fun _ => rfl)
  | 1 => rB.slice (Rect.unit (s := S4x512x512) ![1, 0, 0] S1x512x512.size inb_S4x512x512_S1x512x512_1_0_0) (fun _ => rfl)
  | 2 => rB.slice (Rect.unit (s := S4x512x512) ![2, 0, 0] S1x512x512.size inb_S4x512x512_S1x512x512_2_0_0) (fun _ => rfl)
  | 3 => rB.slice (Rect.unit (s := S4x512x512) ![3, 0, 0] S1x512x512.size inb_S4x512x512_S1x512x512_3_0_0) (fun _ => rfl)
  | ⟨_ + 4, h⟩ => absurd h (by omega)
abbrev sSq (k : Fin 4) : Memref sig .tc .vmem S512x512 .bf16 := (sSl k).squeeze S512x512 squeezes_S1x512x512_S512x512
abbrev rSq (k : Fin 4) : Memref sig .tc .vmem S512x512 .bf16 := (rSl k).squeeze S512x512 squeezes_S1x512x512_S512x512

/-- The barrier semaphore and the eight DMA semaphores. -/
abbrev barS : Sem sig := (SemArray.scalar (sig.barrier 0 rfl) : Sems sig S_).sem
abbrev sendSem : Fin 4 → DmaSem sig
  | 0 => ((cc0_scratch2.slice (Rect.unit (s := S4) ![0] S1.size inb_S4_S1_0)).squeeze S_ squeezes_S1_S_).sem
  | 1 => ((cc0_scratch2.slice (Rect.unit (s := S4) ![1] S1.size inb_S4_S1_1)).squeeze S_ squeezes_S1_S_).sem
  | 2 => ((cc0_scratch2.slice (Rect.unit (s := S4) ![2] S1.size inb_S4_S1_2)).squeeze S_ squeezes_S1_S_).sem
  | 3 => ((cc0_scratch2.slice (Rect.unit (s := S4) ![3] S1.size inb_S4_S1_3)).squeeze S_ squeezes_S1_S_).sem
  | ⟨_ + 4, h⟩ => absurd h (by omega)
abbrev recvSem : Fin 4 → DmaSem sig
  | 0 => ((cc0_scratch3.slice (Rect.unit (s := S4) ![0] S1.size inb_S4_S1_0)).squeeze S_ squeezes_S1_S_).sem
  | 1 => ((cc0_scratch3.slice (Rect.unit (s := S4) ![1] S1.size inb_S4_S1_1)).squeeze S_ squeezes_S1_S_).sem
  | 2 => ((cc0_scratch3.slice (Rect.unit (s := S4) ![2] S1.size inb_S4_S1_2)).squeeze S_ squeezes_S1_S_).sem
  | 3 => ((cc0_scratch3.slice (Rect.unit (s := S4) ![3] S1.size inb_S4_S1_3)).squeeze S_ squeezes_S1_S_).sem
  | ⟨_ + 4, h⟩ => absurd h (by omega)

/-- The nine semaphores of the protocol: the barrier, send 0–3, receive 0–3. -/
abbrev csem : Fin 9 → SemLoc sig
  | 0 => .reg barS
  | 1 => .dma (sendSem 0) | 2 => .dma (sendSem 1) | 3 => .dma (sendSem 2) | 4 => .dma (sendSem 3)
  | 5 => .dma (recvSem 0) | 6 => .dma (recvSem 1) | 7 => .dma (recvSem 2) | 8 => .dma (recvSem 3)
  | ⟨_ + 9, h⟩ => absurd h (by omega)
/-- The kernel's own (scoped) semaphores: the eight DMA semaphores. -/
abbrev osem : Fin 8 → SemLoc sig := fun j => csem j.succ

abbrev kcell (ck : Dev nD × Fin 9) : GSem nD τ sig := ((ck.1 : Thread nD τ), csem ck.2)
abbrev barCell (c : Dev nD) : GSem nD τ sig := kcell (c, 0)
abbrev sendCell (k : Fin 4) (c : Dev nD) : GSem nD τ sig := ((c : Thread nD τ), .dma (sendSem k))
abbrev recvCell (k : Fin 4) (c : Dev nD) : GSem nD τ sig := ((c : Thread nD τ), .dma (recvSem k))

theorem csem_injective : Function.Injective csem := by decide

/-- Which of the nine a semaphore is, if any. -/
def cidx (sm : SemLoc sig) : Option (Fin 9) := (List.finRange 9).find? fun j => csem j = sm
theorem cidx_csem : ∀ j : Fin 9, cidx (csem j) = some j := by decide

/-- One slot's worth of credit (the same for every slot of either buffer). -/
abbrev N : ℕ := (rSq 0).view.dmaCredit
theorem N_pos : 0 < N := View.dmaCredit_pos _ (by decide)

end Cert.KernelIdeal.RS

end
-- ==== Proof.KernelIdealSched.lean ====
import proofs.«900473_g7700000000000474_dist_rs_v7x_xyz2x2x4_x_m2048_n512_f32_1_alg».proof.Proof.Spec
import proofs.«900473_g7700000000000474_dist_rs_v7x_xyz2x2x4_x_m2048_n512_f32_1_alg».proof.Proof.Gen.KernelIdeal
import proofs.«900473_g7700000000000474_dist_rs_v7x_xyz2x2x4_x_m2048_n512_f32_1_alg».proof.Proof.Gen.KernelIdeal.Skeleton
import proofs.«900473_g7700000000000474_dist_rs_v7x_xyz2x2x4_x_m2048_n512_f32_1_alg».proof.Proof.Gen.KernelIdeal.Launch
import proofs.«900473_g7700000000000474_dist_rs_v7x_xyz2x2x4_x_m2048_n512_f32_1_alg».proof.Proof.Gen.KernelIdeal.Points
import proofs.«900473_g7700000000000474_dist_rs_v7x_xyz2x2x4_x_m2048_n512_f32_1_alg».proof.Proof.KernelIdealCells
import Idealize.ShloMosaic.Lib.Pipeline.Launch
import Idealize.ShloMosaic.Lib.Pipeline.Kit
import Idealize.ShloMosaic.Lib.Pipeline.FrameBody
import Idealize.ShloMosaic.Lib.Ring
import Idealize.ShloMosaic.Lib.Tactic

noncomputable section

/-!
  What the buffers hold, and the schedule of the nine cells.

  Device `c`'s staged input is its slab `x_c`. Chunk `k` (rows `512k … 512k+511`) is read twice: at the partner's
  column half, narrowed and sent; at the device's own column half, kept and added to what arrives.
-/

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- Device `c`'s staged input: its slab, as the pipeline fetches it. -/
def xstg (c : Dev nD) : (cc0_stg0_0 : Ref sig .tc).ty.Contents (Elt F) :=
  (win0_0.blk (0 : Fin 1)).view.read (Elt F) ((s₀ m ρ).mem ((c : Thread nD τ).loc main_arg0))

/-- The eight 512 × 512 blocks of the slab the body loads: blocks 1–4 at the partner's columns, 5–8 at its own. -/
def ldx1 (c : Dev nD) : Vec F S1x512x512 .f32 := xM.view.readAt (Elt F) (Rect.unit (s := S1x2048x1024) (k0_off1 c) S1x512x512.size (k0_off1_inb c)).toLoadRect (xstg m ρ c)
def ldx2 (c : Dev nD) : Vec F S1x512x512 .f32 := xM.view.readAt (Elt F) (Rect.unit (s := S1x2048x1024) (k0_off2 c) S1x512x512.size (k0_off2_inb c)).toLoadRect (xstg m ρ c)
def ldx3 (c : Dev nD) : Vec F S1x512x512 .f32 := xM.view.readAt (Elt F) (Rect.unit (s := S1x2048x1024) (k0_off3 c) S1x512x512.size (k0_off3_inb c)).toLoadRect (xstg m ρ c)
def ldx4 (c : Dev nD) : Vec F S1x512x512 .f32 := xM.view.readAt (Elt F) (Rect.unit (s := S1x2048x1024) (k0_off4 c) S1x512x512.size (k0_off4_inb c)).toLoadRect (xstg m ρ c)
def ldx5 (c : Dev nD) : Vec F S1x512x512 .f32 := xM.view.readAt (Elt F) (Rect.unit (s := S1x2048x1024) (k0_off5 c) S1x512x512.size (k0_off5_inb c)).toLoadRect (xstg m ρ c)
def ldx6 (c : Dev nD) : Vec F S1x512x512 .f32 := xM.view.readAt (Elt F) (Rect.unit (s := S1x2048x1024) (k0_off6 c) S1x512x512.size (k0_off6_inb c)).toLoadRect (xstg m ρ c)
def ldx7 (c : Dev nD) : Vec F S1x512x512 .f32 := xM.view.readAt (Elt F) (Rect.unit (s := S1x2048x1024) (k0_off7 c) S1x512x512.size (k0_off7_inb c)).toLoadRect (xstg m ρ c)
def ldx8 (c : Dev nD) : Vec F S1x512x512 .f32 := xM.view.readAt (Elt F) (Rect.unit (s := S1x2048x1024) (k0_off8 c) S1x512x512.size (k0_off8_inb c)).toLoadRect (xstg m ρ c)

/-- What device `c` stores in slot `k` of its send buffer: block `k+1` narrowed. -/
def paySend (k : Fin 4) (c : Dev nD) : FVec F S1x512x512 .bf16 := match k with
  | 0 => k0_pay1 (ldx1 m ρ c) | 1 => k0_pay2 (ldx2 m ρ c) | 2 => k0_pay3 (ldx3 m ρ c) | 3 => k0_pay4 (ldx4 m ρ c)
  | ⟨_ + 4, h⟩ => absurd h (by omega)

/-- The same read through the squeezed 512 × 512 slot: what a copy of the slot carries. -/
def sent (k : Fin 4) (c : Dev nD) : S512x512.Idx → Elt F .bf16 :=
  fun j => paySend m ρ k c (Shape.reshapeEquiv (squeezes_S1x512x512_S512x512).numel_eq j)

/-- A squeezed slot reads what the slice reads, re-indexed. -/
theorem sq_read {κ : Kind} (v : View sig κ .vmem S1x512x512 .bf16) (f : v.ty.Contents (Elt F)) :
    (v.reshape S512x512 (squeezes_S1x512x512_S512x512).numel_eq).read (Elt F) f
      = fun j => v.read (Elt F) f (Shape.reshapeEquiv (squeezes_S1x512x512_S512x512).numel_eq j) := rfl

/-- If the squeezed slot reads `sent`, the slice reads `paySend`. -/
theorem slice_of_sq {κ : Kind} (v : View sig κ .vmem S1x512x512 .bf16) (f : v.ty.Contents (Elt F)) (k : Fin 4) (c : Dev nD)
    (h : (v.reshape S512x512 (squeezes_S1x512x512_S512x512).numel_eq).read (Elt F) f = sent m ρ k c) :
    v.read (Elt F) f = paySend m ρ k c := by
  funext i
  have := congrFun h ((Shape.reshapeEquiv (squeezes_S1x512x512_S512x512).numel_eq).symm i)
  rw [sq_read] at this
  simpa [sent] using this

/-- The four 512 × 512 pieces of device `c`'s result: its own block plus the partner's narrowed block, widened. -/
def outPiece (k : Fin 4) (c : Dev nD) : FVec F S512x512 .f32 := match k with
  | 0 => k0_pay7 (k0_pay5 (ldx5 m ρ c)) (k0_pay6 (paySend m ρ 0 (peer c)))
  | 1 => k0_pay8 (ldx6 m ρ c) (paySend m ρ 1 (peer c))
  | 2 => k0_pay9 (ldx7 m ρ c) (paySend m ρ 2 (peer c))
  | 3 => k0_pay10 (ldx8 m ρ c) (paySend m ρ 3 (peer c))
  | ⟨_ + 4, h⟩ => absurd h (by omega)

abbrev ro0 : Rect S2048x512 := (Rect.unit (s := S2048x512) ![0, 0] S512x512.size inb_S2048x512_S512x512_0_0)
abbrev ro1 : Rect S2048x512 := (Rect.unit (s := S2048x512) ![512, 0] S512x512.size inb_S2048x512_S512x512_512_0)
abbrev ro2 : Rect S2048x512 := (Rect.unit (s := S2048x512) ![1024, 0] S512x512.size inb_S2048x512_S512x512_1024_0)
abbrev ro3 : Rect S2048x512 := (Rect.unit (s := S2048x512) ![1536, 0] S512x512.size inb_S2048x512_S512x512_1536_0)

/-- The result's staging buffer after the body: the four pieces, one under the other. -/
def outAt (c : Dev nD) : Vec F S2048x512 .f32 :=
  View.canon [⟨ro3, outPiece m ρ 3 c⟩, ⟨ro2, outPiece m ρ 2 c⟩, ⟨ro1, outPiece m ρ 1 c⟩, ⟨ro0, outPiece m ρ 0 c⟩]

/-- The four pieces tile the 2048 × 512 buffer. -/
theorem out_cover (p0 p1 p2 p3 : Vec F S512x512 .f32) (y : S2048x512.Idx) :
    ∃ pc ∈ ([⟨ro3, p3⟩, ⟨ro2, p2⟩, ⟨ro1, p1⟩, ⟨ro0, p0⟩] : List (View.Piece (Elt F) S2048x512 .f32)), y ∈ pc.1.set :=
  View.cover_of_tiled [⟨ro3, p3⟩, ⟨ro2, p2⟩, ⟨ro1, p1⟩, ⟨ro0, p0⟩] S512x512.size (by rfl) y

/-! ## The schedule -/

/-- The partner's entry signal hands `c` the partner's whole receive buffer, at any contents. -/
def barPay (c : Dev nD) : sProp 𝕄 :=
  iprop(∃ d : Dev nD, ⌜d = peer c⌝ ∗ ∃ f : Buf (Elt F) ((d : Thread nD τ).loc cc0_scratch1), ((d : Thread nD τ).loc cc0_scratch1) ↦{fullShare} f)
/-- Copy `k` read: the source slot comes back, at any contents. -/
def sendPay (k : Fin 4) (c : Dev nD) : sProp 𝕄 := iprop(∃ X, owns (c : Thread nD τ) (sSq k) fullShare X)
/-- The partner's copy `k` landed: slot `k` of the receive buffer holds what the partner sent. -/
def recvPay (k : Fin 4) (c : Dev nD) : sProp 𝕄 := owns (c : Thread nD τ) (rSq k) fullShare (sent m ρ k (peer c))

def payloadOf (j : Fin 9) (c : Dev nD) : sProp 𝕄 := match j with
  | 0 => barPay c
  | 1 => sendPay 0 c | 2 => sendPay 1 c | 3 => sendPay 2 c | 4 => sendPay 3 c
  | 5 => recvPay m ρ 0 c | 6 => recvPay m ρ 1 c | 7 => recvPay m ρ 2 c | 8 => recvPay m ρ 3 c
  | ⟨_ + 9, h⟩ => absurd h (by omega)

/-- One round, one duty per cell: the barrier's of one unit, a send or receive cell's of one slot's credit. -/
def ringRd : Rounds.Schedule (GSem nD τ sig) Unit 𝕄 where
  duties g r := if r = 0 ∧ g.1.2 = .tc ∧ (cidx g.2).isSome then {()} else ∅
  unitless _ := False
  amount g _ _ := if g.2 = .reg barS then 1 else N
  payload g _ _ := match cidx g.2 with
    | some j => payloadOf m ρ j g.1.1
    | none => iprop(emp)
  amount_pos g _ _ _ := by
    by_cases h : g.2 = .reg barS
    · rw [if_pos h]; exact Nat.one_pos
    · rw [if_neg h]; exact N_pos

instance payloadOf_storable (j : Fin 9) (c : Dev nD) : BI.Storable (upEmb : UEmb _ 𝕄) (payloadOf (F := F) m ρ j c) := by
  unfold payloadOf
  split <;> first | (unfold barPay; infer_instance) | (unfold sendPay; infer_instance) | (unfold recvPay; infer_instance) | (exact absurd ‹_› (by omega))

instance ringRd_payload_storable (g : GSem nD τ sig) (r : ℕ) (d : Unit) :
    BI.Storable (upEmb : UEmb _ 𝕄) ((ringRd (F := F) m ρ).payload g r d) := by
  show BI.Storable upEmb (match cidx g.2 with
    | some j => payloadOf m ρ j g.1.1
    | none => iprop(emp))
  split <;> infer_instance

section Sched
variable (c : Dev nD) (j : Fin 9)

theorem duties_cell : (ringRd (F := F) m ρ).duties (kcell (c, j)) 0 = {()} := by
  dsimp only [ringRd]; rw [cidx_csem]; exact if_pos ⟨rfl, rfl, rfl⟩
theorem duties_later (g : GSem nD τ sig) : ∀ r, 1 ≤ r → (ringRd (F := F) m ρ).duties g r = ∅ :=
  fun r hr => by dsimp only [ringRd]; exact if_neg fun h => by omega
theorem amount_bar (u : Unit) : (ringRd (F := F) m ρ).amount (kcell (c, 0)) 0 u = 1 := by dsimp only [ringRd]; exact if_pos rfl
theorem amount_dma (hj : j ≠ 0) (u : Unit) : (ringRd (F := F) m ρ).amount (kcell (c, j)) 0 u = N := by
  dsimp only [ringRd]; exact if_neg fun h => hj (csem_injective h)
theorem expect_bar : (ringRd (F := F) m ρ).expect (kcell (c, 0)) 0 = 1 := by
  unfold Schedule.expect Schedule.amountOf; rw [duties_cell, Finset.sum_singleton, amount_bar]
theorem expect_dma (hj : j ≠ 0) : (ringRd (F := F) m ρ).expect (kcell (c, j)) 0 = N := by
  unfold Schedule.expect Schedule.amountOf; rw [duties_cell, Finset.sum_singleton, amount_dma m ρ c j hj]
theorem payload_cell (u : Unit) : (ringRd (F := F) m ρ).payload (kcell (c, j)) 0 u = payloadOf m ρ j c := by
  show (match cidx (csem j) with
    | some j' => payloadOf m ρ j' c
    | none => iprop(emp)) = _
  rw [cidx_csem]
theorem rest_cell :
    bigSep ((ringRd (F := F) m ρ).duties (kcell (c, j)) 0 \ ∅) (fun u => (ringRd (F := F) m ρ).payload (kcell (c, j)) 0 u) = payloadOf m ρ j c := by
  rw [Finset.sdiff_empty, duties_cell, bigSep_singleton, payload_cell]

end Sched

end Cert.KernelIdeal.RS

end
-- ==== Proof.KernelIdealData.lean ====
import proofs.«900473_g7700000000000474_dist_rs_v7x_xyz2x2x4_x_m2048_n512_f32_1_alg».proof.Proof.Spec
import proofs.«900473_g7700000000000474_dist_rs_v7x_xyz2x2x4_x_m2048_n512_f32_1_alg».proof.Proof.Gen.KernelIdeal
import proofs.«900473_g7700000000000474_dist_rs_v7x_xyz2x2x4_x_m2048_n512_f32_1_alg».proof.Proof.Gen.KernelIdeal.Skeleton
import proofs.«900473_g7700000000000474_dist_rs_v7x_xyz2x2x4_x_m2048_n512_f32_1_alg».proof.Proof.Gen.KernelIdeal.Launch
import proofs.«900473_g7700000000000474_dist_rs_v7x_xyz2x2x4_x_m2048_n512_f32_1_alg».proof.Proof.Gen.KernelIdeal.Points
import proofs.«900473_g7700000000000474_dist_rs_v7x_xyz2x2x4_x_m2048_n512_f32_1_alg».proof.Proof.KernelIdealCells
import proofs.«900473_g7700000000000474_dist_rs_v7x_xyz2x2x4_x_m2048_n512_f32_1_alg».proof.Proof.KernelIdealSched
import Idealize.ShloMosaic.Lib.Pipeline.Launch
import Idealize.ShloMosaic.Lib.Pipeline.Kit
import Idealize.ShloMosaic.Lib.Pipeline.FrameBody
import Idealize.ShloMosaic.Lib.Ring
import Idealize.ShloMosaic.Lib.Tactic

noncomputable section

/-!
  What each device owes its partner at launch, the order of the cells (who may wait while owing what), and the
  data the launch theorem takes.

  A device owes its partner one unit on the partner's barrier cell and one slot's credit on each of the partner's
  four receive cells. It waits on its own barrier cell while still owing the four credits, so barrier cells sit below
  receive cells; it waits on its receive and send cells owing nothing.
-/

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each core owes; the levels -/

def O₃ (c : Dev nD) : CellTallies nD τ sig Unit := 0 + tallyAt (recvCell 3 (peer c)) () N
def O₂ (c : Dev nD) : CellTallies nD τ sig Unit := O₃ c + tallyAt (recvCell 2 (peer c)) () N
def O₁ (c : Dev nD) : CellTallies nD τ sig Unit := O₂ c + tallyAt (recvCell 1 (peer c)) () N
/-- After the entry signal: the four copies. -/
def Os (c : Dev nD) : CellTallies nD τ sig Unit := O₁ c + tallyAt (recvCell 0 (peer c)) () N
/-- At launch: the four copies and the entry signal. -/
def O₀ (c : Dev nD) : CellTallies nD τ sig Unit := Os c + tallyAt (barCell (peer c)) () 1

def IsRecv (sm : SemLoc sig) : Prop := sm = .dma (recvSem 0) ∨ sm = .dma (recvSem 1) ∨ sm = .dma (recvSem 2) ∨ sm = .dma (recvSem 3)
instance (sm : SemLoc sig) : Decidable (IsRecv sm) := by unfold IsRecv; infer_instance

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if IsRecv g.2 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (k : Fin 4) (c : Dev nD) : lv (recvCell k c) () = 2 := by
  revert k; intro k; fin_cases k <;> (dsimp only [lv]; rw [if_neg (fun h => by cases h), if_pos (by unfold IsRecv; decide)])

theorem Os_pos {c : Dev nD} {g : GSem nD τ sig} {u : Unit} (h : 0 < Os c g u) : ∃ k, g = recvCell k (peer c) := by
  unfold Os O₁ O₂ O₃ at h
  simp only [Pi.add_apply, Finsupp.add_apply, tallyAt_apply, Pi.zero_apply, Finsupp.coe_zero] at h
  by_contra hn
  rw [not_exists] at hn
  rw [if_neg (fun h' => hn 3 h'.1), if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) : (∃ k, g = recvCell k (peer c)) ∨ g = barCell (peer c) := by
  unfold O₀ at h
  rw [Pi.add_apply, Finsupp.add_apply, tallyAt_apply] at h
  by_cases hb : g = barCell (peer c)
  · exact .inr hb
  · rw [if_neg (fun h' => hb h'.1), Nat.add_zero] at h
    exact .inl (Os_pos h)

theorem mayWait_stage (c : Dev nD) (q : DmaSem sig) (hq : ¬ IsRecv (.dma q)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl <;> exact Finset.mem_singleton_self _)
      (fun p hp => by rw [Finset.mem_singleton.mp hp]; dsimp only [lv]; rw [if_neg (fun h => by cases h), if_neg hq])
      (fun g u hg => by
        rcases O₀_pos hg with ⟨k, rfl⟩ | rfl
        · rw [lv_recv]; decide
        · rw [lv_bar]; decide)
  · rw [MayWait_zero]; iintro -; iempintro

/-- At its barrier wait a device owes its four copies only: receive cells, above its barrier cell. -/
theorem mayWait_bar (c : Dev nD) :
    (levAts L lv : sProp 𝕄) ⊢ MayWait (c : Thread nD τ) (.reg barS) () (Os c) :=
  MayOwe.of_cut (L := L) (lev := lv) 1 (fun p hp => by rw [Finset.mem_singleton.mp hp, L_tc]; exact Finset.mem_singleton_self _)
    (fun g u hg => by obtain ⟨k, rfl⟩ := Os_pos hg; exact Finset.mem_singleton_self _)
    (fun p hp => by rw [Finset.mem_singleton.mp hp]; dsimp only [lv]; rw [if_pos rfl])
    (fun g u hg => by obtain ⟨k, rfl⟩ := Os_pos hg; rw [lv_recv]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Every cell's invariant and that every cell is at its one round: shared by all devices. -/
def records (K : Dev nD × Fin 9 → ℕ) : sProp 𝕄 :=
  iprop((bigSep Finset.univ fun ck : Dev nD × Fin 9 => cellInv ER (ringRd m ρ) (K ck) (kcell ck))
    ∗ bigSep Finset.univ fun ck : Dev nD × Fin 9 => reached ER (kcell ck) 0)

instance records_persistent (K : Dev nD × Fin 9 → ℕ) : BI.Persistent (records m ρ K) := by unfold records; infer_instance

theorem inv_at₀ (K : Dev nD × Fin 9 → ℕ) (ck : Dev nD × Fin 9) :
    (bigSep Finset.univ fun ck : Dev nD × Fin 9 => (cellInv ER (ringRd m ρ) (K ck) (kcell ck) : sProp 𝕄)) ⊢ cellInv ER (ringRd m ρ) (K ck) (kcell ck) :=
  bigSep_elim (Finset.mem_univ ck)
theorem reached_at₀ (ck : Dev nD × Fin 9) :
    (bigSep Finset.univ fun ck : Dev nD × Fin 9 => (reached ER (kcell ck) 0 : sProp 𝕄)) ⊢ reached ER (kcell ck) 0 :=
  bigSep_elim (Finset.mem_univ ck)
theorem inv_at (K : Dev nD × Fin 9 → ℕ) (ck : Dev nD × Fin 9) : records m ρ K ⊢ cellInv ER (ringRd m ρ) (K ck) (kcell ck) := by
  unfold records; iintro ⟨H, -⟩; iapply (inv_at₀ m ρ K ck); iexact H
theorem reached_at (K : Dev nD × Fin 9 → ℕ) (ck : Dev nD × Fin 9) : records m ρ K ⊢ reached ER (kcell ck) 0 := by
  unfold records; iintro ⟨-, H⟩; iapply (reached_at₀ (F := F) ck); iexact H

/-- The tokens of the duties device `c` pays: the partner's barrier and receive cells, its own send cells. -/
def payToks (c : Dev nD) : sProp 𝕄 :=
  iprop(dutyTok ER (kcell (peer c, 0)) 0 ()
    ∗ dutyTok ER (kcell (c, 1)) 0 () ∗ dutyTok ER (kcell (c, 2)) 0 () ∗ dutyTok ER (kcell (c, 3)) 0 () ∗ dutyTok ER (kcell (c, 4)) 0 ()
    ∗ dutyTok ER (kcell (peer c, 5)) 0 () ∗ dutyTok ER (kcell (peer c, 6)) 0 () ∗ dutyTok ER (kcell (peer c, 7)) 0 () ∗ dutyTok ER (kcell (peer c, 8)) 0 ())

/-- Its positions in its own nine cells. -/
def posns (c : Dev nD) : sProp 𝕄 :=
  iprop(atPos ER (kcell (c, 0)) 0 ∅ 0 ∗ atPos ER (kcell (c, 1)) 0 ∅ 0 ∗ atPos ER (kcell (c, 2)) 0 ∅ 0 ∗ atPos ER (kcell (c, 3)) 0 ∅ 0 ∗ atPos ER (kcell (c, 4)) 0 ∅ 0 ∗ atPos ER (kcell (c, 5)) 0 ∅ 0 ∗ atPos ER (kcell (c, 6)) 0 ∅ 0 ∗ atPos ER (kcell (c, 7)) 0 ∅ 0 ∗ atPos ER (kcell (c, 8)) 0 ∅ 0)

def ghost (K : Dev nD × Fin 9 → ℕ) (c : Dev nD) : sProp 𝕄 := iprop(records m ρ K ∗ posns c ∗ payToks c)

/-- The credit dealt at launch: one unit on the barrier cell, one slot's on each receive cell. -/
def creds (c : Dev nD) : sProp 𝕄 :=
  iprop(cred (tallyAt (kcell (c, 0)) () 1) ∗ cred (tallyAt (kcell (c, 5)) () N) ∗ cred (tallyAt (kcell (c, 6)) () N)
    ∗ cred (tallyAt (kcell (c, 7)) () N) ∗ cred (tallyAt (kcell (c, 8)) () N))

def start (c : Dev nD) : sProp 𝕄 := iprop((∃ K, ghost m ρ K c) ∗ creds c ∗ levAts L lv)

abbrev scr (c : Dev nD) (b : Ref sig .tc) : sProp 𝕄 := iprop(∃ f : Buf (Elt F) ((c : Thread nD τ).loc b), ((c : Thread nD τ).loc b) ↦{fullShare} f)

def Φ₀ (c : Dev nD) : sProp 𝕄 := iprop(start m ρ c ∗ scr c cc0_scratch0 ∗ scr c cc0_scratch1)
/-- After the point: both scratch buffers back, the eight own cells at zero, closed. -/
def Φ₁ (c : Dev nD) : sProp 𝕄 :=
  iprop((scr c cc0_scratch0 ∗ scr c cc0_scratch1)
    ∗ semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq' (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdeal.RS

end
-- ==== Proof.KernelIdealSlots.lean ====
import proofs.«900473_g7700000000000474_dist_rs_v7x_xyz2x2x4_x_m2048_n512_f32_1_alg».proof.Proof.Spec
import proofs.«900473_g7700000000000474_dist_rs_v7x_xyz2x2x4_x_m2048_n512_f32_1_alg».proof.Proof.Gen.KernelIdeal
import proofs.«900473_g7700000000000474_dist_rs_v7x_xyz2x2x4_x_m2048_n512_f32_1_alg».proof.Proof.Gen.KernelIdeal.Skeleton
import proofs.«900473_g7700000000000474_dist_rs_v7x_xyz2x2x4_x_m2048_n512_f32_1_alg».proof.Proof.Gen.KernelIdeal.Launch
import proofs.«900473_g7700000000000474_dist_rs_v7x_xyz2x2x4_x_m2048_n512_f32_1_alg».proof.Proof.Gen.KernelIdeal.Points
import proofs.«900473_g7700000000000474_dist_rs_v7x_xyz2x2x4_x_m2048_n512_f32_1_alg».proof.Proof.KernelIdealCells
import proofs.«900473_g7700000000000474_dist_rs_v7x_xyz2x2x4_x_m2048_n512_f32_1_alg».proof.Proof.KernelIdealSched
import proofs.«900473_g7700000000000474_dist_rs_v7x_xyz2x2x4_x_m2048_n512_f32_1_alg».proof.Proof.KernelIdealData
import Idealize.ShloMosaic.Lib.Pipeline.Launch
import Idealize.ShloMosaic.Lib.Pipeline.Kit
import Idealize.ShloMosaic.Lib.Pipeline.FrameBody
import Idealize.ShloMosaic.Lib.Ring
import Idealize.ShloMosaic.Lib.Tactic

noncomputable section

/-!
  The two scratch buffers cut into their four slots and put together again, and what a slot reads.

  A 4 × 512 × 512 buffer is the disjoint union of its four 1 × 512 × 512 slots; owning the buffer is owning the
  four slots, at one contents going in and at any four contents coming back.
-/

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The elements of slot `k` in a view of a 4 × 512 × 512 buffer. -/
abbrev Ks {κ : Kind} (v : View sig κ .vmem S4x512x512 .bf16) (k : Fin 4) : Finset v.ty.Idx := (v.slice (slotR k)).set

theorem slot_disj : ∀ t t' : Fin 4, t ≠ t' → Disjoint (slotR t).set (slotR t').set := by
  intro t t' h
  fin_cases t <;> fin_cases t' <;> first
    | exact absurd rfl h
    | exact Rect.disjoint_of_separated _ _ 0 (by decide)

theorem slot_cover (y : S4x512x512.Idx) : ∃ t : Fin 4, y ∈ (slotR t).set := by
  obtain ⟨p, hp, hy⟩ := View.cover_of_tiled (Val := fun _ => Unit) (e := .bf16)
    [⟨slotR 0, fun _ => ()⟩, ⟨slotR 1, fun _ => ()⟩, ⟨slotR 2, fun _ => ()⟩, ⟨slotR 3, fun _ => ()⟩] S1x512x512.size (by rfl) y
  simp only [List.mem_cons, List.mem_nil_iff, or_false] at hp
  rcases hp with rfl | rfl | rfl | rfl
  · exact ⟨0, hy⟩
  · exact ⟨1, hy⟩
  · exact ⟨2, hy⟩
  · exact ⟨3, hy⟩

theorem Ks_disj {κ : Kind} (v : View sig κ .vmem S4x512x512 .bf16) :
    ∀ t ∈ (Finset.univ : Finset (Fin 4)), ∀ t' ∈ (Finset.univ : Finset (Fin 4)), t ≠ t' → Disjoint (Ks v t) (Ks v t') := by
  intro t _ t' _ htt
  show Disjoint (v.slice (slotR t)).set (v.slice (slotR t')).set
  rw [View.set_slice, View.set_slice]; exact (Finset.disjoint_map _).mpr (slot_disj t t' htt)

theorem Ks_cover {κ : Kind} (v : View sig κ .vmem S4x512x512 .bf16) : (Finset.univ : Finset (Fin 4)).biUnion (Ks v) = v.set := by
  ext i; constructor
  · intro hi
    obtain ⟨t, -, hi⟩ := Finset.mem_biUnion.mp hi
    exact View.set_slice_subset _ _ hi
  · intro hi
    rw [View.set, Finset.mem_map] at hi
    obtain ⟨x, -, rfl⟩ := hi
    obtain ⟨t, hx⟩ := slot_cover x
    exact Finset.mem_biUnion.mpr ⟨t, Finset.mem_univ _, by show _ ∈ (v.slice (slotR t)).set; rw [View.set_slice]; exact Finset.mem_map_of_mem _ hx⟩

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A buffer's elements owned at one contents are its four slots' elements, owned at that contents; -/
theorem cut4 (d : Dev nD) (M : Memref sig .tc .vmem S4x512x512 .bf16) (f : Buf (Elt F) (M.view.loc (d : Thread nD τ))) :
    (M.view.loc (d : Thread nD τ) ↦[M.view.set]{fullShare} f : sProp 𝕄)
      ⊢ iprop((M.view.loc (d : Thread nD τ) ↦[Ks M.view 0]{fullShare} f) ∗ (M.view.loc (d : Thread nD τ) ↦[Ks M.view 1]{fullShare} f)
          ∗ (M.view.loc (d : Thread nD τ) ↦[Ks M.view 2]{fullShare} f) ∗ (M.view.loc (d : Thread nD τ) ↦[Ks M.view 3]{fullShare} f)) := by
  rw [← Ks_cover M.view, pointsTo_biUnion _ _ (Ks_disj M.view), bigSep_fin4]

/-- and four slots owned at any four contents are the buffer's elements owned at some contents. -/
theorem join4 (d : Dev nD) (M : Memref sig .tc .vmem S4x512x512 .bf16) (f0 f1 f2 f3 : Buf (Elt F) (M.view.loc (d : Thread nD τ))) :
    iprop((M.view.loc (d : Thread nD τ) ↦[Ks M.view 0]{fullShare} f0) ∗ (M.view.loc (d : Thread nD τ) ↦[Ks M.view 1]{fullShare} f1)
          ∗ (M.view.loc (d : Thread nD τ) ↦[Ks M.view 2]{fullShare} f2) ∗ (M.view.loc (d : Thread nD τ) ↦[Ks M.view 3]{fullShare} f3))
      ⊢ (iprop(∃ g, M.view.loc (d : Thread nD τ) ↦[M.view.set]{fullShare} g) : sProp 𝕄) := by
  have h := pointsTo_biUnion_join (Ix := Unit) (Name := ℕ) (U := UU) (Lvl := ℕ) (q := fullShare) (ℓ := M.view.loc (d : Thread nD τ)) (Finset.univ : Finset (Fin 4)) (Ks M.view)
    (fun t : Fin 4 => match t with | 0 => f0 | 1 => f1 | 2 => f2 | 3 => f3 | ⟨_ + 4, h⟩ => absurd h (by omega)) f0 (Ks_disj M.view)
  rw [bigSep_fin4, Ks_cover] at h
  refine h.trans ?_
  iintro ⟨%g, -, Hg⟩
  iexists g; iexact Hg

theorem whole_eq (d : Dev nD) (b : Ref sig .tc) (f : Buf (Elt F) ((d : Thread nD τ).loc b)) :
    ((((d : Thread nD τ).loc b) ↦{fullShare} f) : sProp 𝕄) = ((Memref.whole b).view.loc (d : Thread nD τ) ↦[(Memref.whole b).view.set]{fullShare} f) := by
  rw [View.set_whole]

/-- A squeezed slot has the slice's elements. -/
theorem sSq_set0 : (sSq 0).view.set = Ks sB.view 0 := View.set_reshape _ _
theorem rSq_set0 : (rSq 0).view.set = Ks rB.view 0 := View.set_reshape _ _
theorem sSq_set1 : (sSq 1).view.set = Ks sB.view 1 := View.set_reshape _ _
theorem rSq_set1 : (rSq 1).view.set = Ks rB.view 1 := View.set_reshape _ _
theorem sSq_set2 : (sSq 2).view.set = Ks sB.view 2 := View.set_reshape _ _
theorem rSq_set2 : (rSq 2).view.set = Ks rB.view 2 := View.set_reshape _ _
theorem sSq_set3 : (sSq 3).view.set = Ks sB.view 3 := View.set_reshape _ _
theorem rSq_set3 : (rSq 3).view.set = Ks rB.view 3 := View.set_reshape _ _

/-- The squeezed slot reads a store through the slice as the stored block, re-indexed. -/
theorem read_sq_write {κ : Kind} (v : View sig κ .vmem S1x512x512 .bf16) (f : v.ty.Contents (Elt F)) (w : S1x512x512.Idx → Elt F .bf16) :
    (v.reshape S512x512 (squeezes_S1x512x512_S512x512).numel_eq).read (Elt F) (v.write (Elt F) f w Finset.univ)
      = fun j => w (Shape.reshapeEquiv (squeezes_S1x512x512_S512x512).numel_eq j) := by
  rw [sq_read, View.read_write_univ]

theorem to_sq_s0 (d : Dev nD) (f : Buf (Elt F) (sB.view.loc (d : Thread nD τ))) :
    ((sB.view.loc (d : Thread nD τ) ↦[Ks sB.view 0]{fullShare} f) : sProp 𝕄) = ((sSq 0).view.loc (d : Thread nD τ) ↦[(sSq 0).view.set]{fullShare} f) := by
  rw [sSq_set0]
theorem to_sq_r0 (d : Dev nD) (f : Buf (Elt F) (rB.view.loc (d : Thread nD τ))) :
    ((rB.view.loc (d : Thread nD τ) ↦[Ks rB.view 0]{fullShare} f) : sProp 𝕄) = ((rSq 0).view.loc (d : Thread nD τ) ↦[(rSq 0).view.set]{fullShare} f) := by
  rw [rSq_set0]
theorem to_sq_s1 (d : Dev nD) (f : Buf (Elt F) (sB.view.loc (d : Thread nD τ))) :
    ((sB.view.loc (d : Thread nD τ) ↦[Ks sB.view 1]{fullShare} f) : sProp 𝕄) = ((sSq 1).view.loc (d : Thread nD τ) ↦[(sSq 1).view.set]{fullShare} f) := by
  rw [sSq_set1]
theorem to_sq_r1 (d : Dev nD) (f : Buf (Elt F) (rB.view.loc (d : Thread nD τ))) :
    ((rB.view.loc (d : Thread nD τ) ↦[Ks rB.view 1]{fullShare} f) : sProp 𝕄) = ((rSq 1).view.loc (d : Thread nD τ) ↦[(rSq 1).view.set]{fullShare} f) := by
  rw [rSq_set1]
theorem to_sq_s2 (d : Dev nD) (f : Buf (Elt F) (sB.view.loc (d : Thread nD τ))) :
    ((sB.view.loc (d : Thread nD τ) ↦[Ks sB.view 2]{fullShare} f) : sProp 𝕄) = ((sSq 2).view.loc (d : Thread nD τ) ↦[(sSq 2).view.set]{fullShare} f) := by
  rw [sSq_set2]
theorem to_sq_r2 (d : Dev nD) (f : Buf (Elt F) (rB.view.loc (d : Thread nD τ))) :
    ((rB.view.loc (d : Thread nD τ) ↦[Ks rB.view 2]{fullShare} f) : sProp 𝕄) = ((rSq 2).view.loc (d : Thread nD τ) ↦[(rSq 2).view.set]{fullShare} f) := by
  rw [rSq_set2]
theorem to_sq_s3 (d : Dev nD) (f : Buf (Elt F) (sB.view.loc (d : Thread nD τ))) :
    ((sB.view.loc (d : Thread nD τ) ↦[Ks sB.view 3]{fullShare} f) : sProp 𝕄) = ((sSq 3).view.loc (d : Thread nD τ) ↦[(sSq 3).view.set]{fullShare} f) := by
  rw [sSq_set3]
theorem to_sq_r3 (d : Dev nD) (f : Buf (Elt F) (rB.view.loc (d : Thread nD τ))) :
    ((rB.view.loc (d : Thread nD τ) ↦[Ks rB.view 3]{fullShare} f) : sProp 𝕄) = ((rSq 3).view.loc (d : Thread nD τ) ↦[(rSq 3).view.set]{fullShare} f) := by
  rw [rSq_set3]

/-- The entry signal's payload: the signalling device's own receive buffer. -/
theorem bar_pay (c : Dev nD) (f : Buf (Elt F) ((c : Thread nD τ).loc cc0_scratch1)) :
    ((((c : Thread nD τ).loc cc0_scratch1) ↦{fullShare} f) : sProp 𝕄) ⊢ (ringRd m ρ).payload (kcell (peer c, 0)) 0 () := by
  refine BI.Entails.trans ?_ (Entails.of_eq (payload_cell m ρ (peer c) 0 ()).symm)
  show _ ⊢ barPay (peer c)
  unfold barPay
  iintro H; iexists c; isplitr; · ipureintro; exact (peer_peer c).symm
  iexists f; iexact H

theorem mem_duties (c : Dev nD) (j : Fin 9) : () ∈ (ringRd (F := F) m ρ).duties (kcell (c, j)) 0 := by
  rw [duties_cell]; exact Finset.mem_singleton_self _

/-- Copy `0`: slot `0` of the send buffer, holding `sent 0`, goes to slot `0` of the partner's receive buffer. -/
theorem wp_send_slot0 (K : Dev nD × Fin 9 → ℕ) (c n : Dev nD) (hn : n = peer c)
    {hsc : ((rSq 0) : Memref sig (Dev.tc n : Thread nD τ).2.kind .vmem S512x512 .bf16).view.ref.isScScratch = false}
    {hsrc : (sSq 0).view.WordExact} {hdst : (rSq 0).view.WordExact}
    {hsem : DmaTarget.Typed .vmem (.dma (recvSem 0)) (.remote (Dev.tc n : Thread nD τ) (rSq 0) (.dma (sendSem 0)) hsc)}
    {α : Type} {Q : α → sProp 𝕄} {kont : PUnit → Prog (TpuEff nD τ sig (Elt F) Λ₀ .tc) α}
    (fs : Buf (Elt F) ((sSq 0).view.loc (c : Thread nD τ))) (fn : Buf (Elt F) ((rSq 0).view.loc (peer c : Thread nD τ)))
    (hfs : (sSq 0).view.read (Elt F) fs = sent m ρ 0 c)
    (O O' : CellTallies nD τ sig Unit) (hO : O = O' + tallyAt (kcell (peer c, 5)) () N) (W : Waits sig Unit) :
    iprop(cellInv ER (ringRd m ρ) (K (c, 1)) (kcell (c, 1)) ∗ cellInv ER (ringRd m ρ) (K (peer c, 5)) (kcell (peer c, 5))
        ∗ ((sSq 0).view.loc (c : Thread nD τ) ↦[(sSq 0).view.set]{fullShare} fs)
        ∗ ((rSq 0).view.loc (peer c : Thread nD τ) ↦[(rSq 0).view.set]{fullShare} fn)
        ∗ owes (c : Thread nD τ) O W
        ∗ dutyTok ER (kcell (c, 1)) 0 () ∗ reached ER (kcell (c, 1)) 0
        ∗ dutyTok ER (kcell (peer c, 5)) 0 () ∗ reached ER (kcell (peer c, 5)) 0)
      ⊢ iprop(((cred (tallyAt (kcell (c, 1)) () N) ∗ owes (c : Thread nD τ) O' W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sSq 0) (.remote (Dev.tc n : Thread nD τ) (rSq 0) (.dma (sendSem 0)) hsc) (.dma (recvSem 0)) hsrc hdst hsem) kont) Q) := by
  subst hn
  exact Rounds.wp_send_pointsTo 𝒱₀ ER (ringRd m ρ) (c : Thread nD τ) none (κ₁ := K (c, 1)) (κ₂ := K (peer c, 5))
    (r₁ := 0) (r₂ := 0) (d₁ := ()) (d₂ := ()) (fd := fn)
    (mem_duties m ρ c 1) (mem_duties m ρ (peer c) 5)
    () () N rfl (amount_dma m ρ c 1 (by decide) ()) (amount_dma m ρ (peer c) 5 (by decide) ()) O' hO (W := W)
    (by
      refine BI.Entails.trans ?_ (Entails.of_eq (payload_cell m ρ c 1 ()).symm)
      show _ ⊢ sendPay 0 c
      unfold sendPay
      iintro H; iexists _; iapply (owns_intro (c : Thread nD τ) (sSq 0) fullShare fs); iexact H)
    (by
      refine BI.Entails.trans ?_ (Entails.of_eq (payload_cell m ρ (peer c) 5 ()).symm)
      show _ ⊢ recvPay m ρ 0 (peer c)
      unfold recvPay owns
      iintro H; iexists ((rSq 0).view.write (Elt F) fn ((sSq 0).view.read (Elt F) fs) Finset.univ)
      isplitr
      · ipureintro; rw [View.read_write_univ, hfs, peer_peer]
      · iexact H)

/-- Copy `1`: slot `1` of the send buffer, holding `sent 1`, goes to slot `1` of the partner's receive buffer. -/
theorem wp_send_slot1 (K : Dev nD × Fin 9 → ℕ) (c n : Dev nD) (hn : n = peer c)
    {hsc : ((rSq 1) : Memref sig (Dev.tc n : Thread nD τ).2.kind .vmem S512x512 .bf16).view.ref.isScScratch = false}
    {hsrc : (sSq 1).view.WordExact} {hdst : (rSq 1).view.WordExact}
    {hsem : DmaTarget.Typed .vmem (.dma (recvSem 1)) (.remote (Dev.tc n : Thread nD τ) (rSq 1) (.dma (sendSem 1)) hsc)}
    {α : Type} {Q : α → sProp 𝕄} {kont : PUnit → Prog (TpuEff nD τ sig (Elt F) Λ₀ .tc) α}
    (fs : Buf (Elt F) ((sSq 1).view.loc (c : Thread nD τ))) (fn : Buf (Elt F) ((rSq 1).view.loc (peer c : Thread nD τ)))
    (hfs : (sSq 1).view.read (Elt F) fs = sent m ρ 1 c)
    (O O' : CellTallies nD τ sig Unit) (hO : O = O' + tallyAt (kcell (peer c, 6)) () N) (W : Waits sig Unit) :
    iprop(cellInv ER (ringRd m ρ) (K (c, 2)) (kcell (c, 2)) ∗ cellInv ER (ringRd m ρ) (K (peer c, 6)) (kcell (peer c, 6))
        ∗ ((sSq 1).view.loc (c : Thread nD τ) ↦[(sSq 1).view.set]{fullShare} fs)
        ∗ ((rSq 1).view.loc (peer c : Thread nD τ) ↦[(rSq 1).view.set]{fullShare} fn)
        ∗ owes (c : Thread nD τ) O W
        ∗ dutyTok ER (kcell (c, 2)) 0 () ∗ reached ER (kcell (c, 2)) 0
        ∗ dutyTok ER (kcell (peer c, 6)) 0 () ∗ reached ER (kcell (peer c, 6)) 0)
      ⊢ iprop(((cred (tallyAt (kcell (c, 2)) () N) ∗ owes (c : Thread nD τ) O' W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sSq 1) (.remote (Dev.tc n : Thread nD τ) (rSq 1) (.dma (sendSem 1)) hsc) (.dma (recvSem 1)) hsrc hdst hsem) kont) Q) := by
  subst hn
  exact Rounds.wp_send_pointsTo 𝒱₀ ER (ringRd m ρ) (c : Thread nD τ) none (κ₁ := K (c, 2)) (κ₂ := K (peer c, 6))
    (r₁ := 0) (r₂ := 0) (d₁ := ()) (d₂ := ()) (fd := fn)
    (mem_duties m ρ c 2) (mem_duties m ρ (peer c) 6)
    () () N rfl (amount_dma m ρ c 2 (by decide) ()) (amount_dma m ρ (peer c) 6 (by decide) ()) O' hO (W := W)
    (by
      refine BI.Entails.trans ?_ (Entails.of_eq (payload_cell m ρ c 2 ()).symm)
      show _ ⊢ sendPay 1 c
      unfold sendPay
      iintro H; iexists _; iapply (owns_intro (c : Thread nD τ) (sSq 1) fullShare fs); iexact H)
    (by
      refine BI.Entails.trans ?_ (Entails.of_eq (payload_cell m ρ (peer c) 6 ()).symm)
      show _ ⊢ recvPay m ρ 1 (peer c)
      unfold recvPay owns
      iintro H; iexists ((rSq 1).view.write (Elt F) fn ((sSq 1).view.read (Elt F) fs) Finset.univ)
      isplitr
      · ipureintro; rw [View.read_write_univ, hfs, peer_peer]
      · iexact H)

/-- Copy `2`: slot `2` of the send buffer, holding `sent 2`, goes to slot `2` of the partner's receive buffer. -/
theorem wp_send_slot2 (K : Dev nD × Fin 9 → ℕ) (c n : Dev nD) (hn : n = peer c)
    {hsc : ((rSq 2) : Memref sig (Dev.tc n : Thread nD τ).2.kind .vmem S512x512 .bf16).view.ref.isScScratch = false}
    {hsrc : (sSq 2).view.WordExact} {hdst : (rSq 2).view.WordExact}
    {hsem : DmaTarget.Typed .vmem (.dma (recvSem 2)) (.remote (Dev.tc n : Thread nD τ) (rSq 2) (.dma (sendSem 2)) hsc)}
    {α : Type} {Q : α → sProp 𝕄} {kont : PUnit → Prog (TpuEff nD τ sig (Elt F) Λ₀ .tc) α}
    (fs : Buf (Elt F) ((sSq 2).view.loc (c : Thread nD τ))) (fn : Buf (Elt F) ((rSq 2).view.loc (peer c : Thread nD τ)))
    (hfs : (sSq 2).view.read (Elt F) fs = sent m ρ 2 c)
    (O O' : CellTallies nD τ sig Unit) (hO : O = O' + tallyAt (kcell (peer c, 7)) () N) (W : Waits sig Unit) :
    iprop(cellInv ER (ringRd m ρ) (K (c, 3)) (kcell (c, 3)) ∗ cellInv ER (ringRd m ρ) (K (peer c, 7)) (kcell (peer c, 7))
        ∗ ((sSq 2).view.loc (c : Thread nD τ) ↦[(sSq 2).view.set]{fullShare} fs)
        ∗ ((rSq 2).view.loc (peer c : Thread nD τ) ↦[(rSq 2).view.set]{fullShare} fn)
        ∗ owes (c : Thread nD τ) O W
        ∗ dutyTok ER (kcell (c, 3)) 0 () ∗ reached ER (kcell (c, 3)) 0
        ∗ dutyTok ER (kcell (peer c, 7)) 0 () ∗ reached ER (kcell (peer c, 7)) 0)
      ⊢ iprop(((cred (tallyAt (kcell (c, 3)) () N) ∗ owes (c : Thread nD τ) O' W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sSq 2) (.remote (Dev.tc n : Thread nD τ) (rSq 2) (.dma (sendSem 2)) hsc) (.dma (recvSem 2)) hsrc hdst hsem) kont) Q) := by
  subst hn
  exact Rounds.wp_send_pointsTo 𝒱₀ ER (ringRd m ρ) (c : Thread nD τ) none (κ₁ := K (c, 3)) (κ₂ := K (peer c, 7))
    (r₁ := 0) (r₂ := 0) (d₁ := ()) (d₂ := ()) (fd := fn)
    (mem_duties m ρ c 3) (mem_duties m ρ (peer c) 7)
    () () N rfl (amount_dma m ρ c 3 (by decide) ()) (amount_dma m ρ (peer c) 7 (by decide) ()) O' hO (W := W)
    (by
      refine BI.Entails.trans ?_ (Entails.of_eq (payload_cell m ρ c 3 ()).symm)
      show _ ⊢ sendPay 2 c
      unfold sendPay
      iintro H; iexists _; iapply (owns_intro (c : Thread nD τ) (sSq 2) fullShare fs); iexact H)
    (by
      refine BI.Entails.trans ?_ (Entails.of_eq (payload_cell m ρ (peer c) 7 ()).symm)
      show _ ⊢ recvPay m ρ 2 (peer c)
      unfold recvPay owns
      iintro H; iexists ((rSq 2).view.write (Elt F) fn ((sSq 2).view.read (Elt F) fs) Finset.univ)
      isplitr
      · ipureintro; rw [View.read_write_univ, hfs, peer_peer]
      · iexact H)

/-- Copy `3`: slot `3` of the send buffer, holding `sent 3`, goes to slot `3` of the partner's receive buffer. -/
theorem wp_send_slot3 (K : Dev nD × Fin 9 → ℕ) (c n : Dev nD) (hn : n = peer c)
    {hsc : ((rSq 3) : Memref sig (Dev.tc n : Thread nD τ).2.kind .vmem S512x512 .bf16).view.ref.isScScratch = false}
    {hsrc : (sSq 3).view.WordExact} {hdst : (rSq 3).view.WordExact}
    {hsem : DmaTarget.Typed .vmem (.dma (recvSem 3)) (.remote (Dev.tc n : Thread nD τ) (rSq 3) (.dma (sendSem 3)) hsc)}
    {α : Type} {Q : α → sProp 𝕄} {kont : PUnit → Prog (TpuEff nD τ sig (Elt F) Λ₀ .tc) α}
    (fs : Buf (Elt F) ((sSq 3).view.loc (c : Thread nD τ))) (fn : Buf (Elt F) ((rSq 3).view.loc (peer c : Thread nD τ)))
    (hfs : (sSq 3).view.read (Elt F) fs = sent m ρ 3 c)
    (O O' : CellTallies nD τ sig Unit) (hO : O = O' + tallyAt (kcell (peer c, 8)) () N) (W : Waits sig Unit) :
    iprop(cellInv ER (ringRd m ρ) (K (c, 4)) (kcell (c, 4)) ∗ cellInv ER (ringRd m ρ) (K (peer c, 8)) (kcell (peer c, 8))
        ∗ ((sSq 3).view.loc (c : Thread nD τ) ↦[(sSq 3).view.set]{fullShare} fs)
        ∗ ((rSq 3).view.loc (peer c : Thread nD τ) ↦[(rSq 3).view.set]{fullShare} fn)
        ∗ owes (c : Thread nD τ) O W
        ∗ dutyTok ER (kcell (c, 4)) 0 () ∗ reached ER (kcell (c, 4)) 0
        ∗ dutyTok ER (kcell (peer c, 8)) 0 () ∗ reached ER (kcell (peer c, 8)) 0)
      ⊢ iprop(((cred (tallyAt (kcell (c, 4)) () N) ∗ owes (c : Thread nD τ) O' W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sSq 3) (.remote (Dev.tc n : Thread nD τ) (rSq 3) (.dma (sendSem 3)) hsc) (.dma (recvSem 3)) hsrc hdst hsem) kont) Q) := by
  subst hn
  exact Rounds.wp_send_pointsTo 𝒱₀ ER (ringRd m ρ) (c : Thread nD τ) none (κ₁ := K (c, 4)) (κ₂ := K (peer c, 8))
    (r₁ := 0) (r₂ := 0) (d₁ := ()) (d₂ := ()) (fd := fn)
    (mem_duties m ρ c 4) (mem_duties m ρ (peer c) 8)
    () () N rfl (amount_dma m ρ c 4 (by decide) ()) (amount_dma m ρ (peer c) 8 (by decide) ()) O' hO (W := W)
    (by
      refine BI.Entails.trans ?_ (Entails.of_eq (payload_cell m ρ c 4 ()).symm)
      show _ ⊢ sendPay 3 c
      unfold sendPay
      iintro H; iexists _; iapply (owns_intro (c : Thread nD τ) (sSq 3) fullShare fs); iexact H)
    (by
      refine BI.Entails.trans ?_ (Entails.of_eq (payload_cell m ρ (peer c) 8 ()).symm)
      show _ ⊢ recvPay m ρ 3 (peer c)
      unfold recvPay owns
      iintro H; iexists ((rSq 3).view.write (Elt F) fn ((sSq 3).view.read (Elt F) fs) Finset.univ)
      isplitr
      · ipureintro; rw [View.read_write_univ, hfs, peer_peer]
      · iexact H)

end Cert.KernelIdeal.RS

end
-- ==== Proof.KernelIdealBody.lean ====
import proofs.«900473_g7700000000000474_dist_rs_v7x_xyz2x2x4_x_m2048_n512_f32_1_alg».proof.Proof.Spec
import proofs.«900473_g7700000000000474_dist_rs_v7x_xyz2x2x4_x_m2048_n512_f32_1_alg».proof.Proof.Gen.KernelIdeal
import proofs.«900473_g7700000000000474_dist_rs_v7x_xyz2x2x4_x_m2048_n512_f32_1_alg».proof.Proof.Gen.KernelIdeal.Skeleton
import proofs.«900473_g7700000000000474_dist_rs_v7x_xyz2x2x4_x_m2048_n512_f32_1_alg».proof.Proof.Gen.KernelIdeal.Launch
import proofs.«900473_g7700000000000474_dist_rs_v7x_xyz2x2x4_x_m2048_n512_f32_1_alg».proof.Proof.Gen.KernelIdeal.Points
import proofs.«900473_g7700000000000474_dist_rs_v7x_xyz2x2x4_x_m2048_n512_f32_1_alg».proof.Proof.KernelIdealCells
import proofs.«900473_g7700000000000474_dist_rs_v7x_xyz2x2x4_x_m2048_n512_f32_1_alg».proof.Proof.KernelIdealSched
import proofs.«900473_g7700000000000474_dist_rs_v7x_xyz2x2x4_x_m2048_n512_f32_1_alg».proof.Proof.KernelIdealData
import proofs.«900473_g7700000000000474_dist_rs_v7x_xyz2x2x4_x_m2048_n512_f32_1_alg».proof.Proof.KernelIdealSlots
import Idealize.ShloMosaic.Lib.Pipeline.Launch
import Idealize.ShloMosaic.Lib.Pipeline.Kit
import Idealize.ShloMosaic.Lib.Pipeline.FrameBody
import Idealize.ShloMosaic.Lib.Ring
import Idealize.ShloMosaic.Lib.Tactic

noncomputable section

/-!
  One device's body, stepped from start to end.

  The entry signal hands the partner this device's receive buffer; the wait on the own barrier cell brings the
  partner's. Both scratch buffers are cut into their four slots. Chunk by chunk the slab's block at the partner's
  columns is narrowed, stored in a slot and sent into the partner's slot of the same number; then chunk by chunk the
  partner's copy is awaited, its slot read, and own block plus received block stored in the result; then the four
  copies are awaited on the sending side. At the end the eight own cells are closed and the slots put together
  again. The four stores tile the result's staging buffer, so it holds the four pieces whatever it held before.
-/

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 9 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What one device's body starts from: the protocol's ghost state and launch credit, its two scratch buffers at any
    contents, what it owes, its slab staged, the result's staging buffer at any contents. -/
def bodyPre (c : Dev nD) : sProp 𝕄 :=
  iprop((ghost m ρ K c ∗ creds c ∗ levAts L lv ∗ scr c cc0_scratch0 ∗ scr c cc0_scratch1)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it ends with: the scratch buffers back, its eight cells closed, nothing owed, the slab as staged, and the
    result's staging buffer holding own block plus partner's block, chunk by chunk. -/
def bodyPost (c : Dev nD) : sProp 𝕄 :=
  iprop(Φ₁ c ∗ (dats m ρ 0 c).owesAt () t₀.succ ∗ stg c cc0_stg0_0 (xstg m ρ c) ∗ stg c cc0_stg1_0 (outAt m ρ c))

set_option maxHeartbeats 8000000 in
set_option maxRecDepth 65536 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold bodyPre ghost posns payToks creds
  iintro ⟨⟨⟨⟨#Hrec, ⟨Hp0, Hp1, Hp2, Hp3, Hp4, Hp5, Hp6, Hp7, Hp8⟩, ⟨HtB, HtS0, HtS1, HtS2, HtS3, HtR0, HtR1, HtR2, HtR3⟩⟩, ⟨HcB, HcR0, HcR1, HcR2, HcR3⟩, #Hlev, ⟨%fs, Hs⟩, ⟨%fr, Hr⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  ihave HI0 := (inv_at m ρ K (c, 0)) $$ Hrec; icases HI0 with #HI0
  ihave HI1 := (inv_at m ρ K (c, 1)) $$ Hrec; icases HI1 with #HI1
  ihave HI2 := (inv_at m ρ K (c, 2)) $$ Hrec; icases HI2 with #HI2
  ihave HI3 := (inv_at m ρ K (c, 3)) $$ Hrec; icases HI3 with #HI3
  ihave HI4 := (inv_at m ρ K (c, 4)) $$ Hrec; icases HI4 with #HI4
  ihave HI5 := (inv_at m ρ K (c, 5)) $$ Hrec; icases HI5 with #HI5
  ihave HI6 := (inv_at m ρ K (c, 6)) $$ Hrec; icases HI6 with #HI6
  ihave HI7 := (inv_at m ρ K (c, 7)) $$ Hrec; icases HI7 with #HI7
  ihave HI8 := (inv_at m ρ K (c, 8)) $$ Hrec; icases HI8 with #HI8
  ihave HIP0 := (inv_at m ρ K (peer c, 0)) $$ Hrec; icases HIP0 with #HIP0
  ihave HIP5 := (inv_at m ρ K (peer c, 5)) $$ Hrec; icases HIP5 with #HIP5
  ihave HIP6 := (inv_at m ρ K (peer c, 6)) $$ Hrec; icases HIP6 with #HIP6
  ihave HIP7 := (inv_at m ρ K (peer c, 7)) $$ Hrec; icases HIP7 with #HIP7
  ihave HIP8 := (inv_at m ρ K (peer c, 8)) $$ Hrec; icases HIP8 with #HIP8
  ihave Hre1 := (reached_at m ρ K (c, 1)) $$ Hrec; icases Hre1 with #Hre1
  ihave Hre2 := (reached_at m ρ K (c, 2)) $$ Hrec; icases Hre2 with #Hre2
  ihave Hre3 := (reached_at m ρ K (c, 3)) $$ Hrec; icases Hre3 with #Hre3
  ihave Hre4 := (reached_at m ρ K (c, 4)) $$ Hrec; icases Hre4 with #Hre4
  ihave HreP0 := (reached_at m ρ K (peer c, 0)) $$ Hrec; icases HreP0 with #HreP0
  ihave HreP5 := (reached_at m ρ K (peer c, 5)) $$ Hrec; icases HreP5 with #HreP5
  ihave HreP6 := (reached_at m ρ K (peer c, 6)) $$ Hrec; icases HreP6 with #HreP6
  ihave HreP7 := (reached_at m ρ K (peer c, 7)) $$ Hrec; icases HreP7 with #HreP7
  ihave HreP8 := (reached_at m ρ K (peer c, 8)) $$ Hrec; icases HreP8 with #HreP8
  -- the entry signal to the partner's barrier cell: it hands over this device's receive buffer
  simp only [dev1_eq c]
  iapply (Rounds.wp_signal 𝒱₀ ER (ringRd m ρ) (c : Thread nD τ) none (dst := (peer c : Thread nD τ)) (κ := K (peer c, 0))
      (d := ()) (mem_duties m ρ (peer c) 0) ((amount_bar m ρ (peer c) ()).trans (by decide)) () (Os c) rfl)
    $$ [HO HtB Hr]
  · isplitr; · iexact HIP0
    isplitl [HO]; · iexact HO
    isplitl [HtB]; · iexact HtB
    isplitl [Hr]
    · iapply (bar_pay m ρ c fr); iexact Hr
    · iexact HreP0
  iintro HO
  -- the wait on the own barrier cell, still owing the four copies: the partner's receive buffer comes with it
  iapply (Rounds.wp_wait_rest_token 𝒱₀ ER (ringRd m ρ) (c : Thread nD τ) none (κ := K (c, 0))
      (wpE_semWait_eq 𝒱₀ (c : Thread nD τ) none Set.univ) (Set.mem_univ _) () (O := Os c) (W := W) (R := 0) (m := 0) (T := ∅)
      (by rw [expect_bar]; decide)) $$ [HcB HO Hp0]
  · isplitr; · iexact HI0
    isplitl [HcB]; · iexact HcB
    isplitl [HO]; · iexact HO
    isplitr; · iapply (mayWait_bar c); iexact Hlev
    iexact Hp0
  iintro ⟨HO, Hp0, -, Hpay⟩
  ihave Hpay := (Entails.of_eq (rest_cell m ρ c 0)) $$ Hpay
  ihave Hpay := (show payloadOf m ρ 0 c ⊢ barPay c from .rfl) $$ Hpay
  unfold barPay
  icases Hpay with ⟨%dp, %hdp, %fn, HrN⟩
  subst hdp
  -- both buffers cut into their slots
  ihave HrN := (Entails.of_eq (whole_eq (peer c) cc0_scratch1 fn)) $$ HrN
  ihave HrN := (cut4 (peer c) rB fn) $$ HrN
  icases HrN with ⟨HN0, HN1, HN2, HN3⟩
  ihave Hs := (Entails.of_eq (whole_eq c cc0_scratch0 fs)) $$ Hs
  ihave Hs := (cut4 c sB fs) $$ Hs
  icases Hs with ⟨Hs0, Hs1, Hs2, Hs3⟩
  unfold Os O₁ O₂ O₃
  -- chunk 0: the slab's block at the partner's columns, narrowed, stored in slot 0 and sent
  iapply (wp_load 𝒱₀ (c : Thread nD τ) none Set.univ (m := xM) (Finset.subset_univ _)) $$ Hx; iintro Hx
  iapply (wp_load_rect 𝒱₀ (c : Thread nD τ) none Set.univ (m := sB) (r := (Rect.unit (s := S4x512x512) ![0, 0, 0] S1x512x512.size inb_S4x512x512_S1x512x512_0_0_0)) (Finset.Subset.refl _)) $$ Hs0; iintro Hs0
  iapply (wp_store 𝒱₀ (c : Thread nD τ) none Set.univ (m := sB) (r := (Rect.unit (s := S4x512x512) ![0, 0, 0] S1x512x512.size inb_S4x512x512_S1x512x512_0_0_0)) (Mk := Finset.univ) (S := (sB.access (Rect.unit (s := S4x512x512) ![0, 0, 0] S1x512x512.size inb_S4x512x512_S1x512x512_0_0_0)).set) (Finset.Subset.refl _)) $$ Hs0; iintro Hs0
  ihave Hs0 := (Entails.of_eq (to_sq_s0 c _)) $$ Hs0
  ihave HN0 := (Entails.of_eq (to_sq_r0 (peer c) fn)) $$ HN0
  iapply (wp_send_slot0 m ρ K c _ (dev2_eq c) ((sB.access (Rect.unit (s := S4x512x512) ![0, 0, 0] S1x512x512.size inb_S4x512x512_S1x512x512_0_0_0)).write (Elt F) fs (paySend m ρ 0 c) Finset.univ) fn
      (read_sq_write (sB.access (Rect.unit (s := S4x512x512) ![0, 0, 0] S1x512x512.size inb_S4x512x512_S1x512x512_0_0_0)) fs (paySend m ρ 0 c)) _ (O₁ c) rfl _) $$ [Hs0 HN0 HO HtS0 HtR0]
  · isplitr; · iexact HI1
    isplitr; · iexact HIP5
    isplitl [Hs0]; · iexact Hs0
    isplitl [HN0]; · iexact HN0
    isplitl [HO]; · iexact HO
    isplitl [HtS0]; · iexact HtS0
    isplitr; · iexact Hre1
    isplitl [HtR0]; · iexact HtR0
    iexact HreP5
  iintro ⟨HcS0, HO⟩
  -- chunk 1: the slab's block at the partner's columns, narrowed, stored in slot 1 and sent
  iapply (wp_load 𝒱₀ (c : Thread nD τ) none Set.univ (m := xM) (Finset.subset_univ _)) $$ Hx; iintro Hx
  iapply (wp_load_rect 𝒱₀ (c : Thread nD τ) none Set.univ (m := sB) (r := (Rect.unit (s := S4x512x512) ![1, 0, 0] S1x512x512.size inb_S4x512x512_S1x512x512_1_0_0)) (Finset.Subset.refl _)) $$ Hs1; iintro Hs1
  iapply (wp_store 𝒱₀ (c : Thread nD τ) none Set.univ (m := sB) (r := (Rect.unit (s := S4x512x512) ![1, 0, 0] S1x512x512.size inb_S4x512x512_S1x512x512_1_0_0)) (Mk := Finset.univ) (S := (sB.access (Rect.unit (s := S4x512x512) ![1, 0, 0] S1x512x512.size inb_S4x512x512_S1x512x512_1_0_0)).set) (Finset.Subset.refl _)) $$ Hs1; iintro Hs1
  ihave Hs1 := (Entails.of_eq (to_sq_s1 c _)) $$ Hs1
  ihave HN1 := (Entails.of_eq (to_sq_r1 (peer c) fn)) $$ HN1
  iapply (wp_send_slot1 m ρ K c _ (dev3_eq c) ((sB.access (Rect.unit (s := S4x512x512) ![1, 0, 0] S1x512x512.size inb_S4x512x512_S1x512x512_1_0_0)).write (Elt F) fs (paySend m ρ 1 c) Finset.univ) fn
      (read_sq_write (sB.access (Rect.unit (s := S4x512x512) ![1, 0, 0] S1x512x512.size inb_S4x512x512_S1x512x512_1_0_0)) fs (paySend m ρ 1 c)) _ (O₂ c) rfl _) $$ [Hs1 HN1 HO HtS1 HtR1]
  · isplitr; · iexact HI2
    isplitr; · iexact HIP6
    isplitl [Hs1]; · iexact Hs1
    isplitl [HN1]; · iexact HN1
    isplitl [HO]; · iexact HO
    isplitl [HtS1]; · iexact HtS1
    isplitr; · iexact Hre2
    isplitl [HtR1]; · iexact HtR1
    iexact HreP6
  iintro ⟨HcS1, HO⟩
  -- chunk 2: the slab's block at the partner's columns, narrowed, stored in slot 2 and sent
  iapply (wp_load 𝒱₀ (c : Thread nD τ) none Set.univ (m := xM) (Finset.subset_univ _)) $$ Hx; iintro Hx
  iapply (wp_load_rect 𝒱₀ (c : Thread nD τ) none Set.univ (m := sB) (r := (Rect.unit (s := S4x512x512) ![2, 0, 0] S1x512x512.size inb_S4x512x512_S1x512x512_2_0_0)) (Finset.Subset.refl _)) $$ Hs2; iintro Hs2
  iapply (wp_store 𝒱₀ (c : Thread nD τ) none Set.univ (m := sB) (r := (Rect.unit (s := S4x512x512) ![2, 0, 0] S1x512x512.size inb_S4x512x512_S1x512x512_2_0_0)) (Mk := Finset.univ) (S := (sB.access (Rect.unit (s := S4x512x512) ![2, 0, 0] S1x512x512.size inb_S4x512x512_S1x512x512_2_0_0)).set) (Finset.Subset.refl _)) $$ Hs2; iintro Hs2
  ihave Hs2 := (Entails.of_eq (to_sq_s2 c _)) $$ Hs2
  ihave HN2 := (Entails.of_eq (to_sq_r2 (peer c) fn)) $$ HN2
  iapply (wp_send_slot2 m ρ K c _ (dev4_eq c) ((sB.access (Rect.unit (s := S4x512x512) ![2, 0, 0] S1x512x512.size inb_S4x512x512_S1x512x512_2_0_0)).write (Elt F) fs (paySend m ρ 2 c) Finset.univ) fn
      (read_sq_write (sB.access (Rect.unit (s := S4x512x512) ![2, 0, 0] S1x512x512.size inb_S4x512x512_S1x512x512_2_0_0)) fs (paySend m ρ 2 c)) _ (O₃ c) rfl _) $$ [Hs2 HN2 HO HtS2 HtR2]
  · isplitr; · iexact HI3
    isplitr; · iexact HIP7
    isplitl [Hs2]; · iexact Hs2
    isplitl [HN2]; · iexact HN2
    isplitl [HO]; · iexact HO
    isplitl [HtS2]; · iexact HtS2
    isplitr; · iexact Hre3
    isplitl [HtR2]; · iexact HtR2
    iexact HreP7
  iintro ⟨HcS2, HO⟩
  -- chunk 3: the slab's block at the partner's columns, narrowed, stored in slot 3 and sent
  iapply (wp_load 𝒱₀ (c : Thread nD τ) none Set.univ (m := xM) (Finset.subset_univ _)) $$ Hx; iintro Hx
  iapply (wp_load_rect 𝒱₀ (c : Thread nD τ) none Set.univ (m := sB) (r := (Rect.unit (s := S4x512x512) ![3, 0, 0] S1x512x512.size inb_S4x512x512_S1x512x512_3_0_0)) (Finset.Subset.refl _)) $$ Hs3; iintro Hs3
  iapply (wp_store 𝒱₀ (c : Thread nD τ) none Set.univ (m := sB) (r := (Rect.unit (s := S4x512x512) ![3, 0, 0] S1x512x512.size inb_S4x512x512_S1x512x512_3_0_0)) (Mk := Finset.univ) (S := (sB.access (Rect.unit (s := S4x512x512) ![3, 0, 0] S1x512x512.size inb_S4x512x512_S1x512x512_3_0_0)).set) (Finset.Subset.refl _)) $$ Hs3; iintro Hs3
  ihave Hs3 := (Entails.of_eq (to_sq_s3 c _)) $$ Hs3
  ihave HN3 := (Entails.of_eq (to_sq_r3 (peer c) fn)) $$ HN3
  iapply (wp_send_slot3 m ρ K c _ (dev5_eq c) ((sB.access (Rect.unit (s := S4x512x512) ![3, 0, 0] S1x512x512.size inb_S4x512x512_S1x512x512_3_0_0)).write (Elt F) fs (paySend m ρ 3 c) Finset.univ) fn
      (read_sq_write (sB.access (Rect.unit (s := S4x512x512) ![3, 0, 0] S1x512x512.size inb_S4x512x512_S1x512x512_3_0_0)) fs (paySend m ρ 3 c)) _ (0) rfl _) $$ [Hs3 HN3 HO HtS3 HtR3]
  · isplitr; · iexact HI4
    isplitr; · iexact HIP8
    isplitl [Hs3]; · iexact Hs3
    isplitl [HN3]; · iexact HN3
    isplitl [HO]; · iexact HO
    isplitl [HtS3]; · iexact HtS3
    isplitr; · iexact Hre4
    isplitl [HtR3]; · iexact HtR3
    iexact HreP8
  iintro ⟨HcS3, HO⟩
  -- chunk 0: the wait for the partner's copy, then own block plus what arrived, stored in the result
  iapply (Rounds.wp_wait_rest_token 𝒱₀ ER (ringRd m ρ) (c : Thread nD τ) none (κ := K (c, 5))
      (wpE_waitDma2_eq 𝒱₀ (c : Thread nD τ) none Set.univ) (Set.mem_univ _) () (O := 0) (R := 0) (m := 0) (T := ∅)
      (by rw [Nat.zero_add, expect_dma m ρ c 5 (by decide)])) $$ [HcR0 HO Hp5]
  · isplitr; · iexact HI5
    isplitl [HcR0]; · iexact HcR0
    isplitl [HO]; · iexact HO
    isplitr; · rw [MayWait_zero]; iempintro
    iexact Hp5
  iintro ⟨HO, Hp5, -, Hpay⟩
  ihave Hpay := (Entails.of_eq (rest_cell m ρ c 5)) $$ Hpay
  ihave Hpay := (show payloadOf m ρ 5 c ⊢ recvPay m ρ 0 c from .rfl) $$ Hpay
  unfold recvPay owns
  icases Hpay with ⟨%fk0, %hfk0, Hr0⟩
  iapply (wp_load 𝒱₀ (c : Thread nD τ) none Set.univ (m := xM) (Finset.subset_univ _)) $$ Hx; iintro Hx
  iapply (wp_load_rect 𝒱₀ (c : Thread nD τ) none Set.univ (m := rB) (r := (Rect.unit (s := S4x512x512) ![0, 0, 0] S1x512x512.size inb_S4x512x512_S1x512x512_0_0_0)) (S := (rSq 0).view.set) rSq_set0.symm.subset) $$ Hr0; iintro Hr0
  rw [show (rB.access (Rect.unit (s := S4x512x512) ![0, 0, 0] S1x512x512.size inb_S4x512x512_S1x512x512_0_0_0)).read (Elt F) fk0 = paySend m ρ 0 (peer c) from slice_of_sq m ρ _ fk0 0 (peer c) hfk0]
  iapply (wp_load 𝒱₀ (c : Thread nD τ) none Set.univ (m := oM) (Finset.subset_univ _)) $$ Hout; iintro Hout
  iapply (wp_store 𝒱₀ (c : Thread nD τ) none Set.univ (m := oM) (r := ro0) (Mk := Finset.univ) (Finset.subset_univ _)) $$ Hout; iintro Hout
  -- chunk 1: the wait for the partner's copy, then own block plus what arrived, stored in the result
  iapply (Rounds.wp_wait_rest_token 𝒱₀ ER (ringRd m ρ) (c : Thread nD τ) none (κ := K (c, 6))
      (wpE_waitDma2_eq 𝒱₀ (c : Thread nD τ) none Set.univ) (Set.mem_univ _) () (O := 0) (R := 0) (m := 0) (T := ∅)
      (by rw [Nat.zero_add, expect_dma m ρ c 6 (by decide)])) $$ [HcR1 HO Hp6]
  · isplitr; · iexact HI6
    isplitl [HcR1]; · iexact HcR1
    isplitl [HO]; · iexact HO
    isplitr; · rw [MayWait_zero]; iempintro
    iexact Hp6
  iintro ⟨HO, Hp6, -, Hpay⟩
  ihave Hpay := (Entails.of_eq (rest_cell m ρ c 6)) $$ Hpay
  ihave Hpay := (show payloadOf m ρ 6 c ⊢ recvPay m ρ 1 c from .rfl) $$ Hpay
  unfold recvPay owns
  icases Hpay with ⟨%fk1, %hfk1, Hr1⟩
  iapply (wp_load 𝒱₀ (c : Thread nD τ) none Set.univ (m := xM) (Finset.subset_univ _)) $$ Hx; iintro Hx
  iapply (wp_load_rect 𝒱₀ (c : Thread nD τ) none Set.univ (m := rB) (r := (Rect.unit (s := S4x512x512) ![1, 0, 0] S1x512x512.size inb_S4x512x512_S1x512x512_1_0_0)) (S := (rSq 1).view.set) rSq_set1.symm.subset) $$ Hr1; iintro Hr1
  rw [show (rB.access (Rect.unit (s := S4x512x512) ![1, 0, 0] S1x512x512.size inb_S4x512x512_S1x512x512_1_0_0)).read (Elt F) fk1 = paySend m ρ 1 (peer c) from slice_of_sq m ρ _ fk1 1 (peer c) hfk1]
  iapply (wp_load 𝒱₀ (c : Thread nD τ) none Set.univ (m := oM) (Finset.subset_univ _)) $$ Hout; iintro Hout
  iapply (wp_store 𝒱₀ (c : Thread nD τ) none Set.univ (m := oM) (r := ro1) (Mk := Finset.univ) (Finset.subset_univ _)) $$ Hout; iintro Hout
  -- chunk 2: the wait for the partner's copy, then own block plus what arrived, stored in the result
  iapply (Rounds.wp_wait_rest_token 𝒱₀ ER (ringRd m ρ) (c : Thread nD τ) none (κ := K (c, 7))
      (wpE_waitDma2_eq 𝒱₀ (c : Thread nD τ) none Set.univ) (Set.mem_univ _) () (O := 0) (R := 0) (m := 0) (T := ∅)
      (by rw [Nat.zero_add, expect_dma m ρ c 7 (by decide)])) $$ [HcR2 HO Hp7]
  · isplitr; · iexact HI7
    isplitl [HcR2]; · iexact HcR2
    isplitl [HO]; · iexact HO
    isplitr; · rw [MayWait_zero]; iempintro
    iexact Hp7
  iintro ⟨HO, Hp7, -, Hpay⟩
  ihave Hpay := (Entails.of_eq (rest_cell m ρ c 7)) $$ Hpay
  ihave Hpay := (show payloadOf m ρ 7 c ⊢ recvPay m ρ 2 c from .rfl) $$ Hpay
  unfold recvPay owns
  icases Hpay with ⟨%fk2, %hfk2, Hr2⟩
  iapply (wp_load 𝒱₀ (c : Thread nD τ) none Set.univ (m := xM) (Finset.subset_univ _)) $$ Hx; iintro Hx
  iapply (wp_load_rect 𝒱₀ (c : Thread nD τ) none Set.univ (m := rB) (r := (Rect.unit (s := S4x512x512) ![2, 0, 0] S1x512x512.size inb_S4x512x512_S1x512x512_2_0_0)) (S := (rSq 2).view.set) rSq_set2.symm.subset) $$ Hr2; iintro Hr2
  rw [show (rB.access (Rect.unit (s := S4x512x512) ![2, 0, 0] S1x512x512.size inb_S4x512x512_S1x512x512_2_0_0)).read (Elt F) fk2 = paySend m ρ 2 (peer c) from slice_of_sq m ρ _ fk2 2 (peer c) hfk2]
  iapply (wp_load 𝒱₀ (c : Thread nD τ) none Set.univ (m := oM) (Finset.subset_univ _)) $$ Hout; iintro Hout
  iapply (wp_store 𝒱₀ (c : Thread nD τ) none Set.univ (m := oM) (r := ro2) (Mk := Finset.univ) (Finset.subset_univ _)) $$ Hout; iintro Hout
  -- chunk 3: the wait for the partner's copy, then own block plus what arrived, stored in the result
  iapply (Rounds.wp_wait_rest_token 𝒱₀ ER (ringRd m ρ) (c : Thread nD τ) none (κ := K (c, 8))
      (wpE_waitDma2_eq 𝒱₀ (c : Thread nD τ) none Set.univ) (Set.mem_univ _) () (O := 0) (R := 0) (m := 0) (T := ∅)
      (by rw [Nat.zero_add, expect_dma m ρ c 8 (by decide)])) $$ [HcR3 HO Hp8]
  · isplitr; · iexact HI8
    isplitl [HcR3]; · iexact HcR3
    isplitl [HO]; · iexact HO
    isplitr; · rw [MayWait_zero]; iempintro
    iexact Hp8
  iintro ⟨HO, Hp8, -, Hpay⟩
  ihave Hpay := (Entails.of_eq (rest_cell m ρ c 8)) $$ Hpay
  ihave Hpay := (show payloadOf m ρ 8 c ⊢ recvPay m ρ 3 c from .rfl) $$ Hpay
  unfold recvPay owns
  icases Hpay with ⟨%fk3, %hfk3, Hr3⟩
  iapply (wp_load 𝒱₀ (c : Thread nD τ) none Set.univ (m := xM) (Finset.subset_univ _)) $$ Hx; iintro Hx
  iapply (wp_load_rect 𝒱₀ (c : Thread nD τ) none Set.univ (m := rB) (r := (Rect.unit (s := S4x512x512) ![3, 0, 0] S1x512x512.size inb_S4x512x512_S1x512x512_3_0_0)) (S := (rSq 3).view.set) rSq_set3.symm.subset) $$ Hr3; iintro Hr3
  rw [show (rB.access (Rect.unit (s := S4x512x512) ![3, 0, 0] S1x512x512.size inb_S4x512x512_S1x512x512_3_0_0)).read (Elt F) fk3 = paySend m ρ 3 (peer c) from slice_of_sq m ρ _ fk3 3 (peer c) hfk3]
  iapply (wp_load 𝒱₀ (c : Thread nD τ) none Set.univ (m := oM) (Finset.subset_univ _)) $$ Hout; iintro Hout
  iapply (wp_store 𝒱₀ (c : Thread nD τ) none Set.univ (m := oM) (r := ro3) (Mk := Finset.univ) (Finset.subset_univ _)) $$ Hout; iintro Hout
  -- the wait for copy 0 to have been read: slot 0 of the send buffer back
  iapply (Rounds.wp_wait_rest_token 𝒱₀ ER (ringRd m ρ) (c : Thread nD τ) none (κ := K (c, 1))
      (wpE_waitDma2_eq 𝒱₀ (c : Thread nD τ) none Set.univ) (Set.mem_univ _) () (O := 0) (R := 0) (m := 0) (T := ∅)
      (by rw [Nat.zero_add, expect_dma m ρ c 1 (by decide)])) $$ [HcS0 HO Hp1]
  · isplitr; · iexact HI1
    isplitl [HcS0]; · iexact HcS0
    isplitl [HO]; · iexact HO
    isplitr; · rw [MayWait_zero]; iempintro
    iexact Hp1
  iintro ⟨HO, Hp1, -, Hpay⟩
  ihave Hpay := (Entails.of_eq (rest_cell m ρ c 1)) $$ Hpay
  ihave Hpay := (show payloadOf m ρ 1 c ⊢ sendPay 0 c from .rfl) $$ Hpay
  unfold sendPay owns
  icases Hpay with ⟨%X0, %fq0, -, Hs0⟩
  -- the wait for copy 1 to have been read: slot 1 of the send buffer back
  iapply (Rounds.wp_wait_rest_token 𝒱₀ ER (ringRd m ρ) (c : Thread nD τ) none (κ := K (c, 2))
      (wpE_waitDma2_eq 𝒱₀ (c : Thread nD τ) none Set.univ) (Set.mem_univ _) () (O := 0) (R := 0) (m := 0) (T := ∅)
      (by rw [Nat.zero_add, expect_dma m ρ c 2 (by decide)])) $$ [HcS1 HO Hp2]
  · isplitr; · iexact HI2
    isplitl [HcS1]; · iexact HcS1
    isplitl [HO]; · iexact HO
    isplitr; · rw [MayWait_zero]; iempintro
    iexact Hp2
  iintro ⟨HO, Hp2, -, Hpay⟩
  ihave Hpay := (Entails.of_eq (rest_cell m ρ c 2)) $$ Hpay
  ihave Hpay := (show payloadOf m ρ 2 c ⊢ sendPay 1 c from .rfl) $$ Hpay
  unfold sendPay owns
  icases Hpay with ⟨%X1, %fq1, -, Hs1⟩
  -- the wait for copy 2 to have been read: slot 2 of the send buffer back
  iapply (Rounds.wp_wait_rest_token 𝒱₀ ER (ringRd m ρ) (c : Thread nD τ) none (κ := K (c, 3))
      (wpE_waitDma2_eq 𝒱₀ (c : Thread nD τ) none Set.univ) (Set.mem_univ _) () (O := 0) (R := 0) (m := 0) (T := ∅)
      (by rw [Nat.zero_add, expect_dma m ρ c 3 (by decide)])) $$ [HcS2 HO Hp3]
  · isplitr; · iexact HI3
    isplitl [HcS2]; · iexact HcS2
    isplitl [HO]; · iexact HO
    isplitr; · rw [MayWait_zero]; iempintro
    iexact Hp3
  iintro ⟨HO, Hp3, -, Hpay⟩
  ihave Hpay := (Entails.of_eq (rest_cell m ρ c 3)) $$ Hpay
  ihave Hpay := (show payloadOf m ρ 3 c ⊢ sendPay 2 c from .rfl) $$ Hpay
  unfold sendPay owns
  icases Hpay with ⟨%X2, %fq2, -, Hs2⟩
  -- the wait for copy 3 to have been read: slot 3 of the send buffer back
  iapply (Rounds.wp_wait_rest_token 𝒱₀ ER (ringRd m ρ) (c : Thread nD τ) none (κ := K (c, 4))
      (wpE_waitDma2_eq 𝒱₀ (c : Thread nD τ) none Set.univ) (Set.mem_univ _) () (O := 0) (R := 0) (m := 0) (T := ∅)
      (by rw [Nat.zero_add, expect_dma m ρ c 4 (by decide)])) $$ [HcS3 HO Hp4]
  · isplitr; · iexact HI4
    isplitl [HcS3]; · iexact HcS3
    isplitl [HO]; · iexact HO
    isplitr; · rw [MayWait_zero]; iempintro
    iexact Hp4
  iintro ⟨HO, Hp4, -, Hpay⟩
  ihave Hpay := (Entails.of_eq (rest_cell m ρ c 4)) $$ Hpay
  ihave Hpay := (show payloadOf m ρ 4 c ⊢ sendPay 3 c from .rfl) $$ Hpay
  unfold sendPay owns
  icases Hpay with ⟨%X3, %fq3, -, Hs3⟩
  -- the eight own cells close: their counters at zero are the core's again
  imod (Rounds.cell_close ER (ringRd m ρ) (Set.mem_univ (K (c, 1))) (fun h => h) (R := 0 + 1) (duties_later m ρ (kcell (c, 1)))) $$ [Hp1] with Hz1
  · isplitr; · iexact HI1
    iexact Hp1
  imod (Rounds.cell_close ER (ringRd m ρ) (Set.mem_univ (K (c, 2))) (fun h => h) (R := 0 + 1) (duties_later m ρ (kcell (c, 2)))) $$ [Hp2] with Hz2
  · isplitr; · iexact HI2
    iexact Hp2
  imod (Rounds.cell_close ER (ringRd m ρ) (Set.mem_univ (K (c, 3))) (fun h => h) (R := 0 + 1) (duties_later m ρ (kcell (c, 3)))) $$ [Hp3] with Hz3
  · isplitr; · iexact HI3
    iexact Hp3
  imod (Rounds.cell_close ER (ringRd m ρ) (Set.mem_univ (K (c, 4))) (fun h => h) (R := 0 + 1) (duties_later m ρ (kcell (c, 4)))) $$ [Hp4] with Hz4
  · isplitr; · iexact HI4
    iexact Hp4
  imod (Rounds.cell_close ER (ringRd m ρ) (Set.mem_univ (K (c, 5))) (fun h => h) (R := 0 + 1) (duties_later m ρ (kcell (c, 5)))) $$ [Hp5] with Hz5
  · isplitr; · iexact HI5
    iexact Hp5
  imod (Rounds.cell_close ER (ringRd m ρ) (Set.mem_univ (K (c, 6))) (fun h => h) (R := 0 + 1) (duties_later m ρ (kcell (c, 6)))) $$ [Hp6] with Hz6
  · isplitr; · iexact HI6
    iexact Hp6
  imod (Rounds.cell_close ER (ringRd m ρ) (Set.mem_univ (K (c, 7))) (fun h => h) (R := 0 + 1) (duties_later m ρ (kcell (c, 7)))) $$ [Hp7] with Hz7
  · isplitr; · iexact HI7
    iexact Hp7
  imod (Rounds.cell_close ER (ringRd m ρ) (Set.mem_univ (K (c, 8))) (fun h => h) (R := 0 + 1) (duties_later m ρ (kcell (c, 8)))) $$ [Hp8] with Hz8
  · isplitr; · iexact HI8
    iexact Hp8
  -- the slots put together again
  ihave Hs0 := (Entails.of_eq (to_sq_s0 c fq0).symm) $$ Hs0
  ihave Hr0 := (Entails.of_eq (to_sq_r0 c fk0).symm) $$ Hr0
  ihave Hs1 := (Entails.of_eq (to_sq_s1 c fq1).symm) $$ Hs1
  ihave Hr1 := (Entails.of_eq (to_sq_r1 c fk1).symm) $$ Hr1
  ihave Hs2 := (Entails.of_eq (to_sq_s2 c fq2).symm) $$ Hs2
  ihave Hr2 := (Entails.of_eq (to_sq_r2 c fk2).symm) $$ Hr2
  ihave Hs3 := (Entails.of_eq (to_sq_s3 c fq3).symm) $$ Hs3
  ihave Hr3 := (Entails.of_eq (to_sq_r3 c fk3).symm) $$ Hr3
  ihave Hsw := (join4 c sB fq0 fq1 fq2 fq3) $$ [Hs0 Hs1 Hs2 Hs3]
  · isplitl [Hs0]; · iexact Hs0
    isplitl [Hs1]; · iexact Hs1
    isplitl [Hs2]; · iexact Hs2
    iexact Hs3
  ihave Hrw := (join4 c rB fk0 fk1 fk2 fk3) $$ [Hr0 Hr1 Hr2 Hr3]
  · isplitl [Hr0]; · iexact Hr0
    isplitl [Hr1]; · iexact Hr1
    isplitl [Hr2]; · iexact Hr2
    iexact Hr3
  icases Hsw with ⟨%gs, Hsw⟩
  icases Hrw with ⟨%gr, Hrw⟩
  ihave Hsw := (Entails.of_eq (whole_eq c cc0_scratch0 gs).symm) $$ Hsw
  ihave Hrw := (Entails.of_eq (whole_eq c cc0_scratch1 gr).symm) $$ Hrw
  rw [wp_ret]; imodintro
  iapply Hk
  unfold bodyPost Φ₁ Dat.owesAt Pipeline.owesWithin
  rw [show (dats m ρ 0 c).owed t₀.succ = 0 from rfl]
  isplitl [Hsw Hrw Hz1 Hz2 Hz3 Hz4 Hz5 Hz6 Hz7 Hz8]
  · isplitl [Hsw Hrw]
    · isplitl [Hsw]
      · iexists gs; iexact Hsw
      · iexists gr; iexact Hrw
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    iexact Hz8
  isplitl [HO]
  · iexists _
    isplitr
    swap; · iexact HO
    ipureintro; exact fun _ _ => Or.inl trivial
  isplitl [Hx]
  · iexists _; isplitr; · (ipureintro; rfl)
    iexact Hx
  iexists _; isplitr
  swap; · iexact Hout
  ipureintro
  exact (View.read_writes_eq_canon oM.view g1
    [⟨ro3, outPiece m ρ 3 c⟩, ⟨ro2, outPiece m ρ 2 c⟩, ⟨ro1, outPiece m ρ 1 c⟩, ⟨ro0, outPiece m ρ 0 c⟩] (out_cover _ _ _ _))

end Body

end Cert.KernelIdeal.RS

end
-- ==== Proof.KernelIdealLaunch.lean ====
import proofs.«900473_g7700000000000474_dist_rs_v7x_xyz2x2x4_x_m2048_n512_f32_1_alg».proof.Proof.Spec
import proofs.«900473_g7700000000000474_dist_rs_v7x_xyz2x2x4_x_m2048_n512_f32_1_alg».proof.Proof.Gen.KernelIdeal
import proofs.«900473_g7700000000000474_dist_rs_v7x_xyz2x2x4_x_m2048_n512_f32_1_alg».proof.Proof.Gen.KernelIdeal.Skeleton
import proofs.«900473_g7700000000000474_dist_rs_v7x_xyz2x2x4_x_m2048_n512_f32_1_alg».proof.Proof.Gen.KernelIdeal.Launch
import proofs.«900473_g7700000000000474_dist_rs_v7x_xyz2x2x4_x_m2048_n512_f32_1_alg».proof.Proof.Gen.KernelIdeal.Points
import proofs.«900473_g7700000000000474_dist_rs_v7x_xyz2x2x4_x_m2048_n512_f32_1_alg».proof.Proof.KernelIdealCells
import proofs.«900473_g7700000000000474_dist_rs_v7x_xyz2x2x4_x_m2048_n512_f32_1_alg».proof.Proof.KernelIdealSched
import proofs.«900473_g7700000000000474_dist_rs_v7x_xyz2x2x4_x_m2048_n512_f32_1_alg».proof.Proof.KernelIdealData
import proofs.«900473_g7700000000000474_dist_rs_v7x_xyz2x2x4_x_m2048_n512_f32_1_alg».proof.Proof.KernelIdealSlots
import proofs.«900473_g7700000000000474_dist_rs_v7x_xyz2x2x4_x_m2048_n512_f32_1_alg».proof.Proof.KernelIdealBody
import Idealize.ShloMosaic.Lib.Pipeline.Launch
import Idealize.ShloMosaic.Lib.Pipeline.Kit
import Idealize.ShloMosaic.Lib.Pipeline.FrameBody
import Idealize.ShloMosaic.Lib.Ring
import Idealize.ShloMosaic.Lib.Tactic

noncomputable section

/-!
  The launch: every device's body obligation, the protocol's ghost state allocated for all devices at once, the
  launch credit, and the run of the whole mesh.

  The tokens are dealt across partners: a device pays the partner's barrier duty and the partner's four receive
  duties, and its own four send duties. The credit a device finds on its barrier cell and on its receive cells is
  what its partner owes them.
-/

namespace Cert.KernelIdeal.RS

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
set_option maxHeartbeats 4000000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq']
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hcr, Hlev⟩, Hs, Hr⟩, Ho, Hx, Hout⟩
  iapply (sound_body m ρ K c fun _ => bodyPost m ρ c)
  unfold bodyPre
  isplitr []
  · isplitl [Hg Hcr Hlev Hs Hr]
    · isplitl [Hg]; · iexact Hg
      isplitl [Hcr]; · iexact Hcr
      isplitl [Hlev]; · iexact Hlev
      isplitl [Hs]; · iexact Hs
      iexact Hr
    isplitl [Ho]; · iexact Ho
    isplitl [Hx] <;> iassumption
  · iintro H; iexact H

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 9 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- Each cell's one duty token as minted. -/
abbrev tokOf (cj : Dev nD × Fin 9) : GSem nD τ sig × ℕ × Unit := (kcell cj, 0, ())
theorem tokOf_injective : Function.Injective (tokOf : Dev nD × Fin 9 → GSem nD τ sig × ℕ × Unit) :=
  fun a b h => kcell_injective (congrArg Prod.fst h)
def ringToks : Finset (GSem nD τ sig × ℕ × Unit) := Finset.univ.map ⟨tokOf, tokOf_injective⟩

def u₀ : UU :=
  (initOf (Pipeline.cells cfgs cellOf_inj) (Pipeline.launchToks cfgs cellOf_inj), initOf ringCells ringToks)

/-- The duty tokens of device `c`'s own nine cells. -/
def toks (c : Dev nD) : sProp 𝕄 :=
  iprop(dutyTok ER (kcell (c, 0)) 0 () ∗ dutyTok ER (kcell (c, 1)) 0 () ∗ dutyTok ER (kcell (c, 2)) 0 () ∗ dutyTok ER (kcell (c, 3)) 0 () ∗ dutyTok ER (kcell (c, 4)) 0 () ∗ dutyTok ER (kcell (c, 5)) 0 () ∗ dutyTok ER (kcell (c, 6)) 0 () ∗ dutyTok ER (kcell (c, 7)) 0 () ∗ dutyTok ER (kcell (c, 8)) 0 ())

/-- What the launch element deals device `c`. -/
def G (c : Dev nD) : sProp 𝕄 :=
  iprop((bigSep Finset.univ fun k : Fin 9 => roundState ER (ringRd m ρ) (kcell (c, k)) 0)
    ∗ (bigSep Finset.univ fun k : Fin 9 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 9 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin9]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The eight DMA semaphores are the kernel's own; -/
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0 ∗ semVal (kcell (c, 6)) 0 ∗ semVal (kcell (c, 7)) 0 ∗ semVal (kcell (c, 8)) 0) := by
  rw [Pipeline.ownSems0_eq_of_list c osem [0, 1, 2, 3, 4, 5, 6, 7] (by decide) (by decide)]; rfl
/-- the barrier semaphore the launch's one unscoped semaphore. -/
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, bigSep_fin9]
  iintro ⟨⟨H1, H2, H3, H4, H5, H6, H7, H8⟩, HB⟩
  isplitl [HB]; · iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k : Fin 9 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def linear (c : Dev nD) : sProp 𝕄 := iprop(posns c ∗ payToks c)

theorem ghost_intro (K : Dev nD × Fin 9 → ℕ) (c : Dev nD) : iprop(records m ρ K ∗ linear c) ⊢ G' m ρ c := by
  unfold linear G' ghost
  iintro ⟨#HR, Hl⟩
  iexists K
  isplitr; · iexact HR
  iexact Hl

/-- The tokens dealt across partners: a barrier's and a receive cell's token to the partner, a send cell's stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_sep', bigSep_sep', bigSep_sep', bigSep_sep', bigSep_sep', bigSep_sep', bigSep_sep', bigSep_sep',
    bigSep_univ_equiv swap (fun c : Dev nD => (dutyTok ER (kcell (c, 0)) 0 () : sProp 𝕄)),
    bigSep_univ_equiv swap (fun c : Dev nD => (dutyTok ER (kcell (c, 5)) 0 () : sProp 𝕄)),
    bigSep_univ_equiv swap (fun c : Dev nD => (dutyTok ER (kcell (c, 6)) 0 () : sProp 𝕄)),
    bigSep_univ_equiv swap (fun c : Dev nD => (dutyTok ER (kcell (c, 7)) 0 () : sProp 𝕄)),
    bigSep_univ_equiv swap (fun c : Dev nD => (dutyTok ER (kcell (c, 8)) 0 () : sProp 𝕄))]
  exact .rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m ρ) κ (kcell (c, k))))
          ∗ (bigSep Finset.univ fun k : Fin 9 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 9 => iprop(∃ κ : ℕ, cellInv ER (ringRd m ρ) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 9 => (atPos ER (kcell (c, k)) 0 ∅ 0 : sProp 𝕄)) payToks).symm).trans
      (bigSep_mono fun c _ => show _ ⊢ linear c from Entails.of_eq (by unfold linear posns; rw [bigSep_fin9])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem kcell_eq_iff {a b : Dev nD} {i j : Fin 9} : kcell (a, i) = kcell (b, j) ↔ a = b ∧ i = j :=
  ⟨fun h => by have := kcell_injective h; exact ⟨congrArg (fun x => x.1) this, congrArg (fun x => x.2) this⟩, fun ⟨h1, h2⟩ => by rw [h1, h2]⟩

theorem peer_eq_iff {c d : Dev nD} : c = peer d ↔ d = peer c :=
  ⟨fun h => by rw [h, peer_peer], fun h => by rw [h, peer_peer]⟩

/-- What device `d` owes cell `j` of device `c`: the barrier's unit or a receive cell's slot credit if `d` is `c`'s
    partner, nothing otherwise, and nothing on a send cell. -/
theorem owed_cell (d c : Dev nD) (j : Fin 9) :
    O₀ d (kcell (c, j)) () = if d = peer c then (if j = 0 then 1 else if 5 ≤ j.val then N else 0) else 0 := by
  unfold O₀ Os O₁ O₂ O₃
  show ((((0 + tallyAt (kcell (peer d, 8)) () N) + tallyAt (kcell (peer d, 7)) () N) + tallyAt (kcell (peer d, 6)) () N) + tallyAt (kcell (peer d, 5)) () N
    + tallyAt (kcell (peer d, 0)) () 1 : CellTallies nD τ sig Unit) (kcell (c, j)) () = _
  simp only [Pi.add_apply, Finsupp.add_apply, tallyAt_apply, Pi.zero_apply, Finsupp.coe_zero, kcell_eq_iff, and_true, Nat.zero_add]
  by_cases h : d = peer c
  · subst h
    simp only [peer_peer, true_and, if_true]
    fin_cases j <;> simp
  · have h' : ¬ c = peer d := fun e => h (peer_eq_iff.mp e)
    simp only [h', false_and, if_false, h]

theorem launch_cell (c : Dev nD) (j : Fin 9) :
    tallyOn (kcell (c, j)) (launchCredit (Pipeline.owing O₀) 0 (kcell (c, j)))
      = (tallyAt (kcell (c, j)) () (if j = 0 then 1 else if 5 ≤ j.val then N else 0) : CellTallies nD τ sig Unit) := by
  unfold tallyAt; refine congrArg _ (Finsupp.ext fun u => ?_); cases u
  rw [Pipeline.launchCredit_owing, Finsupp.single_eq_same, Finset.sum_congr rfl fun d _ => owed_cell d c j,
    Finset.sum_ite_eq' Finset.univ (peer c) fun _ => (if j = 0 then 1 else if 5 ≤ j.val then N else 0), if_pos (Finset.mem_univ _)]

theorem creds_intro (c : Dev nD) : (Pipeline.launchCred O₀ c : sProp 𝕄) ⊢ creds c := by
  have h11 (Φ : SemLoc sig → sProp 𝕄) : bigSep Finset.univ Φ
      = iprop(Φ (.reg barS) ∗ Φ (.dma 0) ∗ Φ (.dma 1) ∗ Φ (.dma 2) ∗ Φ (.dma 3) ∗ Φ (.dma 4) ∗ Φ (.dma 5) ∗ Φ (.dma 6) ∗ Φ (.dma 7) ∗ Φ (.dma 8) ∗ Φ (.dma 9)) :=
    bigSep_univ_eq_bigSepL [SemLoc.reg barS, .dma 0, .dma 1, .dma 2, .dma 3, .dma 4, .dma 5, .dma 6, .dma 7, .dma 8, .dma 9] (by decide) (by decide) Φ
  unfold Pipeline.launchCred creds
  rw [h11]
  iintro ⟨Hb, -, -, -, -, -, -, H5, H6, H7, H8⟩
  isplitl [Hb]; · iapply (Entails.of_eq (congrArg cred (launch_cell c 0))); iexact Hb
  isplitl [H5]; · iapply (Entails.of_eq (congrArg cred (launch_cell c 5))); iexact H5
  isplitl [H6]; · iapply (Entails.of_eq (congrArg cred (launch_cell c 6))); iexact H6
  isplitl [H7]; · iapply (Entails.of_eq (congrArg cred (launch_cell c 7))); iexact H7
  iapply (Entails.of_eq (congrArg cred (launch_cell c 8))); iexact H8

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hs0, Hs1⟩
  isplitl [Hs]; · iexact Hs
  isplitl [Hs0]; · iexact Hs0
  iexact Hs1

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨Hscr, Hz⟩
  isplitr; · iempintro
  isplitl [Hz]; · iexact Hz
  iexact Hscr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> (unfold IsRecv; decide)) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: every weakly fair
    execution of @main — the sixteen kernels meeting in pairs on the barrier semaphore, then exchanging four chunks —
    terminates, and every final state has each device's argument and result arrays at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.RS.run_main' depends on axioms: [propext, Classical.choice, Quot.sound] -/
#guard_msgs in #print axioms run_main

/-! ### The final arrays -/

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The staged slab is the argument array. -/
theorem xstg_eq (c : Dev nD) : xstg m ρ c = m ((c : Thread nD τ).loc main_arg0) := by
  unfold xstg
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

set_option maxHeartbeats 2000000 in
/-- The result array after the run is what the body left in the result's staging buffer. -/
theorem finalA_out (c : Dev nD) : finalA m ρ c (1 : Fin 2) = outAt m ρ c := by
  have hb : ((cfg0.win (1 : Fin 2)).blk t₀).view.read (Elt F) ((dats (F := F) m ρ 0 c).arrAt (1 : Fin 2) cfg0.N)
      = (dats (F := F) m ρ 0 c).flushed (1 : Fin 2) t₀ := by
    rw [show cfg0.N = (t₀ : Fin cfg0.N).val + 1 from rfl, (dats (F := F) m ρ 0 c).arrAt_succ (1 : Fin 2) t₀]
    rw [show (cfg0.win (1 : Fin 2)).flush t₀ = true from by decide, if_pos rfl]
    exact View.read_write_univ _ _
  have hz : (fun a => (win0_1.index t₀) a * main_v1.ty.shape.size a) = fun _ => 0 := funext fun a => by fin_cases a <;> decide
  have hr := fun f => Memref.read_access_unit_zero (Elt F) main_v1 hz (fun a => by fin_cases a <;> decide) f
  rw [hr] at hb
  unfold finalA
  rw [hb]
  show (cfg0.win (1 : Fin 2)).cut _ ((dats (F := F) m ρ 0 c).after (1 : Fin 2) t₀) = _
  rw [show (dats (F := F) m ρ 0 c).after (1 : Fin 2) t₀ = outAt m ρ c from by dsimp only [dats]]
  rfl

end Cert.KernelIdeal.RS

end
-- ==== Proof.Bridge.lean ====
/-
  The value bridge: the two-slab exchange computes the column halves of the sum over the leading axis.

  The whole array `x'` has shape 2 × 2048 × 1024. On the 2 × 2 × 4 mesh, device `c` has first coordinate `c / 8`
  and holds slab `x'[c / 8, :, :]`; its partner `(c + 8) % 16` has the other first coordinate, so it holds the other
  slab. At entry `(r, l)` the exchange gives
      x'[c / 8, r, 512·(c/8) + l] + x'[1 - c / 8, r, 512·(c/8) + l],
  while the sum over the leading axis, started from zero and cut into two column halves of width 512 (device `c`
  keeping half `c / 8`), gives
      0 + (x'[0, r, 512·(c/8) + l] + x'[1, r, 512·(c/8) + l]).
  The two agree by `0 + a = a` and, when `c / 8 = 1`, by commutativity of addition of extended reals; neither needs
  the summands to be finite.
-/
import proofs.«900473_g7700000000000474_dist_rs_v7x_xyz2x2x4_x_m2048_n512_f32_1_alg».proof.Proof.Spec
import proofs.«900473_g7700000000000474_dist_rs_v7x_xyz2x2x4_x_m2048_n512_f32_1_alg».proof.Proof.Gen.ReferenceIdeal.Read

noncomputable section

namespace Cert.RS.Bridge

open Idealize.ShloMosaic Idealize.ShloMosaic.Layout

open Cert.RS Cert.ReferenceIdeal.Read

/-- Along the first mesh axis (size 2, the two others of sizes 2 and 4 after it) device `c` sits at `c / 8`. -/
theorem lin_first (c : Fin 16) : meshLin [2, 2, 4] c.val [0] = c.val / 8 := by revert c; decide

/-- The partner of `c` sits at the other first coordinate. -/
theorem peer_first (c : Fin 16) : (peer c).val / 8 = 1 - c.val / 8 := by revert c; decide

/-- Reading the slab of a device `d` whose first coordinate is `k`, at the place entry `i = (r, l)` of device `c`'s
    result comes from, is reading `x'[k, r, 512·(c/8) + l]`: the entry `i` of column half `c / 8` of `x'[k, :, :]`.
    Coordinate by coordinate: `(d / 8)·1 + 0 = k`; `0·2048 + r = 0·2048 + r`; `0·1024 + (512·(c/8) + l) = (c/8)·512 + l`. -/
theorem slab_read (x' : (⟨3, ![2, 2048, 1024]⟩ : Shape).Idx → EReal) (c d : Fin 16) (k : Fin 2)
    (hk : d.val / 8 = k.val) (i : Half.Idx) :
    (blockN ⟨3, ![1, 2048, 1024]⟩ ⟨3, ![2, 2048, 1024]⟩ (meshBlock [2, 2, 4] ![[0], [], []] d) x') (srcIdx c i)
      = (blockN ⟨2, ![2048, 512]⟩ ⟨2, ![2048, 1024]⟩ (meshBlock [2, 2, 4] ![[], [0]] c)
          (fun j => x' (idx_main_v0 j k))) i := by
  rw [blockN_apply, blockN_apply]
  refine congrArg x' (funext fun a => Fin.ext ?_)
  have hd := lin_first d
  have hc := lin_first c
  match a with
  | ⟨0, _⟩ =>
    show meshLin [2, 2, 4] d.val [0] * 1 + 0 = k.val
    omega
  | ⟨1, _⟩ =>
    show 0 * 2048 + (i 0).val = 0 * 2048 + (i 0).val
    rfl
  | ⟨2, _⟩ =>
    show 0 * 1024 + (512 * (c.val / 8) + (i 1).val) = meshLin [2, 2, 4] c.val [0] * 512 + (i 1).val
    omega

/-- What device `c` ends with, from its own slab and its partner's, is its column half of the sum of the two slabs. -/
theorem bridge (x' : (⟨3, ![2, 2048, 1024]⟩ : Shape).Idx → EReal) (c : Fin 16) :
    Cert.RS.outSpec c
      (blockN ⟨3, ![1, 2048, 1024]⟩ ⟨3, ![2, 2048, 1024]⟩ (meshBlock [2, 2, 4] ![[0], [], []] c) x')
      (blockN ⟨3, ![1, 2048, 1024]⟩ ⟨3, ![2, 2048, 1024]⟩ (meshBlock [2, 2, 4] ![[0], [], []] (Cert.RS.peer c)) x')
    = blockN ⟨2, ![2048, 512]⟩ ⟨2, ![2048, 1024]⟩ (meshBlock [2, 2, 4] ![[], [0]] c)
        (Cert.ReferenceIdeal.Read.val_main_v0 (F := Ideal) x') := by
  funext i
  -- the initial value of the sum, the word of all zero bits read as a 32-bit float, is the extended real 0
  have hz : (FloatOps.ofBits (F := Ideal) FTy.f32 0x00000000#32 : EReal) = 0 := Ideal.ofBits_zero_f32
  have hp := peer_first c
  have hlt := c.isLt
  -- the right side at `i`: 0 + (x'[0, ·] + x'[1, ·]), read in column half c / 8
  rw [blockN_apply, val_main_v0_apply, val_main_cst_apply, Fin.sum_univ_two, hz, zero_add]
  show (blockN ⟨3, ![1, 2048, 1024]⟩ ⟨3, ![2, 2048, 1024]⟩ (meshBlock [2, 2, 4] ![[0], [], []] c) x') (srcIdx c i)
      + (blockN ⟨3, ![1, 2048, 1024]⟩ ⟨3, ![2, 2048, 1024]⟩ (meshBlock [2, 2, 4] ![[0], [], []] (peer c)) x') (srcIdx c i)
      = (blockN ⟨2, ![2048, 512]⟩ ⟨2, ![2048, 1024]⟩ (meshBlock [2, 2, 4] ![[], [0]] c) (fun j => x' (idx_main_v0 j 0))) i
      + (blockN ⟨2, ![2048, 512]⟩ ⟨2, ![2048, 1024]⟩ (meshBlock [2, 2, 4] ![[], [0]] c) (fun j => x' (idx_main_v0 j 1))) i
  rcases (by omega : c.val / 8 = 0 ∨ c.val / 8 = 1) with h | h
  · -- c / 8 = 0: own slab is x'[0], the partner's is x'[1]; the two sums are the same
    rw [slab_read x' c c 0 (by simpa using h) i, slab_read x' c (peer c) 1 (by rw [hp, h]; rfl) i]
  · -- c / 8 = 1: own slab is x'[1], the partner's is x'[0]; swap the summands
    rw [slab_read x' c c 1 (by simpa using h) i, slab_read x' c (peer c) 0 (by rw [hp, h]; rfl) i]
    exact add_comm (G := EReal) _ _

/-- info: 'Cert.RS.Bridge.bridge' depends on axioms: [propext, Classical.choice, Quot.sound] -/
#guard_msgs in #print axioms Cert.RS.Bridge.bridge

end Cert.RS.Bridge

end
-- ==== Proof.OutSpec.lean ====
/-
  What the four stored pieces make of the result, at the ideal values.

  Device `c` holds the slab `x_c` (1 × 2048 × 1024) and its partner the slab `x_p`. For each chunk `k` of 512 rows the
  device reads its own block `x_c[0, 512k + a, 512·(c/8) + b]`, and the partner sends the block
  `x_p[0, 512k + a, 512 - 512·(p/8) + b]` narrowed to 16 bits; the received block is widened again and the two are added.
  At the ideal values narrowing and widening change nothing, and `p / 8 = 1 - c / 8`, so the partner's columns
  `512 - 512·(p/8) + b` are the columns `512·(c/8) + b`. The four sums are stored at rows `512k … 512k + 511` of the
  2048 × 512 result, so entry `(r, l)` of the result is
      x_c[0, r, 512·(c/8) + l] + x_p[0, r, 512·(c/8) + l].
-/
import proofs.«900473_g7700000000000474_dist_rs_v7x_xyz2x2x4_x_m2048_n512_f32_1_alg».proof.Proof.KernelIdealSched
import Idealize.ShloMosaic.Lib.Pipeline.Value
import Idealize.ShloMosaic.Lib.ValueIdx
import Idealize.ShloMosaic.Lib.ValueLayout

noncomputable section

namespace Cert.RS.OutSpec

open Cert.KernelIdeal Cert.KernelIdeal.Gen Cert.KernelIdeal.RS Idealize.ShloMosaic Idealize.ShloMosaic.ValueIdx

variable (m : (ℓ : Loc nD τ sig) → Buf (Elt Ideal) ℓ) (ρ : Dev nD → PrngReg)

/-- A 1 × 512 × 512 block read from the slab `X` at unit stride from offsets `off`: its entry `y` is `X` at `off + y`,
    coordinate by coordinate. -/
theorem ld_unit_apply (X : S1x2048x1024.Idx → EReal) (off : Fin 3 → Nat) (inb : ∀ a, off a + S1x512x512.size a ≤ S1x2048x1024.size a)
    (y : S1x512x512.Idx) (j : S1x2048x1024.Idx)
    (h0 : (j 0).val = off 0 + (y 0).val) (h1 : (j 1).val = off 1 + (y 1).val) (h2 : (j 2).val = off 2 + (y 2).val) :
    xM.view.readAt (Elt Ideal) (Rect.unit (s := S1x2048x1024) off S1x512x512.size inb).toLoadRect X y = X j := by
  rw [View.readAt_apply]
  show X _ = X j
  refine congrArg X (funext fun a => Fin.ext ?_)
  match a with
  | ⟨0, _⟩ => show off 0 + 1 * (y 0).val = (j 0).val; omega
  | ⟨1, _⟩ => show off 1 + 1 * (y 1).val = (j 1).val; omega
  | ⟨2, _⟩ => show off 2 + 1 * (y 2).val = (j 2).val; omega

/-- What is sent for chunk 0, 1, 2, 3: the block with its unit axis dropped, narrowed, and the unit axis put back. At the
    ideal values narrowing is the identity, so entry `(u, a, b)` is the block's entry `(0, a, b)`. -/
theorem send1_apply (v : Vec Ideal S1x512x512 .f32) (u : Fin 1) (a b : Fin 512) :
    k0_pay1 (F := Ideal) v (ix3 u a b) = v (ix3 (0 : Fin 1) a b) := by
  unfold k0_pay1
  rw [shapeCast_ab_1ab_apply, truncf_apply, shapeCast_1ab_ab_apply]
theorem send2_apply (v : Vec Ideal S1x512x512 .f32) (u : Fin 1) (a b : Fin 512) :
    k0_pay2 (F := Ideal) v (ix3 u a b) = v (ix3 (0 : Fin 1) a b) := by
  unfold k0_pay2
  rw [shapeCast_ab_1ab_apply, truncf_apply, shapeCast_1ab_ab_apply]
theorem send3_apply (v : Vec Ideal S1x512x512 .f32) (u : Fin 1) (a b : Fin 512) :
    k0_pay3 (F := Ideal) v (ix3 u a b) = v (ix3 (0 : Fin 1) a b) := by
  unfold k0_pay3
  rw [shapeCast_ab_1ab_apply, truncf_apply, shapeCast_1ab_ab_apply]
theorem send4_apply (v : Vec Ideal S1x512x512 .f32) (u : Fin 1) (a b : Fin 512) :
    k0_pay4 (F := Ideal) v (ix3 u a b) = v (ix3 (0 : Fin 1) a b) := by
  unfold k0_pay4
  rw [shapeCast_ab_1ab_apply, truncf_apply, shapeCast_1ab_ab_apply]

/-- Piece `k` of the result at `(a, b)`: the device's own block `5 + k` at `(0, a, b)` plus the partner's block `1 + k` at
    `(0, a, b)` (dropping a unit axis reads `(0, a, b)` at `(a, b)`; widening is the identity at the ideal values; the
    sum is the sum of extended reals). -/
theorem piece0_apply (c : Dev nD) (a b : Fin 512) :
    outPiece (F := Ideal) m ρ 0 c (ix2 a b)
      = ldx5 (F := Ideal) m ρ c (ix3 (0 : Fin 1) a b) + ldx1 (F := Ideal) m ρ (peer c) (ix3 (0 : Fin 1) a b) := by
  show k0_pay7 (F := Ideal) (k0_pay5 (ldx5 m ρ c)) (k0_pay6 (k0_pay1 (ldx1 m ρ (peer c)))) (ix2 a b) = _
  unfold k0_pay7 k0_pay5 k0_pay6
  rw [addf_apply, shapeCast_1ab_ab_apply, extf_apply, shapeCast_1ab_ab_apply, send1_apply]
theorem piece1_apply (c : Dev nD) (a b : Fin 512) :
    outPiece (F := Ideal) m ρ 1 c (ix2 a b)
      = ldx6 (F := Ideal) m ρ c (ix3 (0 : Fin 1) a b) + ldx2 (F := Ideal) m ρ (peer c) (ix3 (0 : Fin 1) a b) := by
  show k0_pay8 (F := Ideal) (ldx6 m ρ c) (k0_pay2 (ldx2 m ρ (peer c))) (ix2 a b) = _
  unfold k0_pay8
  rw [addf_apply, shapeCast_1ab_ab_apply, extf_apply, shapeCast_1ab_ab_apply, send2_apply]
theorem piece2_apply (c : Dev nD) (a b : Fin 512) :
    outPiece (F := Ideal) m ρ 2 c (ix2 a b)
      = ldx7 (F := Ideal) m ρ c (ix3 (0 : Fin 1) a b) + ldx3 (F := Ideal) m ρ (peer c) (ix3 (0 : Fin 1) a b) := by
  show k0_pay9 (F := Ideal) (ldx7 m ρ c) (k0_pay3 (ldx3 m ρ (peer c))) (ix2 a b) = _
  unfold k0_pay9
  rw [addf_apply, shapeCast_1ab_ab_apply, extf_apply, shapeCast_1ab_ab_apply, send3_apply]
theorem piece3_apply (c : Dev nD) (a b : Fin 512) :
    outPiece (F := Ideal) m ρ 3 c (ix2 a b)
      = ldx8 (F := Ideal) m ρ c (ix3 (0 : Fin 1) a b) + ldx4 (F := Ideal) m ρ (peer c) (ix3 (0 : Fin 1) a b) := by
  show k0_pay10 (F := Ideal) (ldx8 m ρ c) (k0_pay4 (ldx4 m ρ (peer c))) (ix2 a b) = _
  unfold k0_pay10
  rw [addf_apply, shapeCast_1ab_ab_apply, extf_apply, shapeCast_1ab_ab_apply, send4_apply]

/-- The eight loaded blocks as entries of the slab. Blocks 1–4 (`J = 1 … 4`) start at row `512·(J-1)` and column
    `512 - 512·(c/8)`; blocks 5–8 start at row `512·(J-5)` and column `512·(c/8)`. Entry `y` of a block is the slab's entry `j`
    whenever `j = (0, row offset + y₁, column offset + y₂)`. -/
theorem ldx1_apply (c : Dev nD) (y : S1x512x512.Idx) (j : S1x2048x1024.Idx)
    (h0 : (j 0).val = 0) (h1 : (j 1).val = 0 + (y 1).val)
    (h2 : (j 2).val = 512 - 512 * (c.val / 8) + (y 2).val) :
    ldx1 (F := Ideal) m ρ c y = xstg (F := Ideal) m ρ c j := by
  have hy : (y 0).val = 0 := by have := (y 0).isLt; change (y 0).val < 1 at this; omega
  have e := k0_off1_eq c
  exact ld_unit_apply (xstg (F := Ideal) m ρ c) (k0_off1 c) (k0_off1_inb c) y j
    (by rw [e]; show (j 0).val = 0 + (y 0).val; omega)
    (by rw [e]; show (j 1).val = 0 + (y 1).val; omega)
    (by rw [e]; show (j 2).val = 512 - 512 * (c.val / 8) + (y 2).val; omega)
theorem ldx2_apply (c : Dev nD) (y : S1x512x512.Idx) (j : S1x2048x1024.Idx)
    (h0 : (j 0).val = 0) (h1 : (j 1).val = 512 + (y 1).val)
    (h2 : (j 2).val = 512 - 512 * (c.val / 8) + (y 2).val) :
    ldx2 (F := Ideal) m ρ c y = xstg (F := Ideal) m ρ c j := by
  have hy : (y 0).val = 0 := by have := (y 0).isLt; change (y 0).val < 1 at this; omega
  have e := k0_off2_eq c
  exact ld_unit_apply (xstg (F := Ideal) m ρ c) (k0_off2 c) (k0_off2_inb c) y j
    (by rw [e]; show (j 0).val = 0 + (y 0).val; omega)
    (by rw [e]; show (j 1).val = 512 + (y 1).val; omega)
    (by rw [e]; show (j 2).val = 512 - 512 * (c.val / 8) + (y 2).val; omega)
theorem ldx3_apply (c : Dev nD) (y : S1x512x512.Idx) (j : S1x2048x1024.Idx)
    (h0 : (j 0).val = 0) (h1 : (j 1).val = 1024 + (y 1).val)
    (h2 : (j 2).val = 512 - 512 * (c.val / 8) + (y 2).val) :
    ldx3 (F := Ideal) m ρ c y = xstg (F := Ideal) m ρ c j := by
  have hy : (y 0).val = 0 := by have := (y 0).isLt; change (y 0).val < 1 at this; omega
  have e := k0_off3_eq c
  exact ld_unit_apply (xstg (F := Ideal) m ρ c) (k0_off3 c) (k0_off3_inb c) y j
    (by rw [e]; show (j 0).val = 0 + (y 0).val; omega)
    (by rw [e]; show (j 1).val = 1024 + (y 1).val; omega)
    (by rw [e]; show (j 2).val = 512 - 512 * (c.val / 8) + (y 2).val; omega)
theorem ldx4_apply (c : Dev nD) (y : S1x512x512.Idx) (j : S1x2048x1024.Idx)
    (h0 : (j 0).val = 0) (h1 : (j 1).val = 1536 + (y 1).val)
    (h2 : (j 2).val = 512 - 512 * (c.val / 8) + (y 2).val) :
    ldx4 (F := Ideal) m ρ c y = xstg (F := Ideal) m ρ c j := by
  have hy : (y 0).val = 0 := by have := (y 0).isLt; change (y 0).val < 1 at this; omega
  have e := k0_off4_eq c
  exact ld_unit_apply (xstg (F := Ideal) m ρ c) (k0_off4 c) (k0_off4_inb c) y j
    (by rw [e]; show (j 0).val = 0 + (y 0).val; omega)
    (by rw [e]; show (j 1).val = 1536 + (y 1).val; omega)
    (by rw [e]; show (j 2).val = 512 - 512 * (c.val / 8) + (y 2).val; omega)
theorem ldx5_apply (c : Dev nD) (y : S1x512x512.Idx) (j : S1x2048x1024.Idx)
    (h0 : (j 0).val = 0) (h1 : (j 1).val = 0 + (y 1).val)
    (h2 : (j 2).val = 512 * (c.val / 8) + (y 2).val) :
    ldx5 (F := Ideal) m ρ c y = xstg (F := Ideal) m ρ c j := by
  have hy : (y 0).val = 0 := by have := (y 0).isLt; change (y 0).val < 1 at this; omega
  have e := k0_off5_eq c
  exact ld_unit_apply (xstg (F := Ideal) m ρ c) (k0_off5 c) (k0_off5_inb c) y j
    (by rw [e]; show (j 0).val = 0 + (y 0).val; omega)
    (by rw [e]; show (j 1).val = 0 + (y 1).val; omega)
    (by rw [e]; show (j 2).val = 512 * (c.val / 8) + (y 2).val; omega)
theorem ldx6_apply (c : Dev nD) (y : S1x512x512.Idx) (j : S1x2048x1024.Idx)
    (h0 : (j 0).val = 0) (h1 : (j 1).val = 512 + (y 1).val)
    (h2 : (j 2).val = 512 * (c.val / 8) + (y 2).val) :
    ldx6 (F := Ideal) m ρ c y = xstg (F := Ideal) m ρ c j := by
  have hy : (y 0).val = 0 := by have := (y 0).isLt; change (y 0).val < 1 at this; omega
  have e := k0_off6_eq c
  exact ld_unit_apply (xstg (F := Ideal) m ρ c) (k0_off6 c) (k0_off6_inb c) y j
    (by rw [e]; show (j 0).val = 0 + (y 0).val; omega)
    (by rw [e]; show (j 1).val = 512 + (y 1).val; omega)
    (by rw [e]; show (j 2).val = 512 * (c.val / 8) + (y 2).val; omega)
theorem ldx7_apply (c : Dev nD) (y : S1x512x512.Idx) (j : S1x2048x1024.Idx)
    (h0 : (j 0).val = 0) (h1 : (j 1).val = 1024 + (y 1).val)
    (h2 : (j 2).val = 512 * (c.val / 8) + (y 2).val) :
    ldx7 (F := Ideal) m ρ c y = xstg (F := Ideal) m ρ c j := by
  have hy : (y 0).val = 0 := by have := (y 0).isLt; change (y 0).val < 1 at this; omega
  have e := k0_off7_eq c
  exact ld_unit_apply (xstg (F := Ideal) m ρ c) (k0_off7 c) (k0_off7_inb c) y j
    (by rw [e]; show (j 0).val = 0 + (y 0).val; omega)
    (by rw [e]; show (j 1).val = 1024 + (y 1).val; omega)
    (by rw [e]; show (j 2).val = 512 * (c.val / 8) + (y 2).val; omega)
theorem ldx8_apply (c : Dev nD) (y : S1x512x512.Idx) (j : S1x2048x1024.Idx)
    (h0 : (j 0).val = 0) (h1 : (j 1).val = 1536 + (y 1).val)
    (h2 : (j 2).val = 512 * (c.val / 8) + (y 2).val) :
    ldx8 (F := Ideal) m ρ c y = xstg (F := Ideal) m ρ c j := by
  have hy : (y 0).val = 0 := by have := (y 0).isLt; change (y 0).val < 1 at this; omega
  have e := k0_off8_eq c
  exact ld_unit_apply (xstg (F := Ideal) m ρ c) (k0_off8 c) (k0_off8_inb c) y j
    (by rw [e]; show (j 0).val = 0 + (y 0).val; omega)
    (by rw [e]; show (j 1).val = 1536 + (y 1).val; omega)
    (by rw [e]; show (j 2).val = 512 * (c.val / 8) + (y 2).val; omega)

/-- The partner's first mesh coordinate is the other one. -/
theorem peer_first (c : Dev nD) : (peer c).val / 8 = 1 - c.val / 8 := by revert c; decide

/-- A piece of the 2048 × 512 result: a rectangle and the values stored there. -/
abbrev Pc : Type := View.Piece (Elt Ideal) S2048x512 .f32

/-- Off the last stored rectangle, the contents are those of the earlier pieces. -/
theorem canon_skip (r : Rect S2048x512) (p : r.shape.Idx → Elt Ideal .f32) (L : List Pc) (i : S2048x512.Idx)
    (h : i ∉ r.set) : View.canon ((⟨r, p⟩ : Pc) :: L) i = View.canon L i :=
  View.canon_cons_of_not_mem (⟨r, p⟩ : Pc) L h

/-- On the last stored rectangle, at the image of `x`, the contents are the stored values at `x`. -/
theorem canon_hit (r : Rect S2048x512) (p : r.shape.Idx → Elt Ideal .f32) (L : List Pc) (i : S2048x512.Idx)
    (x : r.shape.Idx) (h : i = r.emb x) : View.canon ((⟨r, p⟩ : Pc) :: L) i = p x := by
  subst h; exact View.canon_cons_emb r p L x

/-- A row outside `off₀ … off₀ + 511` is outside the 512 × 512 rectangle at offsets `off`. -/
theorem not_mem_ro (off : Fin 2 → Nat) (inb : ∀ a, off a + S512x512.size a ≤ S2048x512.size a) (i : S2048x512.Idx)
    (h : (i 0).val < off 0 ∨ off 0 + 512 ≤ (i 0).val) : i ∉ (Rect.unit (s := S2048x512) off S512x512.size inb).set := fun hm => by
  have h' : off 0 ≤ (i 0).val ∧ (i 0).val < off 0 + 512 := (Rect.mem_set_unit.mp hm) 0
  omega

/-- The index `(off₀ + a, off₁ + b)` is the image of `(a, b)` in the 512 × 512 rectangle at offsets `off`. -/
theorem emb_ro (off : Fin 2 → Nat) (inb : ∀ a, off a + S512x512.size a ≤ S2048x512.size a) (i : S2048x512.Idx)
    (a b : Fin 512) (h0 : (i 0).val = off 0 + a.val) (h1 : (i 1).val = off 1 + b.val) :
    i = (Rect.unit (s := S2048x512) off S512x512.size inb).emb (ix2 a b) :=
  funext fun d => Fin.ext (by
    match d with
    | ⟨0, _⟩ => show (i 0).val = off 0 + 1 * a.val; omega
    | ⟨1, _⟩ => show (i 1).val = off 1 + 1 * b.val; omega)

section Canon
variable (p0 p1 p2 p3 : Vec Ideal S512x512 .f32) (i : S2048x512.Idx) (a b : Fin 512)

/-- The four pieces sit one under the other (rows from 0, 512, 1024, 1536, all 512 columns): at row `512k + a`, column `b`,
    the contents are piece `k` at `(a, b)`. The rectangles stored later are skipped because the row is above them. -/
theorem canon_at0 (h0 : (i 0).val = a.val) (h1 : (i 1).val = b.val) :
    View.canon (Val := Elt Ideal) [⟨ro3, p3⟩, ⟨ro2, p2⟩, ⟨ro1, p1⟩, ⟨ro0, p0⟩] i = p0 (ix2 a b) := by
  have ha := a.isLt
  refine (canon_skip ro3 p3 _ i (not_mem_ro ![1536, 0] _ i (Or.inl ?_))).trans
    ((canon_skip ro2 p2 _ i (not_mem_ro ![1024, 0] _ i (Or.inl ?_))).trans
    ((canon_skip ro1 p1 _ i (not_mem_ro ![512, 0] _ i (Or.inl ?_))).trans
    (canon_hit ro0 p0 [] i (ix2 a b) (emb_ro ![0, 0] _ i a b ?_ ?_))))
  · show (i 0).val < 1536; omega
  · show (i 0).val < 1024; omega
  · show (i 0).val < 512; omega
  · show (i 0).val = 0 + a.val; omega
  · show (i 1).val = 0 + b.val; omega

theorem canon_at1 (h0 : (i 0).val = 512 + a.val) (h1 : (i 1).val = b.val) :
    View.canon (Val := Elt Ideal) [⟨ro3, p3⟩, ⟨ro2, p2⟩, ⟨ro1, p1⟩, ⟨ro0, p0⟩] i = p1 (ix2 a b) := by
  have ha := a.isLt
  refine (canon_skip ro3 p3 _ i (not_mem_ro ![1536, 0] _ i (Or.inl ?_))).trans
    ((canon_skip ro2 p2 _ i (not_mem_ro ![1024, 0] _ i (Or.inl ?_))).trans
    (canon_hit ro1 p1 _ i (ix2 a b) (emb_ro ![512, 0] _ i a b ?_ ?_)))
  · show (i 0).val < 1536; omega
  · show (i 0).val < 1024; omega
  · show (i 0).val = 512 + a.val; omega
  · show (i 1).val = 0 + b.val; omega

theorem canon_at2 (h0 : (i 0).val = 1024 + a.val) (h1 : (i 1).val = b.val) :
    View.canon (Val := Elt Ideal) [⟨ro3, p3⟩, ⟨ro2, p2⟩, ⟨ro1, p1⟩, ⟨ro0, p0⟩] i = p2 (ix2 a b) := by
  have ha := a.isLt
  refine (canon_skip ro3 p3 _ i (not_mem_ro ![1536, 0] _ i (Or.inl ?_))).trans
    (canon_hit ro2 p2 _ i (ix2 a b) (emb_ro ![1024, 0] _ i a b ?_ ?_))
  · show (i 0).val < 1536; omega
  · show (i 0).val = 1024 + a.val; omega
  · show (i 1).val = 0 + b.val; omega

theorem canon_at3 (h0 : (i 0).val = 1536 + a.val) (h1 : (i 1).val = b.val) :
    View.canon (Val := Elt Ideal) [⟨ro3, p3⟩, ⟨ro2, p2⟩, ⟨ro1, p1⟩, ⟨ro0, p0⟩] i = p3 (ix2 a b) := by
  refine canon_hit ro3 p3 _ i (ix2 a b) (emb_ro ![1536, 0] _ i a b ?_ ?_)
  · show (i 0).val = 1536 + a.val; omega
  · show (i 1).val = 0 + b.val; omega

end Canon

/-- The result's buffer after the four stores is the exchange's specification: entry `(r, l)` is
    `x_c[0, r, 512·(c/8) + l] + x_p[0, r, 512·(c/8) + l]`. By cases on the chunk `k = r / 512`: the entry is piece `k` at
    `(r - 512k, l)`; the own block there is `x_c[0, 512k + (r - 512k), 512·(c/8) + l]`, and the partner's is
    `x_p[0, 512k + (r - 512k), 512 - 512·(p/8) + l]` with `512 - 512·(p/8) = 512·(c/8)` because `p / 8 = 1 - c / 8 ≤ 1`. -/
theorem outAt_spec (m : (ℓ : Loc nD τ sig) → Buf (Elt Ideal) ℓ) (ρ : Dev nD → PrngReg) (c : Dev nD) :
    Cert.KernelIdeal.RS.outAt (F := Ideal) m ρ c
      = Cert.RS.outSpec c (Cert.KernelIdeal.RS.xstg (F := Ideal) m ρ c)
          (Cert.KernelIdeal.RS.xstg (F := Ideal) m ρ (Cert.KernelIdeal.RS.peer c)) := by
  funext i
  have hp := peer_first c
  have hc : c.val < 16 := c.isLt
  have hi0 : (i 0).val < 2048 := (i 0).isLt
  have hi1 : (i 1).val < 512 := (i 1).isLt
  unfold outAt
  rcases (by omega : (i 0).val < 512 ∨ (512 ≤ (i 0).val ∧ (i 0).val < 1024) ∨ (1024 ≤ (i 0).val ∧ (i 0).val < 1536)
      ∨ 1536 ≤ (i 0).val) with h | h | h | h
  · -- rows 0 … 511: piece 0, read at row r - 0
    rw [canon_at0 _ _ _ _ i ⟨(i 0).val, by omega⟩ ⟨(i 1).val, hi1⟩ (by show (i 0).val = (i 0).val; omega) rfl,
      piece0_apply,
      ldx5_apply m ρ c _ (Cert.RS.srcIdx c i) rfl
        (by show (i 0).val = 0 + (i 0).val; omega)
        (by show 512 * (c.val / 8) + (i 1).val = 512 * (c.val / 8) + (i 1).val; rfl),
      ldx1_apply m ρ (peer c) _ (Cert.RS.srcIdx c i) rfl
        (by show (i 0).val = 0 + (i 0).val; omega)
        (by show 512 * (c.val / 8) + (i 1).val = 512 - 512 * ((peer c).val / 8) + (i 1).val; omega)]
    rfl
  · -- rows 512 … 1023: piece 1, read at row r - 512
    rw [canon_at1 _ _ _ _ i ⟨(i 0).val - 512, by omega⟩ ⟨(i 1).val, hi1⟩ (by show (i 0).val = 512 + ((i 0).val - 512); omega) rfl,
      piece1_apply,
      ldx6_apply m ρ c _ (Cert.RS.srcIdx c i) rfl
        (by show (i 0).val = 512 + ((i 0).val - 512); omega)
        (by show 512 * (c.val / 8) + (i 1).val = 512 * (c.val / 8) + (i 1).val; rfl),
      ldx2_apply m ρ (peer c) _ (Cert.RS.srcIdx c i) rfl
        (by show (i 0).val = 512 + ((i 0).val - 512); omega)
        (by show 512 * (c.val / 8) + (i 1).val = 512 - 512 * ((peer c).val / 8) + (i 1).val; omega)]
    rfl
  · -- rows 1024 … 1535: piece 2, read at row r - 1024
    rw [canon_at2 _ _ _ _ i ⟨(i 0).val - 1024, by omega⟩ ⟨(i 1).val, hi1⟩ (by show (i 0).val = 1024 + ((i 0).val - 1024); omega) rfl,
      piece2_apply,
      ldx7_apply m ρ c _ (Cert.RS.srcIdx c i) rfl
        (by show (i 0).val = 1024 + ((i 0).val - 1024); omega)
        (by show 512 * (c.val / 8) + (i 1).val = 512 * (c.val / 8) + (i 1).val; rfl),
      ldx3_apply m ρ (peer c) _ (Cert.RS.srcIdx c i) rfl
        (by show (i 0).val = 1024 + ((i 0).val - 1024); omega)
        (by show 512 * (c.val / 8) + (i 1).val = 512 - 512 * ((peer c).val / 8) + (i 1).val; omega)]
    rfl
  · -- rows 1536 … 2047: piece 3, read at row r - 1536
    rw [canon_at3 _ _ _ _ i ⟨(i 0).val - 1536, by omega⟩ ⟨(i 1).val, hi1⟩ (by show (i 0).val = 1536 + ((i 0).val - 1536); omega) rfl,
      piece3_apply,
      ldx8_apply m ρ c _ (Cert.RS.srcIdx c i) rfl
        (by show (i 0).val = 1536 + ((i 0).val - 1536); omega)
        (by show 512 * (c.val / 8) + (i 1).val = 512 * (c.val / 8) + (i 1).val; rfl),
      ldx4_apply m ρ (peer c) _ (Cert.RS.srcIdx c i) rfl
        (by show (i 0).val = 1536 + ((i 0).val - 1536); omega)
        (by show 512 * (c.val / 8) + (i 1).val = 512 - 512 * ((peer c).val / 8) + (i 1).val; omega)]
    rfl

/-- info: 'Cert.RS.OutSpec.outAt_spec' depends on axioms: [propext, Classical.choice, Quot.sound] -/
#guard_msgs in #print axioms Cert.RS.OutSpec.outAt_spec

end Cert.RS.OutSpec

end
-- ==== Proof.lean ====
/-
  A two-device exchange on a 2 × 2 × 4 mesh against the sum over the first axis on one device.

  Each of the sixteen devices holds one of the two slabs `x[a, :, :]` (`a` its first mesh coordinate) and a partner
  with the other slab. It sends the partner the column half the partner keeps, four chunks of 512 rows through a
  narrower format, and adds what it receives, widened again, to the column half it keeps. Over the extended reals the
  change of format is the identity, so device `c` ends with `x[a][r, 512a + l] + x[1 - a][r, 512a + l]`, which is
  block `a` (of two, along the columns) of `x[0] + x[1]`: the reference's sum with its zero start, by commutativity.
  The three frames: both kernels run to the end on every device with their argument arrays unchanged (the protocol of
  barrier, copies and waits, once for each instance), the reference by its run. Nothing was rewritten for the ideal
  reading, so the idealization conjunct is trivial.
-/
import proofs.«900473_g7700000000000474_dist_rs_v7x_xyz2x2x4_x_m2048_n512_f32_1_alg».proof.Defs
import proofs.«900473_g7700000000000474_dist_rs_v7x_xyz2x2x4_x_m2048_n512_f32_1_alg».proof.Proof.Gen.Kernel
import proofs.«900473_g7700000000000474_dist_rs_v7x_xyz2x2x4_x_m2048_n512_f32_1_alg».proof.Proof.Gen.Kernel.Skeleton
import proofs.«900473_g7700000000000474_dist_rs_v7x_xyz2x2x4_x_m2048_n512_f32_1_alg».proof.Proof.Gen.Kernel.Launch
import proofs.«900473_g7700000000000474_dist_rs_v7x_xyz2x2x4_x_m2048_n512_f32_1_alg».proof.Proof.Gen.Kernel.Points
import proofs.«900473_g7700000000000474_dist_rs_v7x_xyz2x2x4_x_m2048_n512_f32_1_alg».proof.Proof.Gen.Kernel.Frame
import proofs.«900473_g7700000000000474_dist_rs_v7x_xyz2x2x4_x_m2048_n512_f32_1_alg».proof.Proof.Gen.KernelIdeal
import proofs.«900473_g7700000000000474_dist_rs_v7x_xyz2x2x4_x_m2048_n512_f32_1_alg».proof.Proof.Gen.KernelIdeal.Skeleton
import proofs.«900473_g7700000000000474_dist_rs_v7x_xyz2x2x4_x_m2048_n512_f32_1_alg».proof.Proof.Gen.KernelIdeal.Launch
import proofs.«900473_g7700000000000474_dist_rs_v7x_xyz2x2x4_x_m2048_n512_f32_1_alg».proof.Proof.Gen.KernelIdeal.Points
import proofs.«900473_g7700000000000474_dist_rs_v7x_xyz2x2x4_x_m2048_n512_f32_1_alg».proof.Proof.Gen.KernelIdeal.Frame
import proofs.«900473_g7700000000000474_dist_rs_v7x_xyz2x2x4_x_m2048_n512_f32_1_alg».proof.Proof.Gen.ReferenceIdeal
import proofs.«900473_g7700000000000474_dist_rs_v7x_xyz2x2x4_x_m2048_n512_f32_1_alg».proof.Proof.Gen.Pre_finite_inputs_Kernel
import proofs.«900473_g7700000000000474_dist_rs_v7x_xyz2x2x4_x_m2048_n512_f32_1_alg».proof.Proof.Gen.Pre_finite_inputs_ReferenceIdeal
import proofs.«900473_g7700000000000474_dist_rs_v7x_xyz2x2x4_x_m2048_n512_f32_1_alg».proof.Proof.Gen.ReferenceIdeal.Run
import proofs.«900473_g7700000000000474_dist_rs_v7x_xyz2x2x4_x_m2048_n512_f32_1_alg».proof.Proof.Gen.ReferenceIdeal.Read
import proofs.«900473_g7700000000000474_dist_rs_v7x_xyz2x2x4_x_m2048_n512_f32_1_alg».proof.Proof.KernelLaunch
import proofs.«900473_g7700000000000474_dist_rs_v7x_xyz2x2x4_x_m2048_n512_f32_1_alg».proof.Proof.KernelIdealLaunch
import proofs.«900473_g7700000000000474_dist_rs_v7x_xyz2x2x4_x_m2048_n512_f32_1_alg».proof.Proof.Bridge
import proofs.«900473_g7700000000000474_dist_rs_v7x_xyz2x2x4_x_m2048_n512_f32_1_alg».proof.Proof.OutSpec
import Idealize.ShloMosaic.Adequacy
import Idealize.ShloMosaic.Init

noncomputable section

namespace Cert.Proof

open Idealize.ShloMosaic Idealize.ShloMosaic.TcCoe Idealize.SL.Sem

/-- The word-level kernel runs on all sixteen devices and leaves its argument unchanged. -/
theorem frame_p : Cert.frame_Kernel := fun m ρ _ =>
  (θ_run (Cert.Kernel.defs (F := Bits)) _ _).mono (fun r h c => (h c (0 : Fin 2)).trans (Cert.Kernel.RS.finalA_x m ρ c))
    (Cert.Kernel.RS.run_main (F := Bits) m ρ)

/-- So does the kernel read over the extended reals. -/
theorem frame_pi : Cert.frame_KernelIdeal := fun m ρ _ =>
  (θ_run (Cert.KernelIdeal.defs (F := Ideal)) _ _).mono (fun r h c => (h c (0 : Fin 2)).trans (Cert.KernelIdeal.RS.finalA_x m ρ c))
    (Cert.KernelIdeal.RS.run_main (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Each device's result is its column half of the sum of the two slabs. -/
theorem algebraic : Cert.algebraic_KernelIdeal_ReferenceIdeal := by
  intro m ρ m' ρ' _ hagree
  refine ⟨Cert.ReferenceIdeal.Read.val_main_v0 (F := Ideal) (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono
      (fun r h c => ⟨?_, (h c (0 : Fin 2)).trans (Cert.KernelIdeal.RS.finalA_x m ρ c)⟩) (Cert.KernelIdeal.RS.run_main (F := Ideal) m ρ)
    refine (h c (1 : Fin 2)).trans ?_
    rw [Cert.KernelIdeal.RS.finalA_out, Cert.RS.OutSpec.outAt_spec, Cert.KernelIdeal.RS.xstg_eq, Cert.KernelIdeal.RS.xstg_eq, hagree c, hagree (Cert.KernelIdeal.RS.peer c)]
    exact Cert.RS.Bridge.bridge _ c
  · exact (θ_run Cert.ReferenceIdeal.defs _ _).mono (fun _ h => ⟨(h 0).1.trans (Cert.ReferenceIdeal.Read.val_main_v0_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_p, frame_pi, frame_ri, trivial, algebraic⟩

end Cert.Proof

end
